-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x1000 : Shape := ⟨2, ![131072, 1000]⟩
abbrev S131072 : Shape := ⟨1, ![131072]⟩
abbrev S_ : Shape := ⟨0, ![]⟩

class Facts : Prop where
  bcast_S_S131072x1000 : S_.BroadcastsInDim S131072x1000 (![] : Fin 0 → Fin S131072x1000.rank)
  reducesTo_S131072x1000_S_d0_1 : S131072x1000.ReducesTo [0, 1] S_
  h_S_ : 0 < S_.numel

variable [Facts]

def fn {F : FTy → Type} [FloatOps F] (main_arg0 : FVec F S131072x1000 .f32) (main_arg1 : IVec S131072 32) : IVec S_ 1 :=
  let main_v0 : FVec F S131072x1000 .f32 := Host.absf main_arg0
  let main_cst : FVec F S_ .f32 := constant S_ .f32 0x7F800000#32
  let main_v1 : FVec F S131072x1000 .f32 := broadcastInDim S131072x1000 ![] bcast_S_S131072x1000 main_cst
  let main_v2 : IVec S131072x1000 1 := cmpf .olt main_v0 main_v1
  let main_c : IVec S_ 1 := constantI S_ 1 1#1
  let main_v3 : IVec S_ 1 := (fun x v => Host.reduce IntOp.andi x v reducesTo_S131072x1000_S_d0_1 h_S_) main_v2 main_c
  main_v3
-- ==== Kernel.lean ====
abbrev S131072x1000 : Shape := ⟨2, ![131072, 1000]⟩
abbrev S131072 : Shape := ⟨1, ![131072]⟩
abbrev S131072x1 : Shape := ⟨2, ![131072, 1]⟩
abbrev S2x15x1000 : Shape := ⟨3, ![2, 15, 1000]⟩
abbrev S512x1000 : Shape := ⟨2, ![512, 1000]⟩
abbrev S512x1 : Shape := ⟨2, ![512, 1]⟩
abbrev S1x15x1000 : Shape := ⟨3, ![1, 15, 1000]⟩
abbrev S15x1000 : Shape := ⟨2, ![15, 1000]⟩
abbrev S512 : Shape := ⟨1, ![512]⟩
abbrev S1x1000 : Shape := ⟨2, ![1, 1000]⟩
abbrev S1000 : Shape := ⟨1, ![1000]⟩
abbrev S512x128 : Shape := ⟨2, ![512, 128]⟩
abbrev S128x1000 : Shape := ⟨2, ![128, 1000]⟩
abbrev S_ : Shape := ⟨0, ![]⟩

abbrev nBuf : Space → Nat
  | .hbm => 36
  | .vmem => 13
  | .smem => 0
  | _ => 0

abbrev bufTy : (tb : Table) → Fin (tcTables nBuf tb) → BufTy
  | .hbm, ⟨0, _⟩ => ⟨S131072x1000, .f32⟩
  | .hbm, ⟨1, _⟩ => ⟨S131072, .i32⟩
  | .hbm, ⟨2, _⟩ => ⟨S131072x1, .i32⟩
  | .hbm, ⟨3, _⟩ => ⟨S2x15x1000, .f32⟩
  | .hbm, ⟨4, _⟩ => ⟨S2x15x1000, .f32⟩
  | .hbm, ⟨5, _⟩ => ⟨S2x15x1000, .f32⟩
  | .hbm, ⟨6, _⟩ => ⟨S_, .f32⟩
  | .hbm, ⟨7, _⟩ => ⟨S15x1000, .f32⟩
  | .hbm, ⟨8, _⟩ => ⟨S_, .f32⟩
  | .hbm, ⟨9, _⟩ => ⟨S15x1000, .f32⟩
  | .hbm, ⟨10, _⟩ => ⟨S_, .f32⟩
  | .hbm, ⟨11, _⟩ => ⟨S15x1000, .f32⟩
  | .hbm, ⟨12, _⟩ => ⟨S_, .f32⟩
  | .hbm, ⟨13, _⟩ => ⟨S15x1000, .f32⟩
  | .hbm, ⟨14, _⟩ => ⟨S15x1000, .f32⟩
  | .hbm, ⟨15, _⟩ => ⟨S15x1000, .f32⟩
  | .hbm, ⟨16, _⟩ => ⟨S15x1000, .f32⟩
  | .hbm, ⟨17, _⟩ => ⟨S_, .f32⟩
  | .hbm, ⟨18, _⟩ => ⟨S15x1000, .f32⟩
  | .hbm, ⟨19, _⟩ => ⟨S15x1000, .f32⟩
  | .hbm, ⟨20, _⟩ => ⟨S_, .f32⟩
  | .hbm, ⟨21, _⟩ => ⟨S15x1000, .f32⟩
  | .hbm, ⟨22, _⟩ => ⟨S15x1000, .i1⟩
  | .hbm, ⟨23, _⟩ => ⟨S15x1000, .f32⟩
  | .hbm, ⟨24, _⟩ => ⟨S15x1000, .f32⟩
  | .hbm, ⟨25, _⟩ => ⟨S15x1000, .f32⟩
  | .hbm, ⟨26, _⟩ => ⟨S_, .f32⟩
  | .hbm, ⟨27, _⟩ => ⟨S_, .f32⟩
  | .hbm, ⟨28, _⟩ => ⟨S15x1000, .f32⟩
  | .hbm, ⟨29, _⟩ => ⟨S15x1000, .f32⟩
  | .hbm, ⟨30, _⟩ => ⟨S_, .f32⟩
  | .hbm, ⟨31, _⟩ => ⟨S1000, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .local _ .vmem, ⟨0, _⟩ => ⟨S512x1000, .f32⟩
  | .local _ .vmem, ⟨1, _⟩ => ⟨S512x1000, .f32⟩
  | .local _ .vmem, ⟨2, _⟩ => ⟨S512x1, .i32⟩
  | .local _ .vmem, ⟨3, _⟩ => ⟨S512x1, .i32⟩
  | .local _ .vmem, ⟨4, _⟩ => ⟨S1x15x1000, .f32⟩
  | .local _ .vmem, ⟨5, _⟩ => ⟨S1x15x1000, .f32⟩
  | .local _ .vmem, ⟨6, _⟩ => ⟨S1x15x1000, .f32⟩
  | .local _ .vmem, ⟨7, _⟩ => ⟨S1x15x1000, .f32⟩
  | .local _ .vmem, ⟨8, _⟩ => ⟨S1x15x1000, .f32⟩
  | .local _ .vmem, ⟨9, _⟩ => ⟨S1x15x1000, .f32⟩
  | .local _ .vmem, ⟨10, _⟩ => ⟨S15x1000, .f32⟩
  | .local _ .vmem, ⟨11, _⟩ => ⟨S15x1000, .f32⟩
  | .local _ .vmem, ⟨12, _⟩ => ⟨S15x1000, .f32⟩
  | _, _ => ⟨S131072x1000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v1_2 : Ref sig .tc := ⟨.hbm, 5, rfl⟩
abbrev main_cst : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_cst_2 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_cst_4 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_cst_6 : Ref sig .tc := ⟨.hbm, 30, rfl⟩
abbrev main_v17 : Ref sig .tc := ⟨.hbm, 31, rfl⟩
abbrev main_cst_7 : Ref sig .tc := ⟨.hbm, 32, rfl⟩
abbrev main_v18 : Ref sig .tc := ⟨.hbm, 33, rfl⟩
abbrev main_cst_8 : Ref sig .tc := ⟨.hbm, 34, rfl⟩
abbrev main_v19 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 128], ![false, false]⟩

def k0_cond2 (i : grid0.Coords) : BitVec 1 :=
  let arg1 : BitVec 32 := BitVec.ofNat 32 (i 1).val
  let c127_i32 : BitVec 32 := 127#32
  let v372 : BitVec 1 := Scalar.cmpi .eq arg1 c127_i32
  let v373 : BitVec 32 := Scalar.extui v372
  let c0_i32_201 : BitVec 32 := 0#32
  let v374 : BitVec 1 := Scalar.cmpi .ne v373 c0_i32_201
  v374

def cc0_transform_0 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x15x1000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x15x1000 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x15x1000 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  shapeCasts_S131072_S131072x1 : S131072.ShapeCasts S131072x1
  inb_S15x1000_S15x1000_0_0 : ∀ a, (![0, 0] : Fin 2 → Nat) a + S15x1000.size a ≤ S15x1000.size a
  h_S15x1000 : 0 < S15x1000.numel
  shapeCasts_S15x1000_S15x1000 : S15x1000.ShapeCasts S15x1000
  inb_S512x1000_S512x1000_0_0 : ∀ a, (![0, 0] : Fin 2 → Nat) a + S512x1000.size a ≤ S512x1000.size a
  h_S512x1000 : 0 < S512x1000.numel
  reduces_S512x1000_S512 : S512x1000.Reduces [1] S512
  shapeCasts_S512_S512x1 : S512.ShapeCasts S512x1
  broadcasts_S512x1_S512x1000 : S512x1.Broadcasts S512x1000
  inb_S512x1_S512x1_0_0 : ∀ a, (![0, 0] : Fin 2 → Nat) a + S512x1.size a ≤ S512x1.size a
  h_S512x1 : 0 < S512x1.numel
  shapeCasts_S512x1_S512x1 : S512x1.ShapeCasts S512x1
  iota_S512x1000_d1_w32 : S512x1000.Iotas .tc 32 [1]
  natLt_1_32 : 1 < 32
  inb_S15x1000_S1x1000_0_0 : ∀ a, (![0, 0] : Fin 2 → Nat) a + S1x1000.size a ≤ S15x1000.size a
  h_S1x1000 : 0 < S1x1000.numel
  reduces_S512x1000_S1000 : S512x1000.Reduces [0] S1000
  shapeCasts_S1000_S1x1000 : S1000.ShapeCasts S1x1000
  shapeCasts_S1x1000_S1x1000 : S1x1000.ShapeCasts S1x1000
  inb_S15x1000_S1x1000_1_0 : ∀ a, (![1, 0] : Fin 2 → Nat) a + S1x1000.size a ≤ S15x1000.size a
  inb_S15x1000_S1x1000_2_0 : ∀ a, (![2, 0] : Fin 2 → Nat) a + S1x1000.size a ≤ S15x1000.size a
  inb_S15x1000_S1x1000_3_0 : ∀ a, (![3, 0] : Fin 2 → Nat) a + S1x1000.size a ≤ S15x1000.size a
  inb_S15x1000_S1x1000_4_0 : ∀ a, (![4, 0] : Fin 2 → Nat) a + S1x1000.size a ≤ S15x1000.size a
  inb_S15x1000_S1x1000_5_0 : ∀ a, (![5, 0] : Fin 2 → Nat) a + S1x1000.size a ≤ S15x1000.size a
  inb_S15x1000_S1x1000_6_0 : ∀ a, (![6, 0] : Fin 2 → Nat) a + S1x1000.size a ≤ S15x1000.size a
  inb_S15x1000_S1x1000_7_0 : ∀ a, (![7, 0] : Fin 2 → Nat) a + S1x1000.size a ≤ S15x1000.size a
  inb_S15x1000_S1x1000_8_0 : ∀ a, (![8, 0] : Fin 2 → Nat) a + S1x1000.size a ≤ S15x1000.size a
  inb_S15x1000_S1x1000_9_0 : ∀ a, (![9, 0] : Fin 2 → Nat) a + S1x1000.size a ≤ S15x1000.size a
  inb_S15x1000_S1x1000_10_0 : ∀ a, (![10, 0] : Fin 2 → Nat) a + S1x1000.size a ≤ S15x1000.size a
  inb_S15x1000_S1x1000_11_0 : ∀ a, (![11, 0] : Fin 2 → Nat) a + S1x1000.size a ≤ S15x1000.size a
  inb_S15x1000_S1x1000_12_0 : ∀ a, (![12, 0] : Fin 2 → Nat) a + S1x1000.size a ≤ S15x1000.size a
  inb_S15x1000_S1x1000_13_0 : ∀ a, (![13, 0] : Fin 2 → Nat) a + S1x1000.size a ≤ S15x1000.size a
  inb_S15x1000_S1x1000_14_0 : ∀ a, (![14, 0] : Fin 2 → Nat) a + S1x1000.size a ≤ S15x1000.size a
  iota_S512x128_d1_w32 : S512x128.Iotas .tc 32 [1]
  broadcasts_S512x1_S512x128 : S512x1.Broadcasts S512x128
  bitsLt_bf16_f32 : FTy.bits .bf16 < FTy.bits .f32
  slices_S128x1000_o0_0_S15x1000 : S128x1000.Slices ![0, 0] S15x1000
  inb_S1x15x1000_S1x15x1000_0_0_0 : ∀ a, (![0, 0, 0] : Fin 3 → Nat) a + S1x15x1000.size a ≤ S1x15x1000.size a
  h_S1x15x1000 : 0 < S1x15x1000.numel
  shapeCasts_S1x15x1000_S15x1000 : S1x15x1000.ShapeCasts S15x1000
  shapeCasts_S15x1000_S1x15x1000 : S15x1000.ShapeCasts S1x15x1000
  reducesTo_S2x15x1000_S15x1000_d0 : S2x15x1000.ReducesTo [0] S15x1000
  h_S_ : 0 < S_.numel
  bcast_S_S15x1000 : S_.BroadcastsInDim S15x1000 (![] : Fin 0 → Fin S15x1000.rank)
  reducesTo_S15x1000_S1000_d0 : S15x1000.ReducesTo [0] S1000
  reducesTo_S1000_S_d0 : S1000.ReducesTo [0] S_
  dot_S512x128_S512x1000_S128x1000_0_0_1_1_n_n_wf : DotDims.WF S512x128 S512x1000 S128x1000 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1000.size a ≤ S131072x1000.size a
  hwx0_0 : ∀ i : grid0.Coords, EltTy.bits .f32 = 32 ∨ (Rect.block (s := S131072x1000) S512x1000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1.size a ≤ S131072x1.size a
  hwx0_1 : ∀ i : grid0.Coords, EltTy.bits .i32 = 32 ∨ (Rect.block (s := S131072x1) S512x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x15x1000.size a ≤ S2x15x1000.size a
  hwx0_2 : ∀ i : grid0.Coords, EltTy.bits .f32 = 32 ∨ (Rect.block (s := S2x15x1000) S1x15x1000.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x15x1000.size a ≤ S2x15x1000.size a
  hwx0_3 : ∀ i : grid0.Coords, EltTy.bits .f32 = 32 ∨ (Rect.block (s := S2x15x1000) S1x15x1000.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x15x1000.size a ≤ S2x15x1000.size a
  hwx0_4 : ∀ i : grid0.Coords, EltTy.bits .f32 = 32 ∨ (Rect.block (s := S2x15x1000) S1x15x1000.size (cc0_transform_4 i) (hinb0_4 i)).WholeWords (EltTy.packing .f32)

variable [Facts₀]

def dot_S512x128_S512x1000_S128x1000_0_0_1_1_n_n : DotDims S512x128 S512x1000 S128x1000 where
  lhsContracting := [0]
  rhsContracting := [0]
  lhsNonContracting := [1]
  rhsNonContracting := [1]
  lhsBatch := []
  rhsBatch := []
  wf := dot_S512x128_S512x1000_S128x1000_0_0_1_1_n_n_wf

abbrev win0_0 : Pipeline.Window sig grid0 :=
  Pipeline.Window.ofSpec (Memref.whole main_arg0) S512x1000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1_0) S1x15x1000.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_1) S1x15x1000.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1_2) S1x15x1000.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun i => !(k0_cond2 i == 1#1) | 3 => fun i => !(k0_cond2 i == 1#1) | 4 => fun i => !(k0_cond2 i == 1#1) | ⟨_ + 5, h⟩ => absurd h (Nat.not_lt.2 (Nat.le_add_left _ _))

class Facts : Prop extends Facts₀ where

variable [Facts]
-- ==== ReferenceIdeal.lean ====
abbrev S131072x1000 : Shape := ⟨2, ![131072, 1000]⟩
abbrev S131072 : Shape := ⟨1, ![131072]⟩
abbrev S_ : Shape := ⟨0, ![]⟩
abbrev S131072x1 : Shape := ⟨2, ![131072, 1]⟩
abbrev S1000 : Shape := ⟨1, ![1000]⟩
abbrev S1x1000 : Shape := ⟨2, ![1, 1000]⟩
abbrev S131072000 : Shape := ⟨1, ![131072000]⟩
abbrev S15000 : Shape := ⟨1, ![15000]⟩
abbrev S131072000x1 : Shape := ⟨2, ![131072000, 1]⟩
abbrev S1000x15 : Shape := ⟨2, ![1000, 15]⟩

abbrev nBuf : Space → Nat
  | .hbm => 90
  | .vmem => 0
  | .smem => 0
  | _ => 0

abbrev bufTy : (tb : Table) → Fin (tcTables nBuf tb) → BufTy
  | .hbm, ⟨0, _⟩ => ⟨S131072x1000, .f32⟩
  | .hbm, ⟨1, _⟩ => ⟨S131072, .i32⟩
  | .hbm, ⟨2, _⟩ => ⟨S_, .f32⟩
  | .hbm, ⟨3, _⟩ => ⟨S131072, .f32⟩
  | .hbm, ⟨4, _⟩ => ⟨S_, .f32⟩
  | .hbm, ⟨5, _⟩ => ⟨S131072, .f32⟩
  | .hbm, ⟨6, _⟩ => ⟨S131072, .f32⟩
  | .hbm, ⟨7, _⟩ => ⟨S131072x1, .f32⟩
  | .hbm, ⟨8, _⟩ => ⟨S131072x1000, .f32⟩
  | .hbm, ⟨9, _⟩ => ⟨S131072x1000, .f32⟩
  | .hbm, ⟨10, _⟩ => ⟨S131072x1000, .f32⟩
  | .hbm, ⟨11, _⟩ => ⟨S_, .f32⟩
  | .hbm, ⟨12, _⟩ => ⟨S131072, .f32⟩
  | .hbm, ⟨13, _⟩ => ⟨S131072x1, .f32⟩
  | .hbm, ⟨14, _⟩ => ⟨S131072x1000, .f32⟩
  | .hbm, ⟨15, _⟩ => ⟨S131072x1000, .f32⟩
  | .hbm, ⟨16, _⟩ => ⟨S_, .f32⟩
  | .hbm, ⟨17, _⟩ => ⟨S131072x1000, .f32⟩
  | .hbm, ⟨18, _⟩ => ⟨S131072x1000, .f32⟩
  | .hbm, ⟨19, _⟩ => ⟨S131072x1000, .f32⟩
  | .hbm, ⟨20, _⟩ => ⟨S131072x1000, .i32⟩
  | .hbm, ⟨21, _⟩ => ⟨S_, .i32⟩
  | .hbm, ⟨22, _⟩ => ⟨S131072x1000, .i32⟩
  | .hbm, ⟨23, _⟩ => ⟨S131072x1000, .i32⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S131072x1000, .i32⟩
  | .hbm, ⟨28, _⟩ => ⟨S131072x1000, .i32⟩
  | .hbm, ⟨29, _⟩ => ⟨S_, .i32⟩
  | .hbm, ⟨30, _⟩ => ⟨S131072x1000, .i32⟩
  | .hbm, ⟨31, _⟩ => ⟨S131072x1000, .i32⟩
  | .hbm, ⟨32, _⟩ => ⟨S1000, .i32⟩
  | .hbm, ⟨33, _⟩ => ⟨S1x1000, .i32⟩
  | .hbm, ⟨34, _⟩ => ⟨S_, .i32⟩
  | .hbm, ⟨35, _⟩ => ⟨S1x1000, .i32⟩
  | .hbm, ⟨36, _⟩ => ⟨S1x1000, .i32⟩
  | .hbm, ⟨37, _⟩ => ⟨S131072x1000, .i32⟩
  | .hbm, ⟨38, _⟩ => ⟨S131072x1000, .i32⟩
  | .hbm, ⟨39, _⟩ => ⟨S131072000, .i32⟩
  | .hbm, ⟨40, _⟩ => ⟨S_, .f32⟩
  | .hbm, ⟨41, _⟩ => ⟨S131072000, .f32⟩
  | .hbm, ⟨42, _⟩ => ⟨S_, .f32⟩
  | .hbm, ⟨43, _⟩ => ⟨S15000, .f32⟩
  | .hbm, ⟨44, _⟩ => ⟨S131072000x1, .i32⟩
  | .hbm, ⟨45, _⟩ => ⟨S15000, .f32⟩
  | .hbm, ⟨46, _⟩ => ⟨S131072000, .f32⟩
  | .hbm, ⟨47, _⟩ => ⟨S_, .f32⟩
  | .hbm, ⟨48, _⟩ => ⟨S15000, .f32⟩
  | .hbm, ⟨49, _⟩ => ⟨S131072000x1, .i32⟩
  | .hbm, ⟨50, _⟩ => ⟨S15000, .f32⟩
  | .hbm, ⟨51, _⟩ => ⟨S131072x1, .i32⟩
  | .hbm, ⟨52, _⟩ => ⟨S1000, .i32⟩
  | .hbm, ⟨53, _⟩ => ⟨S1x1000, .i32⟩
  | .hbm, ⟨54, _⟩ => ⟨S131072x1000, .i32⟩
  | .hbm, ⟨55, _⟩ => ⟨S131072x1000, .i32⟩
  | .hbm, ⟨56, _⟩ => ⟨S131072x1000, .i1⟩
  | .hbm, ⟨57, _⟩ => ⟨S131072x1000, .f32⟩
  | .hbm, ⟨58, _⟩ => ⟨S131072000, .f32⟩
  | .hbm, ⟨59, _⟩ => ⟨S_, .f32⟩
  | .hbm, ⟨60, _⟩ => ⟨S15000, .f32⟩
  | .hbm, ⟨61, _⟩ => ⟨S131072000x1, .i32⟩
  | .hbm, ⟨62, _⟩ => ⟨S15000, .f32⟩
  | .hbm, ⟨63, _⟩ => ⟨S1000x15, .f32⟩
  | .hbm, ⟨64, _⟩ => ⟨S1000x15, .f32⟩
  | .hbm, ⟨65, _⟩ => ⟨S1000x15, .f32⟩
  | .hbm, ⟨66, _⟩ => ⟨S_, .f32⟩
  | .hbm, ⟨67, _⟩ => ⟨S1000x15, .f32⟩
  | .hbm, ⟨68, _⟩ => ⟨S1000x15, .f32⟩
  | .hbm, ⟨69, _⟩ => ⟨S1000x15, .f32⟩
  | .hbm, ⟨70, _⟩ => ⟨S1000x15, .f32⟩
  | .hbm, ⟨71, _⟩ => ⟨S_, .f32⟩
  | .hbm, ⟨72, _⟩ => ⟨S1000x15, .f32⟩
  | .hbm, ⟨73, _⟩ => ⟨S1000x15, .f32⟩
  | .hbm, ⟨74, _⟩ => ⟨S_, .f32⟩
  | .hbm, ⟨75, _⟩ => ⟨S1000x15, .f32⟩
  | .hbm, ⟨76, _⟩ => ⟨S1000x15, .i1⟩
  | .hbm, ⟨77, _⟩ => ⟨S1000x15, .f32⟩
  | .hbm, ⟨78, _⟩ => ⟨S1000x15, .f32⟩
  | .hbm, ⟨79, _⟩ => ⟨S1000x15, .f32⟩
  | .hbm, ⟨80, _⟩ => ⟨S_, .f32⟩
  | .hbm, ⟨81, _⟩ => ⟨S_, .f32⟩
  | .hbm, ⟨82, _⟩ => ⟨S1000x15, .f32⟩
  | .hbm, ⟨83, _⟩ => ⟨S1000x15, .f32⟩
  | .hbm, ⟨84, _⟩ => ⟨S_, .f32⟩
  | .hbm, ⟨85, _⟩ => ⟨S1000, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S_, .f32⟩
  | _, _ => ⟨S131072x1000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_c : Ref sig .tc := ⟨.hbm, 21, rfl⟩
abbrev main_v15 : Ref sig .tc := ⟨.hbm, 22, rfl⟩
abbrev main_v16 : Ref sig .tc := ⟨.hbm, 23, rfl⟩
abbrev main_c_3 : Ref sig .tc := ⟨.hbm, 24, rfl⟩
abbrev main_c_4 : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_c_5 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_6 : Ref sig .tc := ⟨.hbm, 40, rfl⟩
abbrev main_v25 : Ref sig .tc := ⟨.hbm, 41, rfl⟩
abbrev main_cst_7 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_8 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_9 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_10 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_cst_11 : Ref sig .tc := ⟨.hbm, 71, rfl⟩
abbrev main_v51 : Ref sig .tc := ⟨.hbm, 72, rfl⟩
abbrev main_v52 : Ref sig .tc := ⟨.hbm, 73, rfl⟩
abbrev main_cst_12 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_13 : Ref sig .tc := ⟨.hbm, 80, rfl⟩
abbrev main_call1_v0 : Ref sig .tc := ⟨.hbm, 81, rfl⟩
abbrev main_call1_v1 : Ref sig .tc := ⟨.hbm, 82, rfl⟩
abbrev main_v58 : Ref sig .tc := ⟨.hbm, 83, rfl⟩
abbrev main_cst_14 : Ref sig .tc := ⟨.hbm, 84, rfl⟩
abbrev main_v59 : Ref sig .tc := ⟨.hbm, 85, rfl⟩
abbrev main_cst_15 : Ref sig .tc := ⟨.hbm, 86, rfl⟩
abbrev main_v60 : Ref sig .tc := ⟨.hbm, 87, rfl⟩
abbrev main_cst_16 : Ref sig .tc := ⟨.hbm, 88, rfl⟩
abbrev main_v61 : Ref sig .tc := ⟨.hbm, 89, rfl⟩

abbrev nD : Nat := 1
abbrev τ : Topo := Topo.v7x

variable {F : FTy → Type} [FloatOps F]

class Facts₀ : Prop where
  reducesTo_S131072x1000_S131072_d1 : S131072x1000.ReducesTo [1] S131072
  h_S_ : 0 < S_.numel
  bcast_S_S131072 : S_.BroadcastsInDim S131072 (![] : Fin 0 → Fin S131072.rank)
  bcast_S131072_S131072x1_0 : S131072.BroadcastsInDim S131072x1 (![0] : Fin 1 → Fin S131072x1.rank)
  bcast_S131072x1_S131072x1000_0_1 : S131072x1.BroadcastsInDim S131072x1000 (![0, 1] : Fin 2 → Fin S131072x1000.rank)
  bcast_S_S131072x1000 : S_.BroadcastsInDim S131072x1000 (![] : Fin 0 → Fin S131072x1000.rank)
  bcast_S1000_S1x1000_1 : S1000.BroadcastsInDim S1x1000 (![1] : Fin 1 → Fin S1x1000.rank)
  bcast_S_S1x1000 : S_.BroadcastsInDim S1x1000 (![] : Fin 0 → Fin S1x1000.rank)
  bcast_S1x1000_S131072x1000_0_1 : S1x1000.BroadcastsInDim S131072x1000 (![0, 1] : Fin 2 → Fin S131072x1000.rank)
  shapeCasts_S131072x1000_S131072000 : S131072x1000.ShapeCasts S131072000
  bcast_S_S131072000 : S_.BroadcastsInDim S131072000 (![] : Fin 0 → Fin S131072000.rank)
  bcast_S_S15000 : S_.BroadcastsInDim S15000 (![] : Fin 0 → Fin S15000.rank)
  bcast_S131072000_S131072000x1_0 : S131072000.BroadcastsInDim S131072000x1 (![0] : Fin 1 → Fin S131072000x1.rank)
  shapeCasts_S15000_S1000x15 : S15000.ShapeCasts S1000x15
  bcast_S_S1000x15 : S_.BroadcastsInDim S1000x15 (![] : Fin 0 → Fin S1000x15.rank)
  reducesTo_S1000x15_S1000_d1 : S1000x15.ReducesTo [1] S1000
  reducesTo_S1000_S_d0 : S1000.ReducesTo [0] S_
  scatter_S15000_S131072000x1_S131072000_n_0_0_1_wf : ScatterDims.WF S15000 S131072000x1 S131072000 [] [0] [0] 1

variable [Facts₀]

def scatter_S15000_S131072000x1_S131072000_n_0_0_1 : ScatterDims S15000 S131072000x1 S131072000 where
  updateWindowDims := []
  insertedWindowDims := [0]
  scatterDimsToOperandDims := [0]
  indexVectorDim := 1
  wf := scatter_S15000_S131072000x1_S131072000_n_0_0_1_wf

class Facts : Prop extends Facts₀ where

variable [Facts]
-- ==== Proof.Binning.lean ====
/-
  Classwise calibration error by histogram binning, as one function of the logits and the labels.

  A row of 1000 logits is turned into probabilities by the softmax (subtract the row's supremum,
  exponentiate, divide by the row's sum). A probability `p` falls in bin `⌈15·p⌉ − 1`, clipped into
  `[0, 14]` (bin `b` holds the probabilities of `(b/15, (b+1)/15]`); the bin is a 32-bit integer.
  For a class `c` and a bin `b` three histograms are taken over all 131072 rows: how many rows have
  the probability of class `c` in bin `b` (`count`), the sum of those probabilities (`conf`), and how
  many of those rows carry the label `c` (`acc`). The gap of a cell is
  `|conf / max(count, 1) − acc / max(count, 1)| · count / 131072` where `count > 0` and `0` elsewhere;
  the result is the sum of the gaps over bins and classes, divided by 1000.

  Float literals stay the words the programs print; only the zero word is ever evaluated.
-/
import Idealize.ShloMosaic.PureOps.Ideal
import Idealize.ShloMosaic.PureOps.Ideal.Laws
import Idealize.ShloMosaic.Lib.ValueIdx

noncomputable section

open scoped BigOperators

namespace Cert.Hist

open Idealize.ShloMosaic Idealize.ShloMosaic.ValueIdx

/-- The logits: 131072 rows of 1000 classes. -/
abbrev Logits := (⟨2, ![131072, 1000]⟩ : Shape).Idx → EReal
/-- The labels: one 32-bit integer per row. -/
abbrev Labels := (⟨1, ![131072]⟩ : Shape).Idx → BitVec 32

/-- The softmax of one row at class `c`: `exp (row c − sup row) / ∑ k, exp (row k − sup row)`. -/
def rowProb (row : Fin 1000 → EReal) (c : Fin 1000) : EReal :=
  Ideal.div (Ideal.exp (row c - Finset.univ.sup row)) (∑ k : Fin 1000, Ideal.exp (row k - Finset.univ.sup row))

/-- The bin of a probability, a 32-bit integer: `⌈p · 15⌉` converted, minus one, clipped below by 0 and above by 14. -/
def binOf (p : EReal) : BitVec 32 :=
  IntOp.minsi 14#32 (IntOp.maxsi 0#32
    (IntOp.subi (Ideal.fptosi 32 (Ideal.liftRound Int.ceil (p * Ideal.ofBits .f32 0x41700000#32))) 1#32))

/-- Whether a row's label is the class `c`, as the number 1 or 0. -/
def labOf (l : BitVec 32) (c : Fin 1000) : EReal := if l = BitVec.ofNat 32 c.val then 1 else 0

/-- The probability of class `c` in row `n`. -/
def prob (x : Logits) (n : Fin 131072) (c : Fin 1000) : EReal := rowProb (fun k => x (ix2 n k)) c

/-- How many rows have the probability of class `c` in bin `b` (each counted as the float one). -/
def count (x : Logits) (b : Fin 15) (c : Fin 1000) : EReal :=
  ∑ n : Fin 131072, if binOf (prob x n c) = BitVec.ofNat 32 b.val then Ideal.ofBits .f32 0x3F800000#32 else 0

/-- The sum of the probabilities of class `c` that fall in bin `b`. -/
def conf (x : Logits) (b : Fin 15) (c : Fin 1000) : EReal :=
  ∑ n : Fin 131072, if binOf (prob x n c) = BitVec.ofNat 32 b.val then prob x n c else 0

/-- How many of the rows whose probability of class `c` falls in bin `b` are labelled `c`. -/
def acc (x : Logits) (l : Labels) (b : Fin 15) (c : Fin 1000) : EReal :=
  ∑ n : Fin 131072, if binOf (prob x n c) = BitVec.ofNat 32 b.val then labOf (l (ix1 n)) c else 0

/-- The gap of one (class, bin) cell from its three histogram entries. -/
def gap (cnt cf ac : EReal) : EReal :=
  Scalar.select (Ideal.cmp .ogt cnt (Ideal.ofBits .f32 0x00000000#32))
    (FloatOps.absf (F := Ideal) (φ := .f32)
        (Ideal.div cf (max cnt (Ideal.ofBits .f32 0x3F800000#32)) - Ideal.div ac (max cnt (Ideal.ofBits .f32 0x3F800000#32)))
      * Ideal.div cnt (Ideal.ofBits .f32 0x48000000#32))
    (Ideal.ofBits .f32 0x00000000#32)

/-- The calibration error: the gaps summed over the bins of each class, then over the classes (each sum started from
    the float zero), divided by 1000. -/
def total (x : Logits) (l : Labels) : EReal :=
  Ideal.div
    (Ideal.ofBits .f32 0x00000000#32 + ∑ c : Fin 1000,
      (Ideal.ofBits .f32 0x00000000#32 + ∑ b : Fin 15, gap (count x b c) (conf x b c) (acc x l b c)))
    (Ideal.ofBits .f32 0x447A0000#32)

end Cert.Hist

end
-- ==== Proof.BinRange.lean ====
/-
  The bin of a probability is one of the fifteen integers 0 … 14.

  The bin is a 32-bit integer clipped below by 0 and above by 14 in the signed order, so whatever the
  conversion produced, the clipped word is the word of a natural number below 15. Comparing the bin with
  the word of a bin index for equality gives the one-bit word 1 exactly when the two are equal.
-/
import proofs.«133106_j33303176413864_2_alg».proof.Proof.Binning

namespace Cert.Hist

open Idealize.ShloMosaic

/-- Clipping any 32-bit integer into `[0, 14]` (signed) leaves a word whose unsigned value is below 15. -/
theorem clip_toNat_lt (v : BitVec 32) : (IntOp.minsi 14#32 (IntOp.maxsi 0#32 v)).toNat < 15 := by
  unfold IntOp.minsi IntOp.maxsi
  simp only [BitVec.slt, BitVec.toInt_eq_toNat_cond]
  have hv := v.isLt
  split_ifs <;> simp_all <;> omega

/-- The clipped word is the word of a bin index. -/
theorem clip_eq_ofNat (v : BitVec 32) :
    ∃ k : Fin 15, IntOp.minsi 14#32 (IntOp.maxsi 0#32 v) = BitVec.ofNat 32 k.val := by
  refine ⟨⟨_, clip_toNat_lt v⟩, ?_⟩
  apply BitVec.eq_of_toNat_eq
  have h := clip_toNat_lt v
  simp only [BitVec.toNat_ofNat]
  omega

/-- The bin of a probability is the word of one of the fifteen bin indices. -/
theorem binOf_range (p : EReal) : ∃ k : Fin 15, binOf p = BitVec.ofNat 32 k.val :=
  clip_eq_ofNat _

/-- The unsigned value of a bin is below 15. -/
theorem binOf_toNat_lt (p : EReal) : (binOf p).toNat < 15 := clip_toNat_lt _

/-- The words of two bin indices are equal only if the indices are. -/
theorem ofNat_bin_injective {a b : Fin 15} (h : BitVec.ofNat 32 a.val = BitVec.ofNat 32 b.val) : a = b := by
  have h' := congrArg BitVec.toNat h
  simp only [BitVec.toNat_ofNat] at h'
  have ha := a.isLt
  have hb := b.isLt
  apply Fin.ext
  omega

/-- The equality comparison of two words is the one-bit word 1 exactly when they are equal. -/
theorem cmpi_eq_one_iff {w : Nat} (x y : BitVec w) : IntOp.cmpi .eq x y = 1#1 ↔ x = y := by
  unfold IntOp.cmpi
  by_cases h : x = y
  · simp [h]
  · have hb : (x == y) = false := beq_eq_false_iff_ne.mpr h
    simp [h, hb]

/-- The equality comparison of two words is the one-bit word 0 exactly when they differ. -/
theorem cmpi_eq_zero_iff {w : Nat} (x y : BitVec w) : IntOp.cmpi .eq x y = 0#1 ↔ x ≠ y := by
  unfold IntOp.cmpi
  by_cases h : x = y
  · simp [h]
  · have hb : (x == y) = false := beq_eq_false_iff_ne.mpr h
    simp [h, hb]

/-- The bin is `b` exactly when the comparison bit of the bin with the word of `b` is set. -/
theorem binOf_eq_iff_cmpi (p : EReal) (b : Fin 15) :
    binOf p = BitVec.ofNat 32 b.val ↔ IntOp.cmpi .eq (binOf p) (BitVec.ofNat 32 b.val) = 1#1 :=
  (cmpi_eq_one_iff _ _).symm

end Cert.Hist
-- ==== Proof.LibGridAcc.lean ====
/-
  Two facts about finite sums in an additive commutative monoid (used over the extended reals; nothing here asks the
  summands to be finite).

  A sum over `B · J` consecutive positions is the sum, over the `B` blocks, of each block's `J` entries: position
  `J · j + k` is entry `k` of block `j`. Stated for any `B` and `J`, and once more for 8192 = 8 · 1024 positions over
  `Fin 8192` itself, so that no change of index type is left to the user.

  An accumulator that starts from zero plus the first summand and then adds one summand per step holds, after step
  `n`, the sum of the summands `0, …, n`. Stated for sequences indexed by the natural numbers (with the step law for
  every `j`, or only below a bound), for sequences indexed by `Fin (n + 1)`, and in the variant where every summand
  arrives as zero plus itself.
-/
import Mathlib.Algebra.BigOperators.Fin
import Mathlib.Algebra.BigOperators.Intervals
import Mathlib.Logic.Equiv.Fin.Basic
import Idealize.ShloMosaic.PureOps.Ideal

open scoped BigOperators

namespace Cert.Lib.GridAcc

variable {M : Type*} [AddCommMonoid M]

/-! ## A sum cut into equal blocks -/

/-- Entry `k` of block `j` lies inside the `B · J` positions. -/
theorem blk_lt {B J : ℕ} (j : Fin B) (k : Fin J) : J * j.val + k.val < B * J := by
  have hj := j.isLt
  have hk := k.isLt
  calc J * j.val + k.val < J * j.val + J := by omega
    _ = J * (j.val + 1) := by ring
    _ ≤ J * B := Nat.mul_le_mul_left _ hj
    _ = B * J := Nat.mul_comm _ _

/-- The same position written block index first. -/
theorem blk_lt' {B J : ℕ} (j : Fin B) (k : Fin J) : j.val * J + k.val < B * J := by
  rw [Nat.mul_comm j.val J]; exact blk_lt j k

/-- A sum over `B · J` positions is the sum over the blocks of each block's entries. -/
theorem sum_blocks {B J : ℕ} (g : Fin (B * J) → M) :
    ∑ x : Fin (B * J), g x = ∑ j : Fin B, ∑ k : Fin J, g ⟨J * j.val + k.val, blk_lt j k⟩ := by
  rw [← (finProdFinEquiv (m := B) (n := J)).sum_comp g, Fintype.sum_prod_type]
  refine Finset.sum_congr rfl fun j _ => Finset.sum_congr rfl fun k _ => congrArg g (Fin.ext ?_)
  show k.val + J * j.val = J * j.val + k.val
  exact Nat.add_comm _ _

/-- The same with the position written block index first. -/
theorem sum_blocks' {B J : ℕ} (g : Fin (B * J) → M) :
    ∑ x : Fin (B * J), g x = ∑ j : Fin B, ∑ k : Fin J, g ⟨j.val * J + k.val, blk_lt' j k⟩ := by
  rw [sum_blocks]
  exact Finset.sum_congr rfl fun j _ => Finset.sum_congr rfl fun k _ => congrArg g (Fin.ext (by
    show J * j.val + k.val = j.val * J + k.val
    rw [Nat.mul_comm]))

/-- 8192 positions as 8 blocks of 1024. -/
theorem sum_8192 (g : Fin 8192 → M) :
    ∑ n : Fin 8192, g n = ∑ j : Fin 8, ∑ k : Fin 1024, g ⟨1024 * j.val + k.val, by omega⟩ :=
  sum_blocks (B := 8) (J := 1024) g

/-- The same with the position written block index first. -/
theorem sum_8192' (g : Fin 8192 → M) :
    ∑ n : Fin 8192, g n = ∑ j : Fin 8, ∑ k : Fin 1024, g ⟨j.val * 1024 + k.val, by omega⟩ :=
  sum_blocks' (B := 8) (J := 1024) g

/-! ## An accumulator run step by step -/

/-- With the step law below a bound `N`: after step `n ≤ N` the accumulator holds the sum of the summands `0, …, n`. -/
theorem acc_eq_sum_of_lt (a b : ℕ → M) (N : ℕ) (h0 : a 0 = 0 + b 0) (hs : ∀ j, j < N → a (j + 1) = a j + b (j + 1)) :
    ∀ n, n ≤ N → a n = ∑ j ∈ Finset.range (n + 1), b j := by
  intro n
  induction n with
  | zero => intro _; rw [h0, zero_add, Finset.sum_range_one]
  | succ n ih =>
    intro hn
    rw [hs n (by omega), ih (by omega), Finset.sum_range_succ _ (n + 1)]

/-- With the step law at every `j`: after step `n` the accumulator holds the sum of the summands `0, …, n`. -/
theorem acc_eq_sum (a b : ℕ → M) (h0 : a 0 = 0 + b 0) (hs : ∀ j, a (j + 1) = a j + b (j + 1)) (n : ℕ) :
    a n = ∑ j ∈ Finset.range (n + 1), b j :=
  acc_eq_sum_of_lt a b n h0 (fun j _ => hs j) n (le_refl n)

/-- After the eighth step (step 7), as a sum over `Fin 8`; the step law is needed only below 7. -/
theorem acc7_eq_sum (a b : ℕ → M) (h0 : a 0 = 0 + b 0) (hs : ∀ j, j < 7 → a (j + 1) = a j + b (j + 1)) :
    a 7 = ∑ j : Fin 8, b j.val := by
  rw [acc_eq_sum_of_lt a b 7 h0 hs 7 (le_refl 7), Finset.sum_range]

/-- The variant where every summand arrives as zero plus itself (a product added into a zero accumulator before it is
    added to the running one). -/
theorem acc_eq_sum_zero_add_of_lt (a b : ℕ → M) (N : ℕ) (h0 : a 0 = 0 + (0 + b 0))
    (hs : ∀ j, j < N → a (j + 1) = a j + (0 + b (j + 1))) : ∀ n, n ≤ N → a n = ∑ j ∈ Finset.range (n + 1), b j :=
  acc_eq_sum_of_lt a b N (by rw [h0, zero_add]) (fun j hj => by rw [hs j hj, zero_add])

theorem acc_eq_sum_zero_add (a b : ℕ → M) (h0 : a 0 = 0 + (0 + b 0)) (hs : ∀ j, a (j + 1) = a j + (0 + b (j + 1))) (n : ℕ) :
    a n = ∑ j ∈ Finset.range (n + 1), b j :=
  acc_eq_sum_zero_add_of_lt a b n h0 (fun j _ => hs j) n (le_refl n)

theorem acc7_eq_sum_zero_add (a b : ℕ → M) (h0 : a 0 = 0 + (0 + b 0))
    (hs : ∀ j, j < 7 → a (j + 1) = a j + (0 + b (j + 1))) : a 7 = ∑ j : Fin 8, b j.val := by
  rw [acc_eq_sum_zero_add_of_lt a b 7 h0 hs 7 (le_refl 7), Finset.sum_range]

/-- The accumulator and the summands indexed by `Fin (n + 1)`: the last value is the sum of all the summands. -/
theorem acc_fin_eq_sum {n : ℕ} (a b : Fin (n + 1) → M) (h0 : a 0 = 0 + b 0)
    (hs : ∀ j : Fin n, a j.succ = a j.castSucc + b j.succ) : a (Fin.last n) = ∑ j, b j := by
  have key : ∀ (k : ℕ) (hk : k < n + 1),
      a ⟨k, hk⟩ = ∑ j ∈ Finset.range (k + 1), (if h : j < n + 1 then b ⟨j, h⟩ else 0) := by
    intro k
    induction k with
    | zero =>
      intro hk
      rw [Finset.sum_range_one, dif_pos hk]
      exact h0.trans (zero_add _)
    | succ k ih =>
      intro hk
      have hk' : k < n := by omega
      rw [Finset.sum_range_succ, ← ih (by omega), dif_pos hk]
      exact hs ⟨k, hk'⟩
  rw [show Fin.last n = ⟨n, Nat.lt_succ_self n⟩ from rfl, key n _, Finset.sum_range]
  exact Finset.sum_congr rfl fun j _ => by rw [dif_pos j.isLt]

/-- The same in the variant where every summand arrives as zero plus itself. -/
theorem acc_fin_eq_sum_zero_add {n : ℕ} (a b : Fin (n + 1) → M) (h0 : a 0 = 0 + (0 + b 0))
    (hs : ∀ j : Fin n, a j.succ = a j.castSucc + (0 + b j.succ)) : a (Fin.last n) = ∑ j, b j :=
  acc_fin_eq_sum a b (by rw [h0, zero_add]) (fun j => by rw [hs j, zero_add])

/-- Eight steps over blocks of 1024: an accumulator that adds, at step `j`, the sum of block `j` of a family over
    8192 positions ends at the sum over all 8192 positions. -/
theorem acc8_blocks_eq_sum_8192 (a : Fin 8 → M) (g : Fin 8192 → M)
    (h0 : a 0 = 0 + ∑ k : Fin 1024, g ⟨1024 * (0 : Fin 8).val + k.val, by omega⟩)
    (hs : ∀ j : Fin 7, a j.succ = a j.castSucc + ∑ k : Fin 1024, g ⟨1024 * j.succ.val + k.val, by omega⟩) :
    a 7 = ∑ n : Fin 8192, g n := by
  rw [sum_8192 g]
  exact acc_fin_eq_sum (n := 7) a (fun j => ∑ k : Fin 1024, g ⟨1024 * j.val + k.val, by omega⟩) h0 hs

end Cert.Lib.GridAcc
-- ==== Proof.BlockHist.lean ====
/-
  The block algebra of the histogram computation.

  The 131072 rows are handled in 256 blocks of 512 consecutive rows, the blocks themselves in two halves of 128; a
  sum over all rows is the sum over the blocks of each block's own sum, and an accumulator that adds one block's
  contribution per step ends at the sum of the contributions.

  Inside one block the histogram of the labelled rows is taken as a product: each row is given the indicator of the
  bin of the probability of ITS OWN label, and that indicator is multiplied by the indicator of the label being the
  class `c`. Where the label is not `c` the product is zero; where it is, the probability of the row's own label is
  the probability of class `c`, so the product is the indicator of that probability's bin. Only `x * 0 = 0` and
  `x * 1 = x` are used, which hold for every extended real, the infinities included.
-/
import Mathlib.Algebra.BigOperators.Fin
import Mathlib.Algebra.BigOperators.Intervals
import proofs.«133106_j33303176413864_2_alg».proof.Proof.Binning
import proofs.«133106_j33303176413864_2_alg».proof.Proof.BinRange
import proofs.«133106_j33303176413864_2_alg».proof.Proof.LibGridAcc

noncomputable section

open scoped BigOperators

namespace Cert.Hist

open Idealize.ShloMosaic Idealize.ShloMosaic.ValueIdx

/-! ## The comparison bit as a number -/

/-- The one-bit word 1 widened to 32 bits and read signed is the integer 1. -/
theorem setWidth_one_toInt : (BitVec.setWidth 32 (1#1)).toInt = 1 := by decide

/-- The one-bit word 0 widened to 32 bits and read signed is the integer 0. -/
theorem setWidth_zero_toInt : (BitVec.setWidth 32 (0#1)).toInt = 0 := by decide

/-- The equality bit of two words, widened to 32 bits and converted as a signed integer, is the number 1 where the
    words are equal and 0 where they differ. -/
theorem sitofp_extui_cmpi_eq {w : Nat} (x y : BitVec w) :
    (((BitVec.setWidth 32 (IntOp.cmpi .eq x y)).toInt : ℝ) : EReal) = if x = y then 1 else 0 := by
  by_cases h : x = y
  · rw [(cmpi_eq_one_iff x y).mpr h, if_pos h, setWidth_one_toInt]
    simp
  · rw [(cmpi_eq_zero_iff x y).mpr h, if_neg h, setWidth_zero_toInt]
    simp

/-- The equality bit of two words converted as an unsigned integer is the number 1 where the words are equal and 0
    where they differ. -/
theorem uitofp_cmpi_eq {w : Nat} (x y : BitVec w) :
    (((IntOp.cmpi .eq x y).toNat : ℝ) : EReal) = if x = y then 1 else 0 := by
  by_cases h : x = y
  · rw [(cmpi_eq_one_iff x y).mpr h, if_pos h]
    simp
  · rw [(cmpi_eq_zero_iff x y).mpr h, if_neg h]
    simp

/-- The label indicator as the kernel forms it (compare, widen, convert signed) is `labOf`. -/
theorem labK_eq (l : BitVec 32) (k : Fin 1000) :
    (((BitVec.setWidth 32 (IntOp.cmpi .eq l (BitVec.ofNat 32 k.val))).toInt : ℝ) : EReal) = labOf l k := by
  rw [sitofp_extui_cmpi_eq]; rfl

/-- The label indicator as the reference forms it (compare, convert unsigned) is `labOf`. -/
theorem labH_eq (l : BitVec 32) (k : Fin 1000) :
    (((IntOp.cmpi .eq l (BitVec.ofNat 32 k.val)).toNat : ℝ) : EReal) = labOf l k := by
  rw [uitofp_cmpi_eq]; rfl

/-- The bin indicator (compare the bin with the word of `b`, widen, convert signed) is 1 where the bin is `b`, else 0. -/
theorem onehot_eq (p : EReal) (b : Fin 15) :
    (((BitVec.setWidth 32 (IntOp.cmpi .eq (binOf p) (BitVec.ofNat 32 b.val))).toInt : ℝ) : EReal)
      = if binOf p = BitVec.ofNat 32 b.val then 1 else 0 :=
  sitofp_extui_cmpi_eq _ _

/-- The bin indicator times any value is the value where the bin is `b` and zero elsewhere. -/
theorem onehot_mul (p : EReal) (b : Fin 15) (v : EReal) :
    (((BitVec.setWidth 32 (IntOp.cmpi .eq (binOf p) (BitVec.ofNat 32 b.val))).toInt : ℝ) : EReal) * v
      = if binOf p = BitVec.ofNat 32 b.val then v else 0 := by
  rw [onehot_eq]
  by_cases h : binOf p = BitVec.ofNat 32 b.val
  · rw [if_pos h, if_pos h, one_mul]
  · rw [if_neg h, if_neg h, zero_mul]

/-- The same with the factors in the other order. -/
theorem mul_onehot (p : EReal) (b : Fin 15) (v : EReal) :
    v * (((BitVec.setWidth 32 (IntOp.cmpi .eq (binOf p) (BitVec.ofNat 32 b.val))).toInt : ℝ) : EReal)
      = if binOf p = BitVec.ofNat 32 b.val then v else 0 := by
  rw [mul_comm]; exact onehot_mul p b v

/-! ## The probability of a row's own label -/

/-- The words of two class indices are equal only if the indices are. -/
theorem ofNat_class_injective {a c : Fin 1000} (h : BitVec.ofNat 32 a.val = BitVec.ofNat 32 c.val) : a = c := by
  have h' := congrArg BitVec.toNat h
  simp only [BitVec.toNat_ofNat] at h'
  have ha := a.isLt
  have hc := c.isLt
  apply Fin.ext
  omega

/-- The label indicator is 1 at the label. -/
theorem labOf_pos {l : BitVec 32} {c : Fin 1000} (h : l = BitVec.ofNat 32 c.val) : labOf l c = 1 := by
  rw [labOf, if_pos h]

/-- The label indicator is 0 off the label. -/
theorem labOf_neg {l : BitVec 32} {c : Fin 1000} (h : l ≠ BitVec.ofNat 32 c.val) : labOf l c = 0 := by
  rw [labOf, if_neg h]

/-- The label indicator is 0 or 1. -/
theorem labOf_zero_or_one (l : BitVec 32) (c : Fin 1000) : labOf l c = 0 ∨ labOf l c = 1 := by
  by_cases h : l = BitVec.ofNat 32 c.val
  · exact Or.inr (labOf_pos h)
  · exact Or.inl (labOf_neg h)

/-- Where the row's label is the class `c`, the row's probabilities weighted by the label indicator sum to the
    probability of `c`: every other term is a product with zero. -/
theorem ptrue_eq_of_label (P : Fin 1000 → EReal) (l : BitVec 32) (c : Fin 1000) (h : l = BitVec.ofNat 32 c.val) :
    ∑ k : Fin 1000, P k * labOf l k = P c := by
  rw [Finset.sum_eq_single c]
  · rw [labOf_pos h, mul_one]
  · intro k _ hk
    have hne : l ≠ BitVec.ofNat 32 k.val := by
      intro hl
      exact hk (ofNat_class_injective (hl.symm.trans h))
    rw [labOf_neg hne, mul_zero]
  · intro hc
    exact absurd (Finset.mem_univ c) hc

/-! ## The one-hot product is the masked label sum -/

/-- One row: the indicator of the bin of the probability of the row's own label, times the indicator of the label
    being `c`, is the indicator of the label being `c` masked by the bin of the probability of `c`. -/
theorem onehot_mul_lab (P : Fin 1000 → EReal) (l : BitVec 32) (b : Fin 15) (c : Fin 1000) :
    (((BitVec.setWidth 32
          (IntOp.cmpi .eq (binOf (∑ k : Fin 1000, P k * labOf l k)) (BitVec.ofNat 32 b.val))).toInt : ℝ) : EReal)
        * labOf l c
      = if binOf (P c) = BitVec.ofNat 32 b.val then labOf l c else 0 := by
  by_cases h : l = BitVec.ofNat 32 c.val
  · rw [ptrue_eq_of_label P l c h, onehot_eq, labOf_pos h, mul_one]
  · rw [labOf_neg h, mul_zero, ite_self]

/-- The same with the factors in the other order. -/
theorem lab_mul_onehot (P : Fin 1000 → EReal) (l : BitVec 32) (b : Fin 15) (c : Fin 1000) :
    labOf l c
        * (((BitVec.setWidth 32
          (IntOp.cmpi .eq (binOf (∑ k : Fin 1000, P k * labOf l k)) (BitVec.ofNat 32 b.val))).toInt : ℝ) : EReal)
      = if binOf (P c) = BitVec.ofNat 32 b.val then labOf l c else 0 := by
  rw [mul_comm]; exact onehot_mul_lab P l b c

/-- One block of 512 rows: the one-hot product summed over the rows is the masked label sum. -/
theorem sum_onehot_mul_lab (P : Fin 512 → Fin 1000 → EReal) (lb : Fin 512 → BitVec 32) (b : Fin 15) (c : Fin 1000) :
    ∑ r : Fin 512,
        (((BitVec.setWidth 32
            (IntOp.cmpi .eq (binOf (∑ k : Fin 1000, P r k * labOf (lb r) k)) (BitVec.ofNat 32 b.val))).toInt : ℝ) : EReal)
          * labOf (lb r) c
      = ∑ r : Fin 512, if binOf (P r c) = BitVec.ofNat 32 b.val then labOf (lb r) c else 0 :=
  Finset.sum_congr rfl fun r _ => onehot_mul_lab (P r) (lb r) b c

/-- The same block sum with both indicators written as the kernel forms them (compare, widen, convert signed). -/
theorem sum_onehotK_mul_labK (P : Fin 512 → Fin 1000 → EReal) (lb : Fin 512 → BitVec 32) (b : Fin 15) (c : Fin 1000) :
    ∑ r : Fin 512,
        (((BitVec.setWidth 32
            (IntOp.cmpi .eq
              (binOf (∑ k : Fin 1000, P r k *
                (((BitVec.setWidth 32 (IntOp.cmpi .eq (lb r) (BitVec.ofNat 32 k.val))).toInt : ℝ) : EReal)))
              (BitVec.ofNat 32 b.val))).toInt : ℝ) : EReal)
          * (((BitVec.setWidth 32 (IntOp.cmpi .eq (lb r) (BitVec.ofNat 32 c.val))).toInt : ℝ) : EReal)
      = ∑ r : Fin 512, if binOf (P r c) = BitVec.ofNat 32 b.val then labOf (lb r) c else 0 := by
  simp only [labK_eq]
  exact sum_onehot_mul_lab P lb b c

/-! ## The rows in blocks -/

variable {M : Type*} [AddCommMonoid M]

/-- Row `r` of block `t` is one of the 131072 rows. -/
theorem row_lt (t : Fin 256) (r : Fin 512) : t.val * 512 + r.val < 131072 := by omega

/-- Step `i` of half `h` is one of the 256 blocks. -/
theorem blk_lt (h : Fin 2) (i : Fin 128) : h.val * 128 + i.val < 256 := by omega

/-- Row `r` of the block of step `i` of half `h` is one of the 131072 rows. -/
theorem grid_row_lt (h : Fin 2) (i : Fin 128) (r : Fin 512) : (h.val * 128 + i.val) * 512 + r.val < 131072 := by omega

/-- The row `r` of block `t`. -/
def rowOf (t : Fin 256) (r : Fin 512) : Fin 131072 := ⟨t.val * 512 + r.val, row_lt t r⟩

/-- The block of step `i` of half `h`. -/
def blkOf (h : Fin 2) (i : Fin 128) : Fin 256 := ⟨h.val * 128 + i.val, blk_lt h i⟩

/-- A sum over the 131072 rows is the sum over the 256 blocks of each block's 512 rows. -/
theorem sum_rows_blocks (f : Fin 131072 → M) :
    ∑ n, f n = ∑ t : Fin 256, ∑ r : Fin 512, f ⟨t.val * 512 + r.val, row_lt t r⟩ :=
  Cert.Lib.GridAcc.sum_blocks' (B := 256) (J := 512) f

/-- A sum over the 256 blocks is the sum over the two halves of each half's 128 steps. -/
theorem sum_blocks_grid (g : Fin 256 → M) :
    ∑ t, g t = ∑ h : Fin 2, ∑ i : Fin 128, g ⟨h.val * 128 + i.val, blk_lt h i⟩ :=
  Cert.Lib.GridAcc.sum_blocks' (B := 2) (J := 128) g

/-- A sum over the 131072 rows is the sum over the halves, the steps of a half, and the 512 rows of a step's block. -/
theorem sum_rows_grid (f : Fin 131072 → M) :
    ∑ n, f n = ∑ h : Fin 2, ∑ i : Fin 128, ∑ r : Fin 512, f ⟨(h.val * 128 + i.val) * 512 + r.val, grid_row_lt h i r⟩ := by
  rw [sum_rows_blocks f, sum_blocks_grid]

/-- The same three statements with the positions named. -/
theorem sum_rows_blocks' (f : Fin 131072 → M) : ∑ n, f n = ∑ t : Fin 256, ∑ r : Fin 512, f (rowOf t r) :=
  sum_rows_blocks f

theorem sum_blocks_grid' (g : Fin 256 → M) : ∑ t, g t = ∑ h : Fin 2, ∑ i : Fin 128, g (blkOf h i) :=
  sum_blocks_grid g

theorem sum_rows_grid' (f : Fin 131072 → M) :
    ∑ n, f n = ∑ h : Fin 2, ∑ i : Fin 128, ∑ r : Fin 512, f (rowOf (blkOf h i) r) :=
  sum_rows_grid f

/-! ## The accumulator over the steps of a half -/

/-- An accumulator that starts at zero plus the first contribution and adds one contribution per step holds, after
    step `i`, the sum of the contributions `0, …, i`. -/
theorem acc_eq_sum_range (a s : ℕ → M) (h0 : a 0 = 0 + s 0) (hs : ∀ i, a (i + 1) = a i + s (i + 1)) (i : ℕ) :
    a i = ∑ j ∈ Finset.range (i + 1), s j :=
  Cert.Lib.GridAcc.acc_eq_sum a s h0 hs i

/-- The same for an accumulator that starts at the first contribution itself. -/
theorem acc_eq_sum_range' (a s : ℕ → M) (h0 : a 0 = s 0) (hs : ∀ i, a (i + 1) = a i + s (i + 1)) (i : ℕ) :
    a i = ∑ j ∈ Finset.range (i + 1), s j :=
  acc_eq_sum_range a s (by rw [h0, zero_add]) hs i

/-- After the last of the 128 steps the accumulator holds the sum of all 128 contributions; the step law is needed
    only below 127. -/
theorem acc127_eq_sum (a s : ℕ → M) (h0 : a 0 = 0 + s 0) (hs : ∀ i, i < 127 → a (i + 1) = a i + s (i + 1)) :
    a 127 = ∑ i : Fin 128, s i.val := by
  rw [Cert.Lib.GridAcc.acc_eq_sum_of_lt a s 127 h0 hs 127 (le_refl 127), Finset.sum_range]

/-- The same for an accumulator that starts at the first contribution itself. -/
theorem acc127_eq_sum' (a s : ℕ → M) (h0 : a 0 = s 0) (hs : ∀ i, i < 127 → a (i + 1) = a i + s (i + 1)) :
    a 127 = ∑ i : Fin 128, s i.val :=
  acc127_eq_sum a s (by rw [h0, zero_add]) hs

/-- The accumulator and the contributions indexed by the 128 steps themselves. -/
theorem acc_fin128_eq_sum (a s : Fin 128 → M) (h0 : a 0 = 0 + s 0)
    (hs : ∀ j : Fin 127, a j.succ = a j.castSucc + s j.succ) : a (Fin.last 127) = ∑ i : Fin 128, s i :=
  Cert.Lib.GridAcc.acc_fin_eq_sum (n := 127) a s h0 hs

/-! ## The histograms from the blocks -/

/-- The contribution of block `t` to the count histogram. -/
def blockSum_count (x : Logits) (t : Fin 256) (b : Fin 15) (c : Fin 1000) : EReal :=
  ∑ r : Fin 512, if binOf (prob x ⟨t.val * 512 + r.val, row_lt t r⟩ c) = BitVec.ofNat 32 b.val
    then Ideal.ofBits .f32 0x3F800000#32 else 0

/-- The contribution of block `t` to the confidence histogram. -/
def blockSum_conf (x : Logits) (t : Fin 256) (b : Fin 15) (c : Fin 1000) : EReal :=
  ∑ r : Fin 512, if binOf (prob x ⟨t.val * 512 + r.val, row_lt t r⟩ c) = BitVec.ofNat 32 b.val
    then prob x ⟨t.val * 512 + r.val, row_lt t r⟩ c else 0

/-- The contribution of block `t` to the histogram of the labelled rows. -/
def blockSum_acc (x : Logits) (l : Labels) (t : Fin 256) (b : Fin 15) (c : Fin 1000) : EReal :=
  ∑ r : Fin 512, if binOf (prob x ⟨t.val * 512 + r.val, row_lt t r⟩ c) = BitVec.ofNat 32 b.val
    then labOf (l (ix1 ⟨t.val * 512 + r.val, row_lt t r⟩)) c else 0

/-- The count histogram is the sum of the blocks' contributions. -/
theorem count_eq_sum_blocks (x : Logits) (b : Fin 15) (c : Fin 1000) :
    count x b c = ∑ t : Fin 256, blockSum_count x t b c :=
  sum_rows_blocks (fun n => if binOf (prob x n c) = BitVec.ofNat 32 b.val then Ideal.ofBits .f32 0x3F800000#32 else 0)

/-- The count histogram is the sum, over the halves and the steps of a half, of the blocks' contributions. -/
theorem count_eq_sum_grid (x : Logits) (b : Fin 15) (c : Fin 1000) :
    count x b c = ∑ h : Fin 2, ∑ i : Fin 128, blockSum_count x ⟨h.val * 128 + i.val, blk_lt h i⟩ b c := by
  rw [count_eq_sum_blocks, sum_blocks_grid]

/-- The confidence histogram is the sum of the blocks' contributions. -/
theorem conf_eq_sum_blocks (x : Logits) (b : Fin 15) (c : Fin 1000) :
    conf x b c = ∑ t : Fin 256, blockSum_conf x t b c :=
  sum_rows_blocks (fun n => if binOf (prob x n c) = BitVec.ofNat 32 b.val then prob x n c else 0)

/-- The confidence histogram is the sum, over the halves and the steps of a half, of the blocks' contributions. -/
theorem conf_eq_sum_grid (x : Logits) (b : Fin 15) (c : Fin 1000) :
    conf x b c = ∑ h : Fin 2, ∑ i : Fin 128, blockSum_conf x ⟨h.val * 128 + i.val, blk_lt h i⟩ b c := by
  rw [conf_eq_sum_blocks, sum_blocks_grid]

/-- The histogram of the labelled rows is the sum of the blocks' contributions. -/
theorem acc_eq_sum_blocks (x : Logits) (l : Labels) (b : Fin 15) (c : Fin 1000) :
    acc x l b c = ∑ t : Fin 256, blockSum_acc x l t b c :=
  sum_rows_blocks (fun n => if binOf (prob x n c) = BitVec.ofNat 32 b.val then labOf (l (ix1 n)) c else 0)

/-- The histogram of the labelled rows is the sum, over the halves and the steps of a half, of the blocks'
    contributions. -/
theorem acc_eq_sum_grid (x : Logits) (l : Labels) (b : Fin 15) (c : Fin 1000) :
    acc x l b c = ∑ h : Fin 2, ∑ i : Fin 128, blockSum_acc x l ⟨h.val * 128 + i.val, blk_lt h i⟩ b c := by
  rw [acc_eq_sum_blocks, sum_blocks_grid]

/-- A block's contribution to the histogram of the labelled rows is the one-hot product of the block: the indicator of
    the bin of the probability of each row's own label, times the indicator of the label being `c`, summed over the
    block's rows. -/
theorem blockSum_acc_eq_onehot (x : Logits) (l : Labels) (t : Fin 256) (b : Fin 15) (c : Fin 1000) :
    blockSum_acc x l t b c
      = ∑ r : Fin 512,
          (((BitVec.setWidth 32
              (IntOp.cmpi .eq
                (binOf (∑ k : Fin 1000, prob x ⟨t.val * 512 + r.val, row_lt t r⟩ k
                  * labOf (l (ix1 ⟨t.val * 512 + r.val, row_lt t r⟩)) k))
                (BitVec.ofNat 32 b.val))).toInt : ℝ) : EReal)
            * labOf (l (ix1 ⟨t.val * 512 + r.val, row_lt t r⟩)) c :=
  (sum_onehot_mul_lab (fun r k => prob x ⟨t.val * 512 + r.val, row_lt t r⟩ k)
    (fun r => l (ix1 ⟨t.val * 512 + r.val, row_lt t r⟩)) b c).symm

end Cert.Hist

end
-- ==== Proof.LibSegSup.lean ====
/-
  The supremum of an extended-real function of the natural numbers over a run of consecutive positions,
  `segSup f a n = sup { f (a + k) | k < n }` (the bottom element when the run is empty), and the one law a
  pooling argument needs of it: a run of `n + n'` positions is its first `n` positions followed by the next
  `n'`, so its supremum is the larger of the two parts' suprema. Only the order structure is used — the supremum
  of a finite family does not depend on how the family is cut or grouped, and holds at the infinities as anywhere
  else. Also: a left fold of `max` from the bottom element over a finite family is that family's supremum, and a
  supremum over `Fin n` is the supremum over the run of `n` positions.
-/
import Mathlib.Data.EReal.Basic
import Mathlib.Order.Interval.Finset.Nat

namespace SegSup

/-- The supremum of `f` over the `n` consecutive positions `a, a + 1, …, a + n - 1`. -/
noncomputable def segSup (f : ℕ → EReal) (a n : ℕ) : EReal := (Finset.range n).sup fun k => f (a + k)

theorem segSup_zero (f : ℕ → EReal) (a : ℕ) : segSup f a 0 = ⊥ := by
  unfold segSup; rw [Finset.range_zero, Finset.sup_empty]

theorem segSup_succ (f : ℕ → EReal) (a n : ℕ) : segSup f a (n + 1) = segSup f a n ⊔ f (a + n) := by
  unfold segSup; rw [Finset.range_add_one, Finset.sup_insert, sup_comm]

/-- A run of `n + n'` positions is a run of `n` followed by a run of `n'`. -/
theorem segSup_add (f : ℕ → EReal) (a n n' : ℕ) : segSup f a (n + n') = segSup f a n ⊔ segSup f (a + n) n' := by
  induction n' with
  | zero => rw [Nat.add_zero, segSup_zero, sup_bot_eq]
  | succ k ih => rw [← Nat.add_assoc, segSup_succ, ih, segSup_succ, sup_assoc, Nat.add_assoc]

/-- Two runs of equal length whose entries agree position by position have one supremum. -/
theorem segSup_congr {f g : ℕ → EReal} {a b n : ℕ} (h : ∀ k, k < n → f (a + k) = g (b + k)) : segSup f a n = segSup g b n := by
  unfold segSup; exact Finset.sup_congr rfl fun k hk => h k (Finset.mem_range.1 hk)

/-- The supremum over `Fin n` of the entries at `a + k` is the supremum over the run. -/
theorem sup_univ_fin (f : ℕ → EReal) (a n : ℕ) : (Finset.univ : Finset (Fin n)).sup (fun k => f (a + k.val)) = segSup f a n := by
  unfold segSup
  apply le_antisymm
  · exact Finset.sup_le fun k _ => Finset.le_sup (f := fun k => f (a + k)) (Finset.mem_range.2 k.isLt)
  · exact Finset.sup_le fun k hk =>
      Finset.le_sup (f := fun k : Fin n => f (a + k.val)) (Finset.mem_univ (⟨k, Finset.mem_range.1 hk⟩ : Fin n))

/-- Folding `max` from the bottom element over a finite family gives its supremum. -/
theorem fold_max_bot {ι : Type*} (s : Finset ι) (g : ι → EReal) : s.fold max ⊥ g = s.sup g := rfl

end SegSup
-- ==== Proof.LibHostMax.lean ====
/-
  A host reduction with a maximum body, started from the bottom element (the pattern of −∞), read at an index over the
  extended reals: reducing the LAST axis of an [n, w] array gives at row `r` the supremum of that row's `w` entries, and
  reducing the last axis of an [n, q, w] array gives at (r, i) the supremum of the `w` entries of group `i` of row `r`. The
  reduction is a fold of `max` over the reduced axis's coordinates in some order; a fold of `max` from the bottom element
  over a finite family is the family's supremum, whatever the order. The same for a lane reduction of an [n, w] vector
  (`multiReduction_rows`), and a vector cast to one column read back (`shapeCast_col_apply`). Also: two arrays of `q` columns and of one column set
  side by side, read at column `j`, give the first array's column `j` when `j < q` and the second's only column otherwise.
-/
import Idealize.ShloMosaic.Lib.ValueIdx
import Idealize.ShloMosaic.Lib.Pipeline.Value
import Idealize.ShloMosaic.PureOps.Ideal.Laws
import proofs.«133106_j33303176413864_2_alg».proof.Proof.LibSegSup

noncomputable section

namespace HostMax

open Idealize.ShloMosaic Idealize.ShloMosaic.ValueIdx SegSup

/-- The pattern of −∞ denotes the bottom element of the extended reals. -/
theorem ofBits_neg_inf : Ideal.ofBits .f32 0xFF800000#32 = (⊥ : EReal) := by
  simp [Ideal.ofBits, Ideal.ieee]

/-- Row `r` of an [n, w] array with coordinate `k` put back on the reduced (last) axis is (r, k). -/
theorem lift_rows {n w : ℕ} (h : (⟨2, ![n, w]⟩ : Shape).Reduces [1] (⟨1, ![n]⟩ : Shape)) (r : Fin n)
    (k : Fin ((⟨2, ![n, w]⟩ : Shape).size 1)) : h.lift (ix1 r) k = ix2 r (⟨k.val, k.isLt⟩ : Fin w) := by
  funext c; apply Fin.ext
  fin_cases c <;> rfl

/-- Group (r, i) of an [n, q, w] array with coordinate `k` put back on the reduced (last) axis is (r, i, k). -/
theorem lift_groups {n q w : ℕ} (h : (⟨3, ![n, q, w]⟩ : Shape).Reduces [2] (⟨2, ![n, q]⟩ : Shape)) (r : Fin n) (i : Fin q)
    (k : Fin ((⟨3, ![n, q, w]⟩ : Shape).size 2)) : h.lift (ix2 r i) k = ix3 r i (⟨k.val, k.isLt⟩ : Fin w) := by
  funext c; apply Fin.ext
  fin_cases c <;> rfl

/-- From −∞ the host's maximum over the last axis of an [n, w] array, at row `r`, is the supremum of the row. -/
theorem reduce_rows {n w : ℕ} (v : FVec Ideal ⟨2, ![n, w]⟩ .f32) (init : (⟨0, ![]⟩ : Shape).Idx → Ideal .f32)
    (hinit : ∀ i, init i = (⊥ : EReal))
    (h' : (⟨2, ![n, w]⟩ : Shape).ReducesTo [1] (⟨1, ![n]⟩ : Shape)) (h : (⟨2, ![n, w]⟩ : Shape).Reduces [1] (⟨1, ![n]⟩ : Shape))
    (hu : 0 < (⟨0, ![]⟩ : Shape).numel) (r : Fin n) :
    Host.reduce FloatOps.maximumf v init h' hu (ix1 r) = (Finset.univ : Finset (Fin w)).sup fun k => v (ix2 r k) := by
  rw [Host.reduce_eq_fold_single FloatOps.maximumf v init h' h hu, hinit]
  have hf : (v ∘ h.lift (ix1 r)) = fun k : Fin w => v (ix2 r k) := funext fun k => congrArg v (lift_rows h r k)
  exact congrArg (fun f => Finset.fold max (⊥ : EReal) f (Finset.univ : Finset (Fin w))) hf

/-- From −∞ the host's maximum over the last axis of an [n, q, w] array, at (r, i), is the supremum of that group. -/
theorem reduce_groups {n q w : ℕ} (v : FVec Ideal ⟨3, ![n, q, w]⟩ .f32) (init : (⟨0, ![]⟩ : Shape).Idx → Ideal .f32)
    (hinit : ∀ i, init i = (⊥ : EReal))
    (h' : (⟨3, ![n, q, w]⟩ : Shape).ReducesTo [2] (⟨2, ![n, q]⟩ : Shape))
    (h : (⟨3, ![n, q, w]⟩ : Shape).Reduces [2] (⟨2, ![n, q]⟩ : Shape))
    (hu : 0 < (⟨0, ![]⟩ : Shape).numel) (r : Fin n) (i : Fin q) :
    Host.reduce FloatOps.maximumf v init h' hu (ix2 r i) = (Finset.univ : Finset (Fin w)).sup fun k => v (ix3 r i k) := by
  rw [Host.reduce_eq_fold_single FloatOps.maximumf v init h' h hu, hinit]
  have hf : (v ∘ h.lift (ix2 r i)) = fun k : Fin w => v (ix3 r i k) := funext fun k => congrArg v (lift_groups h r i k)
  exact congrArg (fun f => Finset.fold max (⊥ : EReal) f (Finset.univ : Finset (Fin w))) hf

/-- From −∞ a lane reduction with a maximum body over the last axis of an [n, w] vector, at row `r`, is the supremum of
    the row: the kernel-side reading of the same fold. -/
theorem multiReduction_rows {n w : ℕ} (P : FVec Ideal ⟨2, ![n, w]⟩ .f32)
    (h : (⟨2, ![n, w]⟩ : Shape).Reduces [1] (⟨1, ![n]⟩ : Shape)) (hφ : FKind.Formats .f32)
    (hacc : (0xFF800000#32 : BitVec FTy.f32.bits) = FKind.maximumf.neutral .f32 hφ) (r : Fin n) :
    multiReduction (F := Ideal) .maximumf [1] (⟨1, ![n]⟩ : Shape) P 0xFF800000#32 h hφ hacc (ix1 r)
      = (Finset.univ : Finset (Fin w)).sup fun k => P (ix2 r k) := by
  refine (Ideal.multiReduction_maximumf_single (φ := .f32) P 0xFF800000#32 h hφ hacc (ix1 r)).trans ?_
  have hf : (P ∘ h.lift (ix1 r)) = fun k : Fin w => P (ix2 r k) := funext fun k => congrArg P (lift_rows h r k)
  have hb : FloatOps.ofBits (F := Ideal) .f32 0xFF800000#32 = (⊥ : EReal) := ofBits_neg_inf
  rw [hb]
  exact congrArg (fun f => Finset.fold max (⊥ : EReal) f (Finset.univ : Finset (Fin w))) hf

/-- A vector of `n` entries cast to one column, read at (r, 0), is entry `r`. -/
theorem shapeCast_col_apply {α : Type} {n : ℕ} (v : (⟨1, ![n]⟩ : Shape).Idx → α)
    (h : (⟨1, ![n]⟩ : Shape).ShapeCasts (⟨2, ![n, 1]⟩ : Shape)) (y : (⟨2, ![n, 1]⟩ : Shape).Idx) (r : Fin n)
    (hy : (y 0).val = r.val) : shapeCast (⟨2, ![n, 1]⟩ : Shape) v h y = v (ix1 r) := by
  refine shapeCast_apply v h y (ix1 r) ?_
  rw [Shape.rowMajor_val_one, Shape.rowMajor_val_two]
  have h1 : (y 1).val < 1 := (y 1).isLt
  show r.val = (y 0).val * 1 + (y 1).val
  omega

/-- An array of `q` columns and an array of one column set side by side: column `j` of the join is the first array's
    column `j` when `j < q`, and otherwise (`j = q`) the second array's only column. -/
theorem join_cols {α : Type} {n q : ℕ} (A : (⟨2, ![n, q]⟩ : Shape).Idx → α) (B : (⟨2, ![n, 1]⟩ : Shape).Idx → α)
    (h : Shape.Concatenates [(⟨2, ![n, q]⟩ : Shape), (⟨2, ![n, 1]⟩ : Shape)] (⟨2, ![n, q + 1]⟩ : Shape) (1 : Fin 2))
    (r : Fin n) (j : Fin (q + 1)) :
    concatenate (⟨2, ![n, q + 1]⟩ : Shape) (1 : Fin 2) [⟨(⟨2, ![n, q]⟩ : Shape), A⟩, ⟨(⟨2, ![n, 1]⟩ : Shape), B⟩] h (ix2 r j)
      = if hj : j.val < q then A (ix2 r ⟨j.val, hj⟩) else B (ix2 r (0 : Fin 1)) := by
  split
  · rename_i hj
    exact concatenate_pair_apply_left (1 : Fin 2) A B h (ix2 r j) rfl (ix2 r ⟨j.val, hj⟩) (fun b => by fin_cases b <;> rfl)
  · rename_i hj
    refine concatenate_pair_apply_right (1 : Fin 2) A B h (ix2 r j) rfl rfl (ix2 r (0 : Fin 1)) (fun b hb => ?_) ?_
    · fin_cases b
      · rfl
      · exact absurd rfl hb
    · show 0 + q = j.val
      have := j.isLt; omega

end HostMax

end
-- ==== Proof.LibScatterRows.lean ====
/-
  Row scatter-add read at an element.

  A segment sum over rows — operand [N, C] (or [N, B, C]), one signed row number per update row
  (scatter indices [E, 1]), updates [E, C] (or [E, B, C]) — adds update row e into operand row
  idx[e, 0] and drops it when that row number is outside [0, N). Read at element (n, o) of the
  result this is the operand's element plus the sum, over the update rows e whose row number is n,
  of the update's element (e, o). All sizes and the index width are arbitrary.
-/
import Idealize.ShloMosaic.PureOps.Ideal
import Idealize.ShloMosaic.PureOps.Ideal.Laws
import Idealize.ShloMosaic.Lib.ValueIdx

noncomputable section

open scoped BigOperators
open Idealize.ShloMosaic Idealize.ShloMosaic.ValueIdx

namespace ScatterRows

/-! ## A scatter's result index, by its coordinates -/

/-- An update index lands on operand index i exactly when, on every operand axis, the window's
    start plus the window coordinate is i's coordinate (as integers): being inside the operand is
    then automatic, and the landing index is determined axis by axis. -/
theorem resultIdx?_eq_some_iff {s si u : Shape} (d : ScatterDims s si u) {w : Nat} (j : u.Idx)
    (idx : IVec si w) (i : s.Idx) :
    d.resultIdx? j idx = some i ↔ ∀ a, d.start j idx a + (d.window j a : ℤ) = ((i a).val : ℤ) := by
  unfold ScatterDims.resultIdx?
  constructor
  · intro h a
    split_ifs at h with hin
    have hi := Option.some.inj h
    have := congrArg (fun f => (f a).val) hi
    simp only at this
    have h0 := (hin a).1
    omega
  · intro h
    have hin : ∀ a, 0 ≤ d.start j idx a + d.window j a ∧ d.start j idx a + d.window j a < s.size a := by
      intro a
      have := h a
      have hlt := (i a).isLt
      omega
    rw [dif_pos hin]
    congr 1
    funext a
    refine Fin.ext ?_
    have := h a
    show (d.start j idx a + d.window j a).toNat = (i a).val
    omega

/-! ## Rank 2: operand [N, C], row numbers [E, 1], updates [E, C] -/

/-- The dimension numbers of a row scatter over a rank-2 operand: the updates' axis 1 is the window
    axis and goes to the operand's axis 1; the operand's axis 0 is inserted and is the one the row
    number addresses; the row number is the length-1 vector on the scatter indices' axis 1. -/
abbrev rows2Dims (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ :=
  { updateWindowDims := [1], insertedWindowDims := [0], scatterDimsToOperandDims := [0], indexVectorDim := 1, wf := wf }

section Rows2
variable {N E C w : Nat} (wf : ScatterDims.WF ⟨2, ![N, C]⟩ ⟨2, ![E, 1]⟩ ⟨2, ![E, C]⟩ [1] [0] [0] 1)

/-- On operand axis 0 the window of update (e, o) starts at the row number idx[e, 0], read signed. -/
theorem rows2_start0 (idx : IVec ⟨2, ![E, 1]⟩ w) (e : Fin E) (o : Fin C) :
    (rows2Dims N E C wf).start (ix2 e o) idx 0 = (idx (ix2 e (0 : Fin 1))).toInt := by
  unfold ScatterDims.start
  rw [dif_pos (show (0 : Fin 2) ∈ (rows2Dims N E C wf).scatterDimsToOperandDims from List.mem_singleton.mpr rfl)]
  have hsi : (rows2Dims N E C wf).siIdx (ix2 e o) ⟨List.idxOf (0 : Fin 2) (rows2Dims N E C wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On operand axis 1, which the row number does not address, the window starts at 0. -/
theorem rows2_start1 (idx : IVec ⟨2, ![E, 1]⟩ w) (e : Fin E) (o : Fin C) :
    (rows2Dims N E C wf).start (ix2 e o) idx 1 = 0 := by
  unfold ScatterDims.start
  have h : ¬ (1 : Fin 2) ∈ (rows2Dims N E C wf).scatterDimsToOperandDims := (show (1 : Fin 2) ∉ ([0] : List (Fin 2)) by decide)
  rw [dif_neg h]

/-- On the inserted operand axis 0 the window coordinate is 0. -/
theorem rows2_window0 (e : Fin E) (o : Fin C) : (rows2Dims N E C wf).window (ix2 e o) 0 = 0 := by
  unfold ScatterDims.window
  have h : ¬ (0 : Fin 2) ∈ (rows2Dims N E C wf).sKept := (show (0 : Fin 2) ∉ ([1] : List (Fin 2)) by decide)
  rw [dif_neg h]

/-- On operand axis 1 the window coordinate of update (e, o) is the column o. -/
theorem rows2_window1 (e : Fin E) (o : Fin C) : (rows2Dims N E C wf).window (ix2 e o) 1 = o.val := by
  unfold ScatterDims.window
  have h : (1 : Fin 2) ∈ (rows2Dims N E C wf).sKept := (show (1 : Fin 2) ∈ ([1] : List (Fin 2)) by decide)
  rw [dif_pos h]
  rfl

/-- Update (e, o') lands on operand element (n, o) exactly when its row number idx[e, 0], read
    signed, is n and its column o' is o. -/
theorem rows2_resultIdx?_iff (idx : IVec ⟨2, ![E, 1]⟩ w) (e : Fin E) (o' : Fin C) (n : Fin N) (o : Fin C) :
    (rows2Dims N E C wf).resultIdx? (ix2 e o') idx = some (ix2 n o) ↔
      (idx (ix2 e (0 : Fin 1))).toInt = (n.val : ℤ) ∧ o' = o := by
  rw [resultIdx?_eq_some_iff, Fin.forall_fin_two, rows2_start0, rows2_window0, rows2_start1, rows2_window1]
  show ((idx (ix2 e (0 : Fin 1))).toInt + ((0 : ℕ) : ℤ) = (n.val : ℤ) ∧ (0 : ℤ) + ((o'.val : ℕ) : ℤ) = (o.val : ℤ)) ↔ _
  rw [Fin.ext_iff]
  omega

/-- THE ROW SCATTER-ADD READ AT (n, o): the operand's element plus the sum of the updates' elements
    (e, o) over the update rows e whose row number idx[e, 0], read signed, is n. A row number outside
    [0, N) equals no n, so that update row is dropped. -/
theorem scatterAdd_rows2_apply (x : (⟨2, ![N, C]⟩ : Shape).Idx → EReal) (idx : IVec ⟨2, ![E, 1]⟩ w)
    (u : (⟨2, ![E, C]⟩ : Shape).Idx → EReal) (n : Fin N) (o : Fin C) :
    Host.scatterAdd (F := Ideal) (φ := .f32) (rows2Dims N E C wf) x idx u (ix2 n o) =
      x (ix2 n o) + ∑ e : Fin E, if (idx (ix2 e (0 : Fin 1))).toInt = (n.val : ℤ) then u (ix2 e o) else 0 := by
  show Ideal.hostScatterAdd (rows2Dims N E C wf) x idx u (ix2 n o) = _
  unfold Ideal.hostScatterAdd
  congr 1
  rw [Finset.sum_filter, sum_idx2]
  refine Finset.sum_congr rfl fun e _ => ?_
  simp only [rows2_resultIdx?_iff]
  by_cases ht : (idx (ix2 e (0 : Fin 1))).toInt = (n.val : ℤ)
  · simp only [ht, true_and, if_true]
    exact Finset.sum_ite_eq' Finset.univ o _ |>.trans (if_pos (Finset.mem_univ o))
  · simp only [ht, false_and, if_false, Finset.sum_const_zero]

/-- The same reading for ANY record of dimension numbers whose four lists are those of a row scatter
    (each hypothesis is closed by reflexivity on a record written out field by field). -/
theorem scatterAdd_rows2_apply_of_dims (D : ScatterDims ⟨2, ![N, C]⟩ ⟨2, ![E, 1]⟩ ⟨2, ![E, C]⟩)
    (h1 : D.updateWindowDims = [1]) (h2 : D.insertedWindowDims = [0]) (h3 : D.scatterDimsToOperandDims = [0])
    (h4 : D.indexVectorDim = 1) (x : (⟨2, ![N, C]⟩ : Shape).Idx → EReal) (idx : IVec ⟨2, ![E, 1]⟩ w)
    (u : (⟨2, ![E, C]⟩ : Shape).Idx → EReal) (n : Fin N) (o : Fin C) :
    Host.scatterAdd (F := Ideal) (φ := .f32) D x idx u (ix2 n o) =
      x (ix2 n o) + ∑ e : Fin E, if (idx (ix2 e (0 : Fin 1))).toInt = (n.val : ℤ) then u (ix2 e o) else 0 := by
  obtain ⟨uw, iw, sd, iv, wf'⟩ := D
  simp only at h1 h2 h3 h4
  subst h1 h2 h3 h4
  exact scatterAdd_rows2_apply wf' x idx u n o

end Rows2

/-! ## Rank 3: operand [N, B, C], row numbers [E, 1], updates [E, B, C] -/

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- A statement about every one of three axes is the statement about axis 0, axis 1 and axis 2. -/
theorem forall_fin3 {P : Fin 3 → Prop} : (∀ a, P a) ↔ P 0 ∧ P 1 ∧ P 2 := by
  constructor
  · intro h; exact ⟨h 0, h 1, h 2⟩
  · rintro ⟨h0, h1, h2⟩ a
    match a with
    | ⟨0, _⟩ => exact h0
    | ⟨1, _⟩ => exact h1
    | ⟨2, _⟩ => exact h2

/-- The dimension numbers of a row scatter over a rank-3 operand: the updates' axes 1 and 2 are the
    window axes and go to the operand's axes 1 and 2; the operand's axis 0 is inserted and is the
    one the row number addresses; the row number is the length-1 vector on the scatter indices'
    axis 1. -/
abbrev rows3Dims (N E B C : Nat)
    (wf : ScatterDims.WF ⟨3, ![N, B, C]⟩ ⟨2, ![E, 1]⟩ ⟨3, ![E, B, C]⟩ [1, 2] [0] [0] 1) :
    ScatterDims ⟨3, ![N, B, C]⟩ ⟨2, ![E, 1]⟩ ⟨3, ![E, B, C]⟩ :=
  { updateWindowDims := [1, 2], insertedWindowDims := [0], scatterDimsToOperandDims := [0], indexVectorDim := 1, wf := wf }

section Rows3
variable {N E B C w : Nat} (wf : ScatterDims.WF ⟨3, ![N, B, C]⟩ ⟨2, ![E, 1]⟩ ⟨3, ![E, B, C]⟩ [1, 2] [0] [0] 1)

/-- On operand axis 0 the window of update (e, b, d) starts at the row number idx[e, 0], read signed. -/
theorem rows3_start0 (idx : IVec ⟨2, ![E, 1]⟩ w) (e : Fin E) (b : Fin B) (d : Fin C) :
    (rows3Dims N E B C wf).start (ix3 e b d) idx 0 = (idx (ix2 e (0 : Fin 1))).toInt := by
  unfold ScatterDims.start
  rw [dif_pos (show (0 : Fin 3) ∈ (rows3Dims N E B C wf).scatterDimsToOperandDims from List.mem_singleton.mpr rfl)]
  have hsi : (rows3Dims N E B C wf).siIdx (ix3 e b d) ⟨List.idxOf (0 : Fin 3) (rows3Dims N E B C wf).scatterDimsToOperandDims,
      List.idxOf_lt_length_iff.2 (List.mem_singleton.mpr rfl)⟩ = ix2 e (0 : Fin 1) := by
    funext a; refine Fin.ext ?_
    match a with
    | ⟨0, _⟩ => rfl
    | ⟨1, _⟩ => rfl
  rw [hsi]

/-- On operand axis 1, which the row number does not address, the window starts at 0. -/
theorem rows3_start1 (idx : IVec ⟨2, ![E, 1]⟩ w) (e : Fin E) (b : Fin B) (d : Fin C) :
    (rows3Dims N E B C wf).start (ix3 e b d) idx 1 = 0 := by
  unfold ScatterDims.start
  have h : ¬ (1 : Fin 3) ∈ (rows3Dims N E B C wf).scatterDimsToOperandDims := (show (1 : Fin 3) ∉ ([0] : List (Fin 3)) by decide)
  rw [dif_neg h]

/-- On operand axis 2, which the row number does not address, the window starts at 0. -/
theorem rows3_start2 (idx : IVec ⟨2, ![E, 1]⟩ w) (e : Fin E) (b : Fin B) (d : Fin C) :
    (rows3Dims N E B C wf).start (ix3 e b d) idx 2 = 0 := by
  unfold ScatterDims.start
  have h : ¬ (2 : Fin 3) ∈ (rows3Dims N E B C wf).scatterDimsToOperandDims := (show (2 : Fin 3) ∉ ([0] : List (Fin 3)) by decide)
  rw [dif_neg h]

/-- On the inserted operand axis 0 the window coordinate is 0. -/
theorem rows3_window0 (e : Fin E) (b : Fin B) (d : Fin C) : (rows3Dims N E B C wf).window (ix3 e b d) 0 = 0 := by
  unfold ScatterDims.window
  have h : ¬ (0 : Fin 3) ∈ (rows3Dims N E B C wf).sKept := (show (0 : Fin 3) ∉ ([1, 2] : List (Fin 3)) by decide)
  rw [dif_neg h]

/-- On operand axis 1 the window coordinate of update (e, b, d) is b. -/
theorem rows3_window1 (e : Fin E) (b : Fin B) (d : Fin C) : (rows3Dims N E B C wf).window (ix3 e b d) 1 = b.val := by
  unfold ScatterDims.window
  have h : (1 : Fin 3) ∈ (rows3Dims N E B C wf).sKept := (show (1 : Fin 3) ∈ ([1, 2] : List (Fin 3)) by decide)
  rw [dif_pos h]
  rfl

/-- On operand axis 2 the window coordinate of update (e, b, d) is d. -/
theorem rows3_window2 (e : Fin E) (b : Fin B) (d : Fin C) : (rows3Dims N E B C wf).window (ix3 e b d) 2 = d.val := by
  unfold ScatterDims.window
  have h : (2 : Fin 3) ∈ (rows3Dims N E B C wf).sKept := (show (2 : Fin 3) ∈ ([1, 2] : List (Fin 3)) by decide)
  rw [dif_pos h]
  rfl

/-- Update (e, b', d') lands on operand element (n, b, d) exactly when its row number idx[e, 0], read
    signed, is n and its two window coordinates are (b, d). -/
theorem rows3_resultIdx?_iff (idx : IVec ⟨2, ![E, 1]⟩ w) (e : Fin E) (b' : Fin B) (d' : Fin C) (n : Fin N)
    (b : Fin B) (d : Fin C) :
    (rows3Dims N E B C wf).resultIdx? (ix3 e b' d') idx = some (ix3 n b d) ↔
      (idx (ix2 e (0 : Fin 1))).toInt = (n.val : ℤ) ∧ b' = b ∧ d' = d := by
  rw [resultIdx?_eq_some_iff, forall_fin3, rows3_start0, rows3_window0, rows3_start1, rows3_window1,
    rows3_start2, rows3_window2]
  show ((idx (ix2 e (0 : Fin 1))).toInt + ((0 : ℕ) : ℤ) = (n.val : ℤ) ∧ (0 : ℤ) + ((b'.val : ℕ) : ℤ) = (b.val : ℤ) ∧
    (0 : ℤ) + ((d'.val : ℕ) : ℤ) = (d.val : ℤ)) ↔ _
  rw [Fin.ext_iff, Fin.ext_iff]
  omega

/-- THE ROW SCATTER-ADD READ AT (n, b, d): the operand's element plus the sum of the updates' elements
    (e, b, d) over the update rows e whose row number idx[e, 0], read signed, is n. A row number
    outside [0, N) equals no n, so that update row is dropped. -/
theorem scatterAdd_rows3_apply (x : (⟨3, ![N, B, C]⟩ : Shape).Idx → EReal) (idx : IVec ⟨2, ![E, 1]⟩ w)
    (u : (⟨3, ![E, B, C]⟩ : Shape).Idx → EReal) (n : Fin N) (b : Fin B) (d : Fin C) :
    Host.scatterAdd (F := Ideal) (φ := .f32) (rows3Dims N E B C wf) x idx u (ix3 n b d) =
      x (ix3 n b d) + ∑ e : Fin E, if (idx (ix2 e (0 : Fin 1))).toInt = (n.val : ℤ) then u (ix3 e b d) else 0 := by
  show Ideal.hostScatterAdd (rows3Dims N E B C wf) x idx u (ix3 n b d) = _
  unfold Ideal.hostScatterAdd
  congr 1
  rw [Finset.sum_filter, sum_idx3]
  refine Finset.sum_congr rfl fun e _ => ?_
  simp only [rows3_resultIdx?_iff]
  by_cases ht : (idx (ix2 e (0 : Fin 1))).toInt = (n.val : ℤ)
  · simp only [ht, true_and, if_true]
    have hin : ∀ b' : Fin B, (∑ d' : Fin C, if b' = b ∧ d' = d then u (ix3 e b' d') else 0) =
        if b' = b then u (ix3 e b' d) else 0 := by
      intro b'
      by_cases hb : b' = b
      · simp only [hb, true_and, if_true]
        exact (Finset.sum_ite_eq' Finset.univ d _).trans (if_pos (Finset.mem_univ d))
      · simp only [hb, false_and, if_false, Finset.sum_const_zero]
    simp only [hin]
    exact (Finset.sum_ite_eq' Finset.univ b _).trans (if_pos (Finset.mem_univ b))
  · simp only [ht, false_and, if_false, Finset.sum_const_zero]

/-- The same reading for ANY record of dimension numbers whose four lists are those of a row scatter
    (each hypothesis is closed by reflexivity on a record written out field by field). -/
theorem scatterAdd_rows3_apply_of_dims (D : ScatterDims ⟨3, ![N, B, C]⟩ ⟨2, ![E, 1]⟩ ⟨3, ![E, B, C]⟩)
    (h1 : D.updateWindowDims = [1, 2]) (h2 : D.insertedWindowDims = [0]) (h3 : D.scatterDimsToOperandDims = [0])
    (h4 : D.indexVectorDim = 1) (x : (⟨3, ![N, B, C]⟩ : Shape).Idx → EReal) (idx : IVec ⟨2, ![E, 1]⟩ w)
    (u : (⟨3, ![E, B, C]⟩ : Shape).Idx → EReal) (n : Fin N) (b : Fin B) (d : Fin C) :
    Host.scatterAdd (F := Ideal) (φ := .f32) D x idx u (ix3 n b d) =
      x (ix3 n b d) + ∑ e : Fin E, if (idx (ix2 e (0 : Fin 1))).toInt = (n.val : ℤ) then u (ix3 e b d) else 0 := by
  obtain ⟨uw, iw, sd, iv, wf'⟩ := D
  simp only at h1 h2 h3 h4
  subst h1 h2 h3 h4
  exact scatterAdd_rows3_apply wf' x idx u n b d

end Rows3

end ScatterRows

end
-- ==== Proof.LibScatterFlat.lean ====
/-
  Flat scatter-add read at an element.

  A segment sum over a flat array — operand [N], one signed position per update (scatter indices
  [E, 1]), updates [E] — adds update e into operand position idx[e, 0] and drops it when that
  position is outside [0, N). Read at position n of the result this is the operand's element plus
  the sum, over the updates e whose position is n, of the update's element e. All sizes and the
  index width are arbitrary.
-/
import Idealize.ShloMosaic.PureOps.Ideal
import Idealize.ShloMosaic.PureOps.Ideal.Laws
import Idealize.ShloMosaic.Lib.ValueIdx
import proofs.«133106_j33303176413864_2_alg».proof.Proof.LibScatterRows

noncomputable section

open scoped BigOperators
open Idealize.ShloMosaic Idealize.ShloMosaic.ValueIdx

namespace ScatterFlat

/-- A rank-1 index set is its one coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The dimension numbers of a scatter into a flat operand: the updates have no window axis; the
    operand's one axis is inserted and is the one the position addresses; the position is the
    length-1 vector on the scatter indices' axis 1. -/
abbrev flatDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ :=
  { updateWindowDims := [], insertedWindowDims := [0], scatterDimsToOperandDims := [0], indexVectorDim := 1, wf := wf }

section Flat
variable {N E w : Nat} (wf : ScatterDims.WF ⟨1, ![N]⟩ ⟨2, ![E, 1]⟩ ⟨1, ![E]⟩ [] [0] [0] 1)

/-- On the operand's axis the window of update e starts at the position idx[e, 0], read signed. -/
theorem flat_start0 (idx : IVec ⟨2, ![E, 1]⟩ w) (e : Fin E) :
    (flatDims N E wf).start (ix1 e) idx 0 = (idx (ix2 e (0 : Fin 1))).toInt := by
  unfold ScatterDims.start
  rw [dif_pos (show (0 : Fin 1) ∈ (flatDims N E wf).scatterDimsToOperandDims from List.mem_singleton.mpr rfl)]
  have hsi : (flatDims N E wf).siIdx (ix1 e) ⟨List.idxOf (0 : Fin 1) (flatDims N E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the inserted operand axis the window coordinate is 0. -/
theorem flat_window0 (e : Fin E) : (flatDims N E wf).window (ix1 e) 0 = 0 := by
  unfold ScatterDims.window
  have h : ¬ (0 : Fin 1) ∈ (flatDims N E wf).sKept := (show (0 : Fin 1) ∉ ([] : List (Fin 1)) by decide)
  rw [dif_neg h]

/-- Update e lands on operand position n exactly when its position idx[e, 0], read signed, is n. -/
theorem flat_resultIdx?_iff (idx : IVec ⟨2, ![E, 1]⟩ w) (e : Fin E) (n : Fin N) :
    (flatDims N E wf).resultIdx? (ix1 e) idx = some (ix1 n) ↔ (idx (ix2 e (0 : Fin 1))).toInt = (n.val : ℤ) := by
  rw [ScatterRows.resultIdx?_eq_some_iff, Fin.forall_fin_one, flat_start0, flat_window0]
  show (idx (ix2 e (0 : Fin 1))).toInt + ((0 : ℕ) : ℤ) = (n.val : ℤ) ↔ _
  omega

/-- THE FLAT SCATTER-ADD READ AT n: the operand's element plus the sum of the updates' elements e
    over the updates whose position idx[e, 0], read signed, is n. A position outside [0, N) equals
    no n, so that update is dropped. -/
theorem scatterAdd_flat_apply (x : (⟨1, ![N]⟩ : Shape).Idx → EReal) (idx : IVec ⟨2, ![E, 1]⟩ w)
    (u : (⟨1, ![E]⟩ : Shape).Idx → EReal) (n : Fin N) :
    Host.scatterAdd (F := Ideal) (φ := .f32) (flatDims N E wf) x idx u (ix1 n) =
      x (ix1 n) + ∑ e : Fin E, if (idx (ix2 e (0 : Fin 1))).toInt = (n.val : ℤ) then u (ix1 e) else 0 := by
  show Ideal.hostScatterAdd (flatDims N E wf) x idx u (ix1 n) = _
  unfold Ideal.hostScatterAdd
  congr 1
  rw [Finset.sum_filter, sum_idx1]
  refine Finset.sum_congr rfl fun e _ => ?_
  simp only [flat_resultIdx?_iff]

/-- The same reading for ANY record of dimension numbers whose four lists are those of a flat
    scatter (each hypothesis is closed by reflexivity on a record written out field by field). -/
theorem scatterAdd_flat_apply_of_dims (D : ScatterDims ⟨1, ![N]⟩ ⟨2, ![E, 1]⟩ ⟨1, ![E]⟩)
    (h1 : D.updateWindowDims = []) (h2 : D.insertedWindowDims = [0]) (h3 : D.scatterDimsToOperandDims = [0])
    (h4 : D.indexVectorDim = 1) (x : (⟨1, ![N]⟩ : Shape).Idx → EReal) (idx : IVec ⟨2, ![E, 1]⟩ w)
    (u : (⟨1, ![E]⟩ : Shape).Idx → EReal) (n : Fin N) :
    Host.scatterAdd (F := Ideal) (φ := .f32) D x idx u (ix1 n) =
      x (ix1 n) + ∑ e : Fin E, if (idx (ix2 e (0 : Fin 1))).toInt = (n.val : ℤ) then u (ix1 e) else 0 := by
  obtain ⟨uw, iw, sd, iv, wf'⟩ := D
  simp only at h1 h2 h3 h4
  subst h1 h2 h3 h4
  exact scatterAdd_flat_apply wf' x idx u n

end Flat

end ScatterFlat

end
-- ==== Proof.RefHist.lean ====
/-
  The reference program computes the classwise calibration error of Binning.lean.

  Read one element at a time, the reference is: the row supremum (a maximum fold from −∞, then a maximum with −∞), the
  softmax probability of (row n, class c), its bin clipped into [0, 14], and the segment number bin + 15·class of every
  flat position n·1000 + class. Three segment sums over the 131072000 flat positions into 15000 segments give, at
  segment c·15 + b, the sums over the rows n whose probability of class c falls in bin b of the float one, of that
  probability, and of the label indicator: a bin is one of the words 0 … 14, so bin + 15·class never wraps at 32 bits
  and determines the class and the bin. The reshape [15000] → [1000, 15] puts segment c·15 + b at (c, b). The cell
  arithmetic is the gap of Binning.lean, and the two sums and the division by 1000 are its total.
-/
import proofs.«133106_j33303176413864_2_alg».proof.Proof.RefReadP
import proofs.«133106_j33303176413864_2_alg».proof.Proof.Binning
import proofs.«133106_j33303176413864_2_alg».proof.Proof.BinRange
import proofs.«133106_j33303176413864_2_alg».proof.Proof.BlockHist
import proofs.«133106_j33303176413864_2_alg».proof.Proof.LibHostMax
import proofs.«133106_j33303176413864_2_alg».proof.Proof.LibScatterFlat

noncomputable section

open scoped BigOperators

namespace Cert.ReferenceIdeal.RefValue

open Cert.ReferenceIdeal Cert.ReferenceIdeal.Gen Cert.ReferenceIdeal.ReadP Cert.Hist
open Idealize.ShloMosaic Idealize.ShloMosaic.ValueIdx Idealize.ShloMosaic.TcCoe Idealize.SL.Sem Idealize.ShloMosaic.StableHlo

/-- The logits as the reference program's first argument. -/
abbrev XT := (⟨S131072x1000, .f32⟩ : BufTy).Contents (Elt Ideal)
/-- The labels as the reference program's second argument. -/
abbrev LT := (⟨S131072, .i32⟩ : BufTy).Contents (Elt Ideal)

/-! ## Flat positions of the row-major [131072, 1000] array -/

/-- The row of flat position e. -/
def flatRow (e : Fin 131072000) : Fin 131072 := ⟨e.val / 1000, by have := e.isLt; omega⟩
/-- The column (class) of flat position e. -/
def flatCol (e : Fin 131072000) : Fin 1000 := ⟨e.val % 1000, by have := e.isLt; omega⟩

/-- A sum over the flat positions is the sum over the rows of the sums over the classes. -/
theorem sum_flat {M : Type*} [AddCommMonoid M] (G : Fin 131072 → Fin 1000 → M) :
    ∑ e : Fin 131072000, G (flatRow e) (flatCol e) = ∑ n : Fin 131072, ∑ c : Fin 1000, G n c := by
  have h := Equiv.sum_comp (finProdFinEquiv (m := 131072) (n := 1000)).symm (fun p => G p.1 p.2)
  rw [Fintype.sum_prod_type] at h
  exact h

/-! ## Segment numbers -/

/-- The segment number of bin word k (one of 0 … 14) and class c', read signed, is k + 15·c': no wrap at 32 bits. -/
theorem seg_toInt (k : Fin 15) (c' : Fin 1000) :
    (IntOp.addi (BitVec.ofNat 32 k.val) (IntOp.muli (BitVec.ofNat 32 c'.val) 15#32)).toInt
      = (k.val : ℤ) + 15 * (c'.val : ℤ) := by
  unfold IntOp.addi IntOp.muli
  have hk := k.isLt; have hc := c'.isLt
  have h15 : (15#32 : BitVec 32) = BitVec.ofNat 32 15 := rfl
  rw [h15, ← BitVec.ofNat_mul, ← BitVec.ofNat_add, BitVec.toInt_eq_toNat_cond, BitVec.toNat_ofNat]
  have hm : (k.val + c'.val * 15) % 2 ^ 32 = k.val + c'.val * 15 := Nat.mod_eq_of_lt (by omega)
  rw [hm, if_pos (by omega)]
  push_cast; ring

/-- Segment k + 15·c' is segment c·15 + b exactly when the class and the bin agree. -/
theorem seg_eq_iff (k b : Fin 15) (c' c : Fin 1000) :
    (IntOp.addi (BitVec.ofNat 32 k.val) (IntOp.muli (BitVec.ofNat 32 c'.val) 15#32)).toInt
      = ((c.val * 15 + b.val : ℕ) : ℤ) ↔ c' = c ∧ k = b := by
  rw [seg_toInt]
  have hk := k.isLt; have hb := b.isLt
  constructor
  · intro h
    refine ⟨Fin.ext ?_, Fin.ext ?_⟩ <;> omega
  · rintro ⟨rfl, rfl⟩; push_cast; ring

/-- The segment number of the bin of a probability and class c' is c·15 + b exactly when c' is c and the bin is b. -/
theorem seg_cond (p : EReal) (c' c : Fin 1000) (b : Fin 15) :
    (IntOp.addi (binOf p) (IntOp.muli (BitVec.ofNat 32 c'.val) 15#32)).toInt = ((c.val * 15 + b.val : ℕ) : ℤ)
      ↔ c' = c ∧ binOf p = BitVec.ofNat 32 b.val := by
  obtain ⟨k, hk⟩ := binOf_range p
  rw [hk, seg_eq_iff]
  constructor
  · rintro ⟨h1, h2⟩; exact ⟨h1, by rw [h2]⟩
  · rintro ⟨h1, h2⟩; exact ⟨h1, ofNat_bin_injective h2⟩

/-! ## The softmax probability and its bin, one element at a time -/

/-- The row maximum at row n is the supremum of the row: the fold from −∞, then the maximum with −∞. -/
theorem v2_at (x : XT) (n : Fin 131072) :
    val_main_v2 (F := Ideal) x (ix1 n) = Finset.univ.sup fun k : Fin 1000 => x (ix2 n k) := by
  have h0 : val_main_v0 (F := Ideal) x (ix1 n) = Finset.univ.sup fun k : Fin 1000 => x (ix2 n k) :=
    HostMax.reduce_rows x (val_main_cst (F := Ideal)) (fun i => HostMax.ofBits_neg_inf)
      reducesTo_S131072x1000_S131072_d1 (by decide) h_S_ n
  rw [val_main_v2_apply, val_main_v1_apply, val_main_cst_0_apply, h0]
  show max (Ideal.ofBits .f32 0xFF800000#32) _ = _
  rw [HostMax.ofBits_neg_inf]
  exact max_bot_left _

/-- The exponential of the shifted logit at (n, k). -/
theorem v6_at (x : XT) (n : Fin 131072) (k : Fin 1000) :
    val_main_v6 (F := Ideal) x (ix2 n k)
      = Ideal.exp (x (ix2 n k) - Finset.univ.sup fun j : Fin 1000 => x (ix2 n j)) := by
  have hi : idx_main_v3 (idx_main_v4 (ix2 n k)) = ix1 n := by
    funext a; match a with | ⟨0, _⟩ => rfl
  rw [val_main_v6_apply, val_main_v5_apply, val_main_v4_apply, val_main_v3_apply, hi, v2_at]
  rfl

/-- The row sum of the exponentials at row n (the sum starts from the float zero, which is zero). -/
theorem v7_at (x : XT) (n : Fin 131072) :
    val_main_v7 (F := Ideal) x (ix1 n)
      = ∑ k : Fin 1000, Ideal.exp (x (ix2 n k) - Finset.univ.sup fun j : Fin 1000 => x (ix2 n j)) := by
  rw [val_main_v7_apply, val_main_cst_1_apply]
  show Ideal.ofBits .f32 0x00000000#32 + _ = _
  rw [Ideal.ofBits_zero_f32, zero_add]
  refine Finset.sum_congr rfl fun k _ => ?_
  have hk : idx_main_v7 (ix1 n) k = ix2 n k := by
    funext a; match a with | ⟨0, _⟩ => rfl | ⟨1, _⟩ => rfl
  rw [hk, v6_at]

/-- The softmax at (n, c) is the probability of class c in row n. -/
theorem v10_at (x : XT) (n : Fin 131072) (c : Fin 1000) :
    val_main_v10 (F := Ideal) x (ix2 n c) = prob x n c := by
  have hi : idx_main_v8 (idx_main_v9 (ix2 n c)) = ix1 n := by
    funext a; match a with | ⟨0, _⟩ => rfl
  rw [val_main_v10_apply, val_main_v9_apply, val_main_v8_apply, hi, v7_at, v6_at]
  rfl

/-- The clipped bin at (n, c) is the bin of that probability. -/
theorem v17_at (x : XT) (n : Fin 131072) (c : Fin 1000) :
    val_main_v17 (F := Ideal) x (ix2 n c) = binOf (prob x n c) := by
  rw [val_main_v17_apply, val_main_call0_v4_apply, val_main_call0_v3_apply, val_main_c_4_apply,
    val_main_call0_v2_apply, val_main_call0_v1_apply, val_main_call0_v0_apply, val_main_c_3_apply,
    val_main_v16_apply, val_main_v15_apply, val_main_c_apply, val_main_v14_apply, val_main_v13_apply,
    val_main_v12_apply, val_main_v11_apply, val_main_cst_2_apply, v10_at]
  rfl

/-- The segment number at (n, c): the bin plus 15 times the class, as 32-bit integers. -/
theorem v23_at (x : XT) (n : Fin 131072) (c : Fin 1000) :
    val_main_v23 (F := Ideal) x (ix2 n c)
      = IntOp.addi (binOf (prob x n c)) (IntOp.muli (BitVec.ofNat 32 c.val) 15#32) := by
  rw [val_main_v23_apply, v17_at, val_main_v22_apply, val_main_v21_apply, val_main_v19_apply, val_main_v18_apply,
    val_main_v20_apply, val_main_c_5_apply]

/-- The flattened segment numbers at flat position e are those of (row of e, class of e). -/
theorem v24_at (x : XT) (e : Fin 131072000) :
    val_main_v24 (F := Ideal) x (ix1 e) = val_main_v23 (F := Ideal) x (ix2 (flatRow e) (flatCol e)) := by
  rw [val_main_v24_apply]
  exact congrArg _ (by funext a; match a with | ⟨0, _⟩ => rfl | ⟨1, _⟩ => rfl)

/-- The three copies of the segment numbers as a one-column array, at (e, 0). -/
theorem v27_at (x : XT) (e : Fin 131072000) :
    val_main_v27 (F := Ideal) x (ix2 e (0 : Fin 1)) = val_main_v23 (F := Ideal) x (ix2 (flatRow e) (flatCol e)) := by
  have hi : idx_main_v27 (ix2 e (0 : Fin 1)) = ix1 e := by
    funext a; match a with | ⟨0, _⟩ => rfl
  rw [val_main_v27_apply, hi, v24_at]
theorem v31_at (x : XT) (e : Fin 131072000) :
    val_main_v31 (F := Ideal) x (ix2 e (0 : Fin 1)) = val_main_v23 (F := Ideal) x (ix2 (flatRow e) (flatCol e)) := by
  have hi : idx_main_v31 (ix2 e (0 : Fin 1)) = ix1 e := by
    funext a; match a with | ⟨0, _⟩ => rfl
  rw [val_main_v31_apply, hi, v24_at]
theorem v42_at (x : XT) (e : Fin 131072000) :
    val_main_v42 (F := Ideal) x (ix2 e (0 : Fin 1)) = val_main_v23 (F := Ideal) x (ix2 (flatRow e) (flatCol e)) := by
  have hi : idx_main_v42 (ix2 e (0 : Fin 1)) = ix1 e := by
    funext a; match a with | ⟨0, _⟩ => rfl
  rw [val_main_v42_apply, hi, v24_at]

/-! ## A segment sum read at segment c·15 + b -/

/-- A segment sum into zeros, whose segment numbers are the reference's and whose flat updates are u2 at (row, class),
    read at segment c·15 + b: the sum over the rows whose probability of class c falls in bin b of u2 at (row, c). -/
theorem hist_at (x : XT) (z : (⟨S15000, .f32⟩ : BufTy).Contents (Elt Ideal))
    (hz : ∀ j, z j = Ideal.ofBits .f32 0x00000000#32)
    (idx : (⟨S131072000x1, .i32⟩ : BufTy).Contents (Elt Ideal))
    (hidx : ∀ e : Fin 131072000, idx (ix2 e (0 : Fin 1)) = val_main_v23 (F := Ideal) x (ix2 (flatRow e) (flatCol e)))
    (uf : (⟨S131072000, .f32⟩ : BufTy).Contents (Elt Ideal)) (u2 : Fin 131072 → Fin 1000 → EReal)
    (hu : ∀ e : Fin 131072000, uf (ix1 e) = u2 (flatRow e) (flatCol e)) (c : Fin 1000) (b : Fin 15) :
    Host.scatterAdd (F := Ideal) (φ := .f32) scatter_S15000_S131072000x1_S131072000_n_0_0_1 z idx uf
        (ix1 (⟨c.val * 15 + b.val, by have := c.isLt; have := b.isLt; omega⟩ : Fin 15000))
      = ∑ n : Fin 131072, if binOf (prob x n c) = BitVec.ofNat 32 b.val then u2 n c else 0 := by
  rw [ScatterFlat.scatterAdd_flat_apply_of_dims _ rfl rfl rfl rfl, hz, Ideal.ofBits_zero_f32, zero_add]
  let G : Fin 131072 → Fin 1000 → EReal := fun n c' =>
    if c' = c ∧ binOf (prob x n c') = BitVec.ofNat 32 b.val then u2 n c' else 0
  have hG : ∀ e : Fin 131072000,
      (if (idx (ix2 e (0 : Fin 1))).toInt = ((c.val * 15 + b.val : ℕ) : ℤ) then uf (ix1 e) else 0)
        = G (flatRow e) (flatCol e) := by
    intro e
    rw [hidx, v23_at, hu]
    exact if_congr (seg_cond _ _ _ _) rfl rfl
  refine (Finset.sum_congr rfl fun e _ => hG e).trans ((sum_flat G).trans ?_)
  refine Finset.sum_congr rfl fun n _ => ?_
  by_cases hP : binOf (prob x n c) = BitVec.ofNat 32 b.val
  · rw [if_pos hP, Finset.sum_eq_single c]
    · exact if_pos ⟨rfl, hP⟩
    · intro c' _ hne; exact if_neg fun h => hne h.1
    · intro h; exact absurd (Finset.mem_univ c) h
  · rw [if_neg hP]
    refine Finset.sum_eq_zero fun c' _ => if_neg ?_
    rintro ⟨rfl, h⟩; exact hP h

/-- The reshape [15000] → [1000, 15] reads (c, b) at segment c·15 + b. -/
theorem idx44_at (c : Fin 1000) (b : Fin 15) :
    idx_main_v44 (ix2 c b) = ix1 (⟨c.val * 15 + b.val, by have := c.isLt; have := b.isLt; omega⟩ : Fin 15000) := by
  funext a; match a with | ⟨0, _⟩ => rfl

/-! ## The three histograms at (c, b) -/

/-- The count histogram. -/
theorem v44_at (x : XT) (c : Fin 1000) (b : Fin 15) : val_main_v44 (F := Ideal) x (ix2 c b) = count x b c := by
  rw [val_main_v44_apply, idx44_at]
  unfold val_main_v28
  rw [hist_at x _ (fun j => by rw [val_main_v26_apply, val_main_cst_7_apply]; rfl) _ (v27_at x) _
    (fun _ _ => Ideal.ofBits .f32 0x3F800000#32) (fun e => by rw [val_main_v25_apply, val_main_cst_6_apply]; rfl) c b]
  rfl

/-- The confidence histogram. -/
theorem v45_at (x : XT) (c : Fin 1000) (b : Fin 15) : val_main_v45 (F := Ideal) x (ix2 c b) = conf x b c := by
  have hi : idx_main_v45 (ix2 c b) = ix1 (⟨c.val * 15 + b.val, by have := c.isLt; have := b.isLt; omega⟩ : Fin 15000) := by
    funext a; match a with | ⟨0, _⟩ => rfl
  rw [val_main_v45_apply, hi]
  unfold val_main_v32
  rw [hist_at x _ (fun j => by rw [val_main_v30_apply, val_main_cst_8_apply]; rfl) _ (v31_at x) _
    (fun n c' => prob x n c') (fun e => by
      have he : idx_main_v29 (ix1 e) = ix2 (flatRow e) (flatCol e) := by
        funext a; match a with | ⟨0, _⟩ => rfl | ⟨1, _⟩ => rfl
      rw [val_main_v29_apply, he, v10_at]) c b]
  rfl

/-- The label indicator at (n, c): the float one where row n carries the label c, zero elsewhere. -/
theorem v39_at (l : LT) (n : Fin 131072) (c : Fin 1000) :
    val_main_v39 (F := Ideal) l (ix2 n c) = labOf (l (ix1 n)) c := by
  have h36 : idx_main_v33 (idx_main_v36 (ix2 n c)) = ix1 n := by
    funext a; match a with | ⟨0, _⟩ => rfl
  rw [val_main_v39_apply, val_main_v38_apply, val_main_v36_apply, val_main_v33_apply, h36, val_main_v37_apply,
    val_main_v35_apply, val_main_v34_apply]
  exact labH_eq (l (ix1 n)) c

/-- The accuracy histogram. -/
theorem v46_at (x : XT) (l : LT) (c : Fin 1000) (b : Fin 15) :
    val_main_v46 (F := Ideal) x l (ix2 c b) = acc x l b c := by
  have hi : idx_main_v46 (ix2 c b) = ix1 (⟨c.val * 15 + b.val, by have := c.isLt; have := b.isLt; omega⟩ : Fin 15000) := by
    funext a; match a with | ⟨0, _⟩ => rfl
  rw [val_main_v46_apply, hi]
  unfold val_main_v43
  rw [hist_at x _ (fun j => by rw [val_main_v41_apply, val_main_cst_9_apply]; rfl) _ (v42_at x) _
    (fun n c' => labOf (l (ix1 n)) c') (fun e => by
      have he : idx_main_v40 (ix1 e) = ix2 (flatRow e) (flatCol e) := by
        funext a; match a with | ⟨0, _⟩ => rfl | ⟨1, _⟩ => rfl
      rw [val_main_v40_apply, he, v39_at]) c b]
  rfl

/-! ## The gaps, the two sums and the mean -/

/-- The selected cell value at (c, b) is the gap of the cell's three histogram entries. -/
theorem v58_at (x : XT) (l : LT) (c : Fin 1000) (b : Fin 15) :
    val_main_v58 (F := Ideal) x l (ix2 c b) = gap (count x b c) (conf x b c) (acc x l b c) := by
  rw [val_main_v58_apply, val_main_v54_apply, val_main_v57_apply, val_main_v56_apply, val_main_v55_apply,
    val_main_v49_apply, val_main_v50_apply, val_main_v48_apply, val_main_v52_apply, val_main_v53_apply,
    val_main_cst_12_apply, val_main_v47_apply, val_main_cst_10_apply, val_main_v51_apply, val_main_cst_11_apply,
    val_main_call1_v1_apply, val_main_call1_v0_apply, val_main_cst_13_apply, v44_at, v45_at, v46_at]
  rfl

/-- The sum over the bins of class c, started from the float zero. -/
theorem v59_at (x : XT) (l : LT) (c : Fin 1000) :
    val_main_v59 (F := Ideal) x l (ix1 c)
      = Ideal.ofBits .f32 0x00000000#32 + ∑ b : Fin 15, gap (count x b c) (conf x b c) (acc x l b c) := by
  rw [val_main_v59_apply, val_main_cst_14_apply]
  refine congrArg (_ + ·) (Finset.sum_congr rfl fun k _ => ?_)
  have hk : idx_main_v59 (ix1 c) k = ix2 c k := by
    funext a; match a with | ⟨0, _⟩ => rfl | ⟨1, _⟩ => rfl
  rw [hk, v58_at]

/-- THE REFERENCE'S RESULT is the calibration error of Binning.lean, at its one index. -/
theorem ref_total (x : XT) (l : LT) :
    val_main_v61 (F := Ideal) x l = fun _ => Cert.Hist.total x l := by
  funext i
  rw [val_main_v61_apply, val_main_v60_apply, val_main_cst_15_apply, val_main_cst_16_apply, ScatterFlat.sum_idx1]
  simp only [v59_at]
  rfl

end Cert.ReferenceIdeal.RefValue

end
-- ==== Proof.LibLaneRows.lean ====
/-
  Two readings of an [n, w] vector over the extended reals, row by row.

  A lane reduction with an addition body over the last axis, from the neutral accumulator, holds at row `r` the plain sum of that
  row's `w` entries: the reduction sums the entries whose index drops to `r`, and those are exactly (r, 0), …, (r, w − 1).
  A one-column array [n, 1] broadcast to [n, w] holds at (r, t) the column's entry of row `r`, whatever `t`.
-/
import Idealize.ShloMosaic.Lib.ValueIdx
import Idealize.ShloMosaic.Lib.Pipeline.Value
import Idealize.ShloMosaic.PureOps.Ideal.Laws
import proofs.«133106_j33303176413864_2_alg».proof.Proof.LibHostMax

noncomputable section

open scoped BigOperators

namespace LaneRows

open Idealize.ShloMosaic Idealize.ShloMosaic.ValueIdx

/-- From the neutral accumulator, a lane sum over the last axis of an [n, w] vector, at row `r`, is the sum of the row. -/
theorem multiReduction_add_rows {n w : ℕ} (P : FVec Ideal ⟨2, ![n, w]⟩ .f32) (acc : BitVec FTy.f32.bits)
    (h : (⟨2, ![n, w]⟩ : Shape).Reduces [1] (⟨1, ![n]⟩ : Shape)) (hφ : FKind.Formats .f32)
    (hacc : acc = FKind.add.neutral .f32 hφ) (r : Fin n) :
    multiReduction (F := Ideal) .add [1] (⟨1, ![n]⟩ : Shape) P acc h hφ hacc (ix1 r) = ∑ k : Fin w, P (ix2 r k) := by
  refine (Ideal.multiReduction_add_single (φ := .f32) P acc h hφ hacc (ix1 r)).trans ?_
  have hf : (P ∘ h.lift (ix1 r)) = fun k : Fin w => P (ix2 r k) :=
    funext fun k => congrArg P (HostMax.lift_rows h r k)
  exact congrArg (fun f => ∑ k : Fin w, f k) hf

/-- One column broadcast across `w` columns: entry (r, t) is the column's entry of row `r`. -/
theorem broadcastTo_col_apply {α : Type} {n w : ℕ} (v : (⟨2, ![n, 1]⟩ : Shape).Idx → α)
    (h : (⟨2, ![n, 1]⟩ : Shape).Broadcasts ⟨2, ![n, w]⟩) (r : Fin n) (t : Fin w) :
    broadcastTo ⟨2, ![n, w]⟩ v h (ix2 r t) = v (ix2 r (0 : Fin 1)) := by
  refine broadcastTo_apply v h (ix2 r t) (ix2 r (0 : Fin 1)) fun ax => ?_
  match ax with
  | ⟨0, _⟩ =>
    show r.val = if n = 1 then 0 else r.val
    split
    · have := r.isLt; omega
    · rfl
  | ⟨1, _⟩ =>
    show (0 : ℕ) = if (1 : ℕ) = 1 then 0 else t.val
    rw [if_pos rfl]

end LaneRows

end
-- ==== Proof.LibLaneCols.lean ====
/-
  Two readings of an [a, b] vector over the extended reals, column by column.

  A lane reduction over the FIRST axis gathers, at column `j`, the `a` entries (0, j), …, (a − 1, j).  With an addition
  body from the neutral accumulator it holds their plain sum; with a maximum body from −∞ it holds their supremum (a
  fold of `max` from the bottom element over a finite family is the family's supremum, in any order).  These are the
  column forms beside the row forms (reductions over the last axis).
-/
import Idealize.ShloMosaic.Lib.ValueIdx
import Idealize.ShloMosaic.Lib.Pipeline.Value
import Idealize.ShloMosaic.PureOps.Ideal.Laws
import proofs.«133106_j33303176413864_2_alg».proof.Proof.LibHostMax

noncomputable section

open scoped BigOperators

namespace LaneCols

open Idealize.ShloMosaic Idealize.ShloMosaic.ValueIdx

/-- Column `j` of an [a, b] array with coordinate `k` put back on the reduced (first) axis is (k, j). -/
theorem lift_cols {a b : ℕ} (h : (⟨2, ![a, b]⟩ : Shape).Reduces [0] (⟨1, ![b]⟩ : Shape)) (j : Fin b)
    (k : Fin ((⟨2, ![a, b]⟩ : Shape).size 0)) : h.lift (ix1 j) k = ix2 (⟨k.val, k.isLt⟩ : Fin a) j := by
  funext c; apply Fin.ext
  fin_cases c <;> rfl

/-- From the neutral accumulator, a lane sum over the first axis of an [a, b] vector, at column `j`, is the sum of the column. -/
theorem multiReduction_add_cols {a b : ℕ} (P : FVec Ideal ⟨2, ![a, b]⟩ .f32) (acc : BitVec FTy.f32.bits)
    (h : (⟨2, ![a, b]⟩ : Shape).Reduces [0] (⟨1, ![b]⟩ : Shape)) (hφ : FKind.Formats .f32)
    (hacc : acc = FKind.add.neutral .f32 hφ) (j : Fin b) :
    multiReduction (F := Ideal) .add [0] (⟨1, ![b]⟩ : Shape) P acc h hφ hacc (ix1 j) = ∑ k : Fin a, P (ix2 k j) := by
  refine (Ideal.multiReduction_add_single (φ := .f32) P acc h hφ hacc (ix1 j)).trans ?_
  have hf : (P ∘ h.lift (ix1 j)) = fun k : Fin a => P (ix2 k j) :=
    funext fun k => congrArg P (lift_cols h j k)
  exact congrArg (fun f => ∑ k : Fin a, f k) hf

/-- From −∞, a lane maximum over the first axis of an [a, b] vector, at column `j`, is the supremum of the column. -/
theorem multiReduction_max_cols {a b : ℕ} (P : FVec Ideal ⟨2, ![a, b]⟩ .f32)
    (h : (⟨2, ![a, b]⟩ : Shape).Reduces [0] (⟨1, ![b]⟩ : Shape)) (hφ : FKind.Formats .f32)
    (hacc : (0xFF800000#32 : BitVec FTy.f32.bits) = FKind.maximumf.neutral .f32 hφ) (j : Fin b) :
    multiReduction (F := Ideal) .maximumf [0] (⟨1, ![b]⟩ : Shape) P 0xFF800000#32 h hφ hacc (ix1 j)
      = (Finset.univ : Finset (Fin a)).sup fun k => P (ix2 k j) := by
  refine (Ideal.multiReduction_maximumf_single (φ := .f32) P 0xFF800000#32 h hφ hacc (ix1 j)).trans ?_
  have hf : (P ∘ h.lift (ix1 j)) = fun k : Fin a => P (ix2 k j) := funext fun k => congrArg P (lift_cols h j k)
  have hb : FloatOps.ofBits (F := Ideal) .f32 0xFF800000#32 = (⊥ : EReal) := HostMax.ofBits_neg_inf
  rw [hb]
  exact congrArg (fun f => Finset.fold max (⊥ : EReal) f (Finset.univ : Finset (Fin a))) hf

end LaneCols

end
-- ==== Proof.LibColumns.lean ====
/-
  Column forms of layout operations, and a minimum taken along one axis, read at an index given by coordinates.

  A reduction that keeps its axis (`keepdims`) along the LAST axis of an `[a, b]` array leaves an `[a, 1]` column:
  the vector of per-row results cast from `[a]` to `[a, 1]`, later broadcast back over the `b` columns.  The two
  lemmas here read those operations at `ix2 …` indices, beside the library's row forms (`[a] → [1, a]`,
  `[1, b] → [a, b]`).  The third reads a `minimumf` reduction along one axis, at the ideal floats, as the fold of `min`
  from the accumulator's value over that axis's coordinates; the fourth says the f32 word `0x7F800000` is `⊤`.
-/
import Idealize.ShloMosaic.Lib.ValueLayout
import Idealize.ShloMosaic.PureOps.Ideal.Laws

namespace Idealize.ShloMosaic.ValueIdx

open Idealize.ShloMosaic

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry in row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A float `vector.multi_reduction <minimumf>` over one axis, read at the ideal floats: the fold of `min` from the
    accumulator's value over that axis's coordinates (a column's minimum). -/
theorem multiReduction_minimumf_single {φ : FTy} {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- The f32 word of `+∞` denotes `⊤`. -/
theorem ofBits_inf_f32 : Ideal.ofBits .f32 0x7F800000#32 = ⊤ := by
  simp [Ideal.ofBits, Ideal.ieee]

end Idealize.ShloMosaic.ValueIdx
-- ==== Proof.LibDotAxis0.lean ====
/-
  A matrix product that contracts the FIRST axis of both operands, read at one entry.

  For `x : K × M` and `y : K × N` the product with dimension numbers "contract axis 0 of the left with axis 0 of the right, keep
  axis 1 of each" is the `M × N` array of inner products of COLUMNS: entry `(p, q)` is `∑ k, x[k, p] · y[k, q]` (the transpose of
  the left operand times the right). Over the extended reals, accumulated into the zero array, that is the whole statement
  (`matmul_axis0_apply`); the work is only to identify the product's own operand indices — computed from the dimension numbers —
  with the coordinate pairs `(k, p)` and `(k, q)`, and its one-axis contraction index with the coordinate `k`.
-/
import Idealize.ShloMosaic.PureOps.Ideal.Laws
import Idealize.ShloMosaic.Lib.ValueIdx

noncomputable section

open scoped BigOperators

namespace Cert.Lib.DotAxis0

open Idealize.ShloMosaic Idealize.ShloMosaic.ValueIdx

/-- The dimension numbers: `K×M` by `K×N`, each contracted on its first axis, the result `M×N`. -/
def dims (K M N : Nat) : DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := ⟨rfl, by simp, rfl, by simp, by simp, by simp, by simpa [List.finRange] using List.Perm.swap 0 1 [],
    by simpa [List.finRange] using List.Perm.swap 0 1 [], rfl, Nat.two_pos, fun b => by fin_cases b <;> rfl⟩

variable {K M N : Nat}

/-- The left operand's kept axis 1 follows the output's axis 0, whatever the contraction index. -/
theorem lhs_axis1 (i : (⟨2, ![M, N]⟩ : Shape).Idx) (c : (dims K M N).contr.Idx) :
    ((dims K M N).lhsIdx i c 1).val = (i 0).val := by
  unfold DotDims.lhsIdx
  rw [dif_neg (show ¬(1 : Fin (⟨2, ![K, M]⟩ : Shape).rank) ∈ (dims K M N).lhsBatch from List.not_mem_nil),
    dif_pos (show (1 : Fin (⟨2, ![K, M]⟩ : Shape).rank) ∈ (dims K M N).lhsNonContracting from List.mem_cons_self)]
  rfl

/-- The right operand's kept axis 1 follows the output's axis 1. -/
theorem rhs_axis1 (i : (⟨2, ![M, N]⟩ : Shape).Idx) (c : (dims K M N).contr.Idx) :
    ((dims K M N).rhsIdx i c 1).val = (i 1).val := by
  unfold DotDims.rhsIdx
  rw [dif_neg (show ¬(1 : Fin (⟨2, ![K, N]⟩ : Shape).rank) ∈ (dims K M N).rhsBatch from List.not_mem_nil),
    dif_pos (show (1 : Fin (⟨2, ![K, N]⟩ : Shape).rank) ∈ (dims K M N).rhsNonContracting from List.mem_cons_self)]
  rfl

/-- Each operand's contracted axis 0 follows the contraction index's one coordinate. -/
theorem lhs_axis0 (i : (⟨2, ![M, N]⟩ : Shape).Idx) (c : (dims K M N).contr.Idx) :
    ((dims K M N).lhsIdx i c 0).val = (c ⟨0, Nat.zero_lt_one⟩).val :=
  (dims K M N).lhsIdx_val_of_single rfl i c
theorem rhs_axis0 (i : (⟨2, ![M, N]⟩ : Shape).Idx) (c : (dims K M N).contr.Idx) :
    ((dims K M N).rhsIdx i c 0).val = (c ⟨0, Nat.zero_lt_one⟩).val :=
  (dims K M N).rhsIdx_val_of_single rfl i c

/-- So at output entry `(p, q)` and contraction coordinate `k` the left operand is read at `(k, p)` … -/
theorem lhsIdx_axis0 (p : Fin M) (q : Fin N) (k : Fin K) :
    (dims K M N).lhsIdx (ix2 p q) ((contrEquiv1 (dims K M N) K rfl rfl).symm k) = ix2 k p :=
  funext fun a => Fin.ext (by
    match a with
    | ⟨0, _⟩ => exact (lhs_axis0 _ _).trans (contrEquiv1_symm_val (dims K M N) K rfl rfl k)
    | ⟨1, _⟩ => exact lhs_axis1 _ _)

/-- … and the right operand at `(k, q)`. -/
theorem rhsIdx_axis0 (p : Fin M) (q : Fin N) (k : Fin K) :
    (dims K M N).rhsIdx (ix2 p q) ((contrEquiv1 (dims K M N) K rfl rfl).symm k) = ix2 k q :=
  funext fun a => Fin.ext (by
    match a with
    | ⟨0, _⟩ => exact (rhs_axis0 _ _).trans (contrEquiv1_symm_val (dims K M N) K rfl rfl k)
    | ⟨1, _⟩ => exact rhs_axis1 _ _)

/-- THE PRODUCT OF COLUMNS AT AN ENTRY. Over the extended reals, a matrix product with these dimension numbers (any record `D`
    that spells them: `hD`), accumulated into the zero array, holds at `(p, q)` the inner product of column `p` of the left
    operand and column `q` of the right: `∑ k, x[k, p] · y[k, q]`. -/
theorem matmul_axis0_apply {φ₁ φ₂ : FTy} (D : DotDims ⟨2, ![K, M]⟩ ⟨2, ![K, N]⟩ ⟨2, ![M, N]⟩) (hD : D = dims K M N)
    (prec : Option ContractPrecision) (x : FVec Ideal ⟨2, ![K, M]⟩ φ₁) (y : FVec Ideal ⟨2, ![K, N]⟩ φ₂) (p : Fin M) (q : Fin N) :
    FloatOps.matmul D prec x y (constant ⟨2, ![M, N]⟩ .f32 0x00000000#32) (ix2 p q) = ∑ k : Fin K, x (ix2 k p) * y (ix2 k q) := by
  subst hD
  rw [Ideal.matmul_constant_zero_apply, ← Equiv.sum_comp (contrEquiv1 (dims K M N) K rfl rfl).symm]
  refine Finset.sum_congr rfl fun k _ => ?_
  rw [lhsIdx_axis0, rhsIdx_axis0]

end Cert.Lib.DotAxis0

end
-- ==== Proof.BlockValues.lean ====
/-
  One grid point's arithmetic, read at an index over the extended reals.

  A point stages a block of 512 rows of logits and their 512 labels. From the block the body computes, row by row, the
  softmax probabilities (`probs_apply`), their bins (`bins_apply`) and the 0/1 label match (`labs_apply`). Each of the
  fifteen bins then updates one row of the count and of the confidence accumulators: the row gains, at class `c`, the sum
  over the 512 rows of the block of a value masked by "this row's bin at class `c` is `b`" (`rowAdd_apply`). The accuracy
  accumulator gains the product of the one-hot bin of each row's true-class probability with the label match, contracted
  over the rows (`accAdd_apply`).
-/
import proofs.«133106_j33303176413864_2_alg».proof.Proof.Gen.KernelIdeal.Skeleton
import proofs.«133106_j33303176413864_2_alg».proof.Proof.Binning
import proofs.«133106_j33303176413864_2_alg».proof.Proof.LibHostMax
import proofs.«133106_j33303176413864_2_alg».proof.Proof.LibLaneRows
import proofs.«133106_j33303176413864_2_alg».proof.Proof.LibLaneCols
import proofs.«133106_j33303176413864_2_alg».proof.Proof.LibColumns
import proofs.«133106_j33303176413864_2_alg».proof.Proof.LibDotAxis0
import Idealize.ShloMosaic.Lib.Pipeline.Value
import Idealize.ShloMosaic.Lib.ValueIdx
import Idealize.ShloMosaic.PureOps.Ideal.Laws

noncomputable section

open scoped BigOperators

namespace Cert.KernelIdeal.Block

open Cert.KernelIdeal Cert.KernelIdeal.Gen Idealize.ShloMosaic Idealize.ShloMosaic.ValueIdx Cert.Hist

/-! ## The row update, for any float values -/

variable {F : FTy → Type} [FloatOps F]

/-- The mask of one bin: at (r, c), whether the bin of row `r` at class `c` is the 32-bit integer `bv`. -/
def binMask (bins : IVec S512x1000 32) (bv : BitVec 32) : IVec S512x1000 1 :=
  cmpi .eq bins (broadcast S512x1000 bv)

/-- One accumulator row after a point: the row before plus, class by class, the sum over the block's rows of `val` where the
    mask holds and of the float zero elsewhere. -/
def rowAdd (mask : IVec S512x1000 1) (val : FVec F S512x1000 .f32) (prev : Vec F S1x1000 .f32) : FVec F S1x1000 .f32 :=
  shapeCast S1x1000
    (addf prev
      (shapeCast S1x1000
        (multiReduction .add [0] S1000 (select mask val (broadcast S512x1000 (Scalar.ofBits .f32 0x00000000#32)))
          0x00000000#32 reduces_S512x1000_S1000 (.inl rfl) rfl)
        shapeCasts_S1000_S1x1000))
    shapeCasts_S1x1000_S1x1000

/-- The float one at every entry of a block: what a row counts. -/
abbrev ones : FVec F S512x1000 .f32 := broadcast S512x1000 (Scalar.ofBits .f32 0x3F800000#32)

/-! ## Read at an index, at the extended reals -/

/-- A [1000] vector cast to one row [1, 1000] reads, at (u, c), its entry `c`. -/
theorem row_cast_apply {α : Type} (v : S1000.Idx → α) (h : S1000.ShapeCasts S1x1000) (x : S1x1000.Idx) :
    shapeCast S1x1000 v h x = v (ix1 (x 1)) := by
  refine shapeCast_apply v h x (ix1 (x 1)) ?_
  rw [Shape.rowMajor_val_one, Shape.rowMajor_val_two]
  have h0 : (x 0).val < 1 := (x 0).isLt
  show (x 1).val = (x 0).val * 1000 + (x 1).val
  omega

/-- THE ROW UPDATE AT A CLASS: the row before plus the sum over the block's 512 rows of the masked value. -/
theorem rowAdd_apply (mask : IVec S512x1000 1) (val : FVec Ideal S512x1000 .f32) (prev : Vec Ideal S1x1000 .f32)
    (x : S1x1000.Idx) :
    rowAdd mask val prev x
      = prev x + ∑ r : Fin 512, Scalar.select (mask (ix2 r (x 1))) (val (ix2 r (x 1))) (Ideal.ofBits .f32 0x00000000#32) := by
  unfold rowAdd
  rw [shapeCast_self]
  show prev x + shapeCast S1x1000 _ shapeCasts_S1000_S1x1000 x = _
  congr 1
  refine (row_cast_apply _ _ x).trans ?_
  exact LaneCols.multiReduction_add_cols _ _ _ _ _ (x 1)

/-- The supremum of row `r` of the block, as the body has it at every class of that row. -/
theorem rowmax_apply (x0 : Vec Ideal S512x1000 .f32) (r : Fin 512) (k : Fin 1000) :
    broadcastTo S512x1000
        (shapeCast S512x1 (multiReduction (F := Ideal) .maximumf [1] S512 x0 0xFF800000#32 reduces_S512x1000_S512 (.inl rfl) rfl)
          shapeCasts_S512_S512x1)
        broadcasts_S512x1_S512x1000 (ix2 r k)
      = Finset.univ.sup fun j : Fin 1000 => x0 (ix2 r j) :=
  (broadcastTo_a1_ab_apply _ _ r k).trans
    ((shapeCast_a_a1_apply _ _ r 0).trans (HostMax.multiReduction_rows x0 _ _ _ r))

/-- THE PROBABILITIES: entry (r, c) is the softmax of row `r` of the block at class `c`. -/
theorem probs_apply (x0 : Vec Ideal S512x1000 .f32) (r : Fin 512) (c : Fin 1000) :
    k0_pay8 (F := Ideal) x0 (ix2 r c) = rowProb (fun k => x0 (ix2 r k)) c := by
  have hexp : ∀ k : Fin 1000,
      exp (subf x0 (broadcastTo S512x1000
        (shapeCast S512x1 (multiReduction (F := Ideal) .maximumf [1] S512 x0 0xFF800000#32 reduces_S512x1000_S512 (.inl rfl) rfl)
          shapeCasts_S512_S512x1) broadcasts_S512x1_S512x1000)) (ix2 r k)
        = Ideal.exp (x0 (ix2 r k) - Finset.univ.sup fun j : Fin 1000 => x0 (ix2 r j)) := fun k =>
    congrArg (fun z => Ideal.exp (x0 (ix2 r k) - z)) (rowmax_apply x0 r k)
  unfold k0_pay8 rowProb
  dsimp only
  rw [divf_apply, hexp c]
  congr 1
  refine (broadcastTo_a1_ab_apply _ _ r c).trans ((shapeCast_a_a1_apply _ _ r 0).trans ?_)
  refine (LaneRows.multiReduction_add_rows _ _ _ _ _ r).trans ?_
  exact Finset.sum_congr rfl fun k _ => hexp k

/-- THE BINS: entry (r, c) is the bin of the probability at (r, c). -/
theorem bins_apply (x0 : Vec Ideal S512x1000 .f32) (r : Fin 512) (c : Fin 1000) :
    k0_pay9 (F := Ideal) x0 (ix2 r c) = binOf (rowProb (fun k => x0 (ix2 r k)) c) := by
  rw [← probs_apply]
  rfl

/-- THE LABEL MATCH: entry (r, c) is 1 when row `r`'s label is the class `c`, else 0. -/
theorem labs_apply (x1 : Vec Ideal S512x1 .i32) (r : Fin 512) (c : Fin 1000) :
    k0_pay10 (F := Ideal) x1 (ix2 r c)
      = (((BitVec.setWidth 32 (IntOp.cmpi .eq (x1 (ix2 r (0 : Fin 1))) (BitVec.ofNat 32 c.val))).toInt : ℝ) : EReal) := by
  unfold k0_pay10
  dsimp only
  rw [shapeCast_self]
  show (((BitVec.setWidth 32 (IntOp.cmpi .eq (broadcastTo S512x1000 x1 broadcasts_S512x1_S512x1000 (ix2 r c))
      (iota .tc S512x1000 32 [1] iota_S512x1000_d1_w32 (ix2 r c)))).toInt : ℝ) : EReal) = _
  rw [broadcastTo_a1_ab_apply, iota_single_apply]

/-- The true-class bin of row `r`, as the body has it in its [512, 1] column: the bin of `∑ k, probs (r, k) · labs (r, k)`. -/
theorem trueBin_apply (v12 v29 : FVec Ideal S512x1000 .f32) (r : Fin 512) :
    minsi (broadcast S512x1 14#32) (maxsi (broadcast S512x1 0#32) (subi (fptosi 32 (ceil (mulf
        (shapeCast S512x1 (multiReduction (F := Ideal) .add [1] S512 (mulf v12 v29) 0x00000000#32 reduces_S512x1000_S512 (.inl rfl) rfl)
          shapeCasts_S512_S512x1)
        (broadcast S512x1 (Scalar.ofBits .f32 0x41700000#32))))) (broadcast S512x1 1#32))) (ix2 r (0 : Fin 1))
      = binOf (∑ k : Fin 1000, v12 (ix2 r k) * v29 (ix2 r k)) := by
  have hs : shapeCast S512x1 (multiReduction (F := Ideal) .add [1] S512 (mulf v12 v29) 0x00000000#32 reduces_S512x1000_S512 (.inl rfl) rfl)
      shapeCasts_S512_S512x1 (ix2 r (0 : Fin 1)) = ∑ k : Fin 1000, v12 (ix2 r k) * v29 (ix2 r k) :=
    (shapeCast_a_a1_apply _ _ r 0).trans (LaneRows.multiReduction_add_rows _ _ _ _ _ r)
  show binOf (shapeCast S512x1 _ shapeCasts_S512_S512x1 (ix2 r (0 : Fin 1))) = _
  rw [hs]

/-- The product of the one-hot bins with a block, contracted over the block's rows: entry (p, c) is the sum over the rows of
    "row `r`'s bin is `p`" (as 1 or 0) times the block's entry (r, c). -/
theorem onehot_matmul_apply (bt : IVec S512x1 32) (v29 : FVec Ideal S512x1000 .f32) (p : Fin 128) (c : Fin 1000) :
    matmul (F := Ideal) dot_S512x128_S512x1000_S128x1000_0_0_1_1_n_n none
        (truncf .bf16 (sitofp .f32 (extui 32 (cmpi .eq (broadcastTo S512x128 bt broadcasts_S512x1_S512x128)
          (iota .tc S512x128 32 [1] iota_S512x128_d1_w32)) natLt_1_32)) bitsLt_bf16_f32)
        (truncf .bf16 v29 bitsLt_bf16_f32) (constant S128x1000 .f32 0x00000000#32) (ix2 p c)
      = ∑ r : Fin 512, (((BitVec.setWidth 32 (IntOp.cmpi .eq (bt (ix2 r (0 : Fin 1))) (BitVec.ofNat 32 p.val))).toInt : ℝ) : EReal)
          * v29 (ix2 r c) := by
  refine (Cert.Lib.DotAxis0.matmul_axis0_apply _ rfl none _ _ p c).trans ?_
  refine Finset.sum_congr rfl fun r _ => ?_
  congr 1
  show (((BitVec.setWidth 32 (IntOp.cmpi .eq (broadcastTo S512x128 bt broadcasts_S512x1_S512x128 (ix2 r p))
      (iota .tc S512x128 32 [1] iota_S512x128_d1_w32 (ix2 r p)))).toInt : ℝ) : EReal) = _
  rw [broadcastTo_a1_ab_apply, iota_single_apply]

/-- THE ACCURACY UPDATE AT (b, c): the entry before plus the sum over the block's rows of "row `r`'s true-class bin is `b`"
    (as 1 or 0) times the label match of row `r` at class `c`. -/
theorem accAdd_apply (v12 v29 : FVec Ideal S512x1000 .f32) (prev : Vec Ideal S15x1000 .f32) (b : Fin 15) (c : Fin 1000) :
    k0_pay1 (F := Ideal) v12 v29 prev (ix2 b c)
      = prev (ix2 b c) + ∑ r : Fin 512,
          (((BitVec.setWidth 32 (IntOp.cmpi .eq (binOf (∑ k : Fin 1000, v12 (ix2 r k) * v29 (ix2 r k)))
              (BitVec.ofNat 32 b.val))).toInt : ℝ) : EReal) * v29 (ix2 r c) := by
  have hb : b.val < 128 := by have := b.isLt; omega
  unfold k0_pay1
  dsimp only
  rw [shapeCast_self, addf_apply]
  congr 1
  refine (extractStridedSlice_apply _ _ _ (ix2 b c) (ix2 (⟨b.val, hb⟩ : Fin 128) c) (fun a => ?_)).trans ?_
  · match a with
    | ⟨0, _⟩ => show b.val = 0 + b.val; omega
    | ⟨1, _⟩ => show c.val = 0 + c.val; omega
  refine (onehot_matmul_apply _ v29 (⟨b.val, hb⟩ : Fin 128) c).trans ?_
  refine Finset.sum_congr rfl fun r _ => ?_
  rw [trueBin_apply]

/-! ## What a block adds to an accumulator -/

/-- What a block adds to an accumulator at the index (bin, class): the sum over the block's 512 rows of the value at
    (row, class) where that row's bin at the class is the index's bin, and of the float zero elsewhere. -/
def masked (bins : IVec S512x1000 32) (val : FVec Ideal S512x1000 .f32) (y : S15x1000.Idx) : EReal :=
  ∑ r : Fin 512, Scalar.select (IntOp.cmpi .eq (bins (ix2 r (y 1))) (BitVec.ofNat 32 (y 0).val)) (val (ix2 r (y 1)))
    (Ideal.ofBits .f32 0x00000000#32)

/-- What a block adds to the accuracy accumulator at (bin, class): the sum over the block's rows of "the row's true-class
    bin is the index's bin" (as 1 or 0) times the row's label match at the class. -/
def hot (probs labs : FVec Ideal S512x1000 .f32) (y : S15x1000.Idx) : EReal :=
  ∑ r : Fin 512,
    (((BitVec.setWidth 32 (IntOp.cmpi .eq (binOf (∑ k : Fin 1000, probs (ix2 r k) * labs (ix2 r k)))
        (BitVec.ofNat 32 (y 0).val))).toInt : ℝ) : EReal) * labs (ix2 r (y 1))

/-- The accuracy accumulator after a point, as one function of its index: the contents before plus `hot`. -/
theorem accAdd_eq (v12 v29 : FVec Ideal S512x1000 .f32) (prev : Vec Ideal S15x1000 .f32) :
    k0_pay1 (F := Ideal) v12 v29 prev = fun y => prev y + hot v12 v29 y := by
  funext y
  obtain ⟨b, c, rfl⟩ : ∃ (b : Fin 15) (c : Fin 1000), y = ix2 b c := ⟨y 0, y 1, eq_ix2 y⟩
  exact accAdd_apply v12 v29 prev b c

end Cert.KernelIdeal.Block

end
-- ==== Proof.Pieces.lean ====
/-
  What one grid point leaves in the three accumulators, read as values over the extended reals.

  The count and the confidence accumulators are filled row by row: fifteen stores, one per bin, each the row before plus
  the block's masked sum. Every one of those stores is the restriction to its row of ONE function of the accumulator's
  index — the contents before plus `masked`, the sum over the block's rows of the value where the row's bin is the
  index's bin — so the fifteen rows together hold that function. The accuracy accumulator is stored whole.
-/
import proofs.«133106_j33303176413864_2_alg».proof.Proof.Gen.KernelIdeal.Frame
import proofs.«133106_j33303176413864_2_alg».proof.Proof.BlockValues
import Idealize.ShloMosaic.Lib.Pipeline.Value
import Idealize.ShloMosaic.Lib.Pipeline.CanonAppend
import Idealize.ShloMosaic.Lib.Tactic

set_option maxRecDepth 16384

noncomputable section

open scoped BigOperators

namespace Cert.KernelIdeal.Pieces

open Cert.KernelIdeal Cert.KernelIdeal.Gen Cert.KernelIdeal.Block Idealize.ShloMosaic Idealize.ShloMosaic.TcCoe
open Idealize.ShloMosaic.ValueIdx Idealize.SL.Sem Cert.Hist

theorem hz2 : (![0, 0] : Fin 2 → Nat) = fun _ => 0 := funext fun a => by fin_cases a <;> rfl

/-- The store of row `b` — the row before plus the block's sum masked by bin `b` — is the function "contents before plus
    `masked`" read along row `b`. -/
theorem piece_row (b : ℕ) (inb : ∀ a, (![b, 0] : Fin 2 → ℕ) a + (![1, 1000] : Fin 2 → ℕ) a ≤ S15x1000.size a) (bv : BitVec 32)
    (hbv : bv = BitVec.ofNat 32 b) (bins : IVec S512x1000 32) (val : FVec Ideal S512x1000 .f32) (xs : Vec Ideal S15x1000 .f32)
    (x : (Rect.unit (s := S15x1000) ![b, 0] ![1, 1000] inb).shape.Idx) :
    rowAdd (binMask bins bv) val (View.ld xs (Rect.unit (s := S15x1000) ![b, 0] ![1, 1000] inb)) x
      = xs ((Rect.unit (s := S15x1000) ![b, 0] ![1, 1000] inb).emb x)
        + masked bins val ((Rect.unit (s := S15x1000) ![b, 0] ![1, 1000] inb).emb x) := by
  subst hbv
  have hx0 : (x 0).val < 1 := (x 0).isLt
  have h1 : ((Rect.unit (s := S15x1000) ![b, 0] ![1, 1000] inb).emb x) 1 = x 1 :=
    Fin.ext (by show 0 + 1 * (x 1).val = (x 1).val; omega)
  have h0 : (((Rect.unit (s := S15x1000) ![b, 0] ![1, 1000] inb).emb x) 0).val = b := by
    show b + 1 * (x 0).val = b; omega
  rw [rowAdd_apply]
  unfold masked
  rw [h1, h0]
  rfl

variable (c : Dev nD) (i : grid0.Coords) (arg2 : Memref sig .tc .vmem S512x1000 .f32) (harg2 : arg2.IsWhole) (arg3 : Memref sig .tc .vmem S512x1 .i32) (harg3 : arg3.IsWhole) (arg4 : Memref sig .tc .vmem S1x15x1000 .f32) (harg4 : arg4.IsWhole) (arg5 : Memref sig .tc .vmem S1x15x1000 .f32) (harg5 : arg5.IsWhole) (arg6 : Memref sig .tc .vmem S1x15x1000 .f32) (harg6 : arg6.IsWhole) (arg7 : Memref sig .tc .vmem S15x1000 .f32) (harg7 : arg7.IsWhole) (arg8 : Memref sig .tc .vmem S15x1000 .f32) (harg8 : arg8.IsWhole) (arg9 : Memref sig .tc .vmem S15x1000 .f32) (harg9 : arg9.IsWhole)

/-- CASE B, the count accumulator: the contents before plus the block's count per (bin, class). -/
theorem count_B (hc0 : ¬cond0_0 i) (hc1 : ¬cond0_1 i) (x0 : Vec Ideal S512x1000 .f32) (x1 : Vec Ideal S512x1 .i32)
    (xs0 xs1 xs2 : Vec Ideal S15x1000 .f32) :
    sout0_B_0 (F := Ideal) c i arg2 harg2 arg3 harg3 arg4 harg4 arg5 harg5 arg6 harg6 arg7 harg7 arg8 harg8 arg9 harg9 hc0 hc1 x0 x1 xs0 xs1 xs2
      = fun y => xs0 y + masked (k0_pay9 x0) ones y := by
  unfold sout0_B_0
  rw [View.read_writes_eq_canon _ _ _ (scover0_B_0 c i arg2 harg2 arg3 harg3 arg4 harg4 arg5 harg5 arg6 harg6 arg7 harg7 arg8 harg8 arg9 harg9 hc0 hc1 x0 x1 xs0 xs1 xs2)]
  funext y
  refine View.canon_apply_of_pieces (fun y => xs0 y + masked (k0_pay9 x0) ones y) _ ?_ y
    (scover0_B_0 c i arg2 harg2 arg3 harg3 arg4 harg4 arg5 harg5 arg6 harg6 arg7 harg7 arg8 harg8 arg9 harg9 hc0 hc1 x0 x1 xs0 xs1 xs2 y)
  unfold kernelRun0_B
  dsimp only
  sl_unfold_words
  simp only [View.readAt_eq_ld, harg2.read_unread, harg7.read_unread, View.ld_unit_zero (S := S512x1000) hz2]
  intro p hp
  simp only [List.mem_cons, List.mem_nil_iff, or_false] at hp
  rcases hp with rfl | rfl | rfl | rfl | rfl | rfl | rfl | rfl | rfl | rfl | rfl | rfl | rfl | rfl | rfl
  · exact fun x => piece_row 14 _ 14#32 rfl (k0_pay9 x0) ones xs0 x
  · exact fun x => piece_row 13 _ 13#32 rfl (k0_pay9 x0) ones xs0 x
  · exact fun x => piece_row 12 _ 12#32 rfl (k0_pay9 x0) ones xs0 x
  · exact fun x => piece_row 11 _ 11#32 rfl (k0_pay9 x0) ones xs0 x
  · exact fun x => piece_row 10 _ 10#32 rfl (k0_pay9 x0) ones xs0 x
  · exact fun x => piece_row 9 _ 9#32 rfl (k0_pay9 x0) ones xs0 x
  · exact fun x => piece_row 8 _ 8#32 rfl (k0_pay9 x0) ones xs0 x
  · exact fun x => piece_row 7 _ 7#32 rfl (k0_pay9 x0) ones xs0 x
  · exact fun x => piece_row 6 _ 6#32 rfl (k0_pay9 x0) ones xs0 x
  · exact fun x => piece_row 5 _ 5#32 rfl (k0_pay9 x0) ones xs0 x
  · exact fun x => piece_row 4 _ 4#32 rfl (k0_pay9 x0) ones xs0 x
  · exact fun x => piece_row 3 _ 3#32 rfl (k0_pay9 x0) ones xs0 x
  · exact fun x => piece_row 2 _ 2#32 rfl (k0_pay9 x0) ones xs0 x
  · exact fun x => piece_row 1 _ 1#32 rfl (k0_pay9 x0) ones xs0 x
  · exact fun x => piece_row 0 _ 0#32 rfl (k0_pay9 x0) ones xs0 x

/-- CASE B, the confidence accumulator: the contents before plus the block's probabilities summed per (bin, class). -/
theorem conf_B (hc0 : ¬cond0_0 i) (hc1 : ¬cond0_1 i) (x0 : Vec Ideal S512x1000 .f32) (x1 : Vec Ideal S512x1 .i32)
    (xs0 xs1 xs2 : Vec Ideal S15x1000 .f32) :
    sout0_B_1 (F := Ideal) c i arg2 harg2 arg3 harg3 arg4 harg4 arg5 harg5 arg6 harg6 arg7 harg7 arg8 harg8 arg9 harg9 hc0 hc1 x0 x1 xs0 xs1 xs2
      = fun y => xs1 y + masked (k0_pay9 x0) (k0_pay8 x0) y := by
  unfold sout0_B_1
  rw [View.read_writes_eq_canon _ _ _ (scover0_B_1 c i arg2 harg2 arg3 harg3 arg4 harg4 arg5 harg5 arg6 harg6 arg7 harg7 arg8 harg8 arg9 harg9 hc0 hc1 x0 x1 xs0 xs1 xs2)]
  funext y
  refine View.canon_apply_of_pieces (fun y => xs1 y + masked (k0_pay9 x0) (k0_pay8 x0) y) _ ?_ y
    (scover0_B_1 c i arg2 harg2 arg3 harg3 arg4 harg4 arg5 harg5 arg6 harg6 arg7 harg7 arg8 harg8 arg9 harg9 hc0 hc1 x0 x1 xs0 xs1 xs2 y)
  unfold kernelRun0_B
  dsimp only
  sl_unfold_words
  simp only [View.readAt_eq_ld, harg2.read_unread, harg8.read_unread, View.ld_unit_zero (S := S512x1000) hz2]
  intro p hp
  simp only [List.mem_cons, List.mem_nil_iff, or_false] at hp
  rcases hp with rfl | rfl | rfl | rfl | rfl | rfl | rfl | rfl | rfl | rfl | rfl | rfl | rfl | rfl | rfl
  · exact fun x => piece_row 14 _ 14#32 rfl (k0_pay9 x0) (k0_pay8 x0) xs1 x
  · exact fun x => piece_row 13 _ 13#32 rfl (k0_pay9 x0) (k0_pay8 x0) xs1 x
  · exact fun x => piece_row 12 _ 12#32 rfl (k0_pay9 x0) (k0_pay8 x0) xs1 x
  · exact fun x => piece_row 11 _ 11#32 rfl (k0_pay9 x0) (k0_pay8 x0) xs1 x
  · exact fun x => piece_row 10 _ 10#32 rfl (k0_pay9 x0) (k0_pay8 x0) xs1 x
  · exact fun x => piece_row 9 _ 9#32 rfl (k0_pay9 x0) (k0_pay8 x0) xs1 x
  · exact fun x => piece_row 8 _ 8#32 rfl (k0_pay9 x0) (k0_pay8 x0) xs1 x
  · exact fun x => piece_row 7 _ 7#32 rfl (k0_pay9 x0) (k0_pay8 x0) xs1 x
  · exact fun x => piece_row 6 _ 6#32 rfl (k0_pay9 x0) (k0_pay8 x0) xs1 x
  · exact fun x => piece_row 5 _ 5#32 rfl (k0_pay9 x0) (k0_pay8 x0) xs1 x
  · exact fun x => piece_row 4 _ 4#32 rfl (k0_pay9 x0) (k0_pay8 x0) xs1 x
  · exact fun x => piece_row 3 _ 3#32 rfl (k0_pay9 x0) (k0_pay8 x0) xs1 x
  · exact fun x => piece_row 2 _ 2#32 rfl (k0_pay9 x0) (k0_pay8 x0) xs1 x
  · exact fun x => piece_row 1 _ 1#32 rfl (k0_pay9 x0) (k0_pay8 x0) xs1 x
  · exact fun x => piece_row 0 _ 0#32 rfl (k0_pay9 x0) (k0_pay8 x0) xs1 x

/-- CASE B, the accuracy accumulator: the contents before plus the one-hot product of the block. -/
theorem acc_B (hc0 : ¬cond0_0 i) (hc1 : ¬cond0_1 i) (x0 : Vec Ideal S512x1000 .f32) (x1 : Vec Ideal S512x1 .i32)
    (xs0 xs1 xs2 : Vec Ideal S15x1000 .f32) :
    sout0_B_2 (F := Ideal) c i arg2 harg2 arg3 harg3 arg4 harg4 arg5 harg5 arg6 harg6 arg7 harg7 arg8 harg8 arg9 harg9 hc0 hc1 x0 x1 xs0 xs1 xs2
      = fun y => xs2 y + hot (k0_pay8 x0) (k0_pay10 x1) y := by
  unfold sout0_B_2
  rw [View.read_writes_eq_canon _ _ _ (scover0_B_2 c i arg2 harg2 arg3 harg3 arg4 harg4 arg5 harg5 arg6 harg6 arg7 harg7 arg8 harg8 arg9 harg9 hc0 hc1 x0 x1 xs0 xs1 xs2)]
  unfold kernelRun0_B
  dsimp only
  sl_unfold_words
  rw [View.canon_unit_zero hz2]
  simp only [View.readAt_eq_ld, harg2.read_unread, harg3.read_unread, harg9.read_unread, View.ld_unit_zero (S := S512x1000) hz2,
    View.ld_unit_zero (S := S512x1) hz2, View.ld_unit_zero (S := S15x1000) hz2]
  exact accAdd_eq _ _ _

/-! ## Case C: the last point of a half — the same three updates, then the accumulators copied to the output blocks -/

/-- CASE C, the count accumulator's fifteen row stores, as canonical contents. -/
theorem canon_count_C (hc0 : ¬cond0_0 i) (hc1 : cond0_1 i) (x0 : Vec Ideal S512x1000 .f32) (x1 : Vec Ideal S512x1 .i32)
    (xs0 xs1 xs2 : Vec Ideal S15x1000 .f32) :
    View.canon (kernelRun0_C (F := Ideal) c i arg2 harg2 arg3 harg3 arg4 harg4 arg5 harg5 arg6 harg6 arg7 harg7 arg8 harg8 arg9 harg9 hc0 hc1 x0 x1 xs0 xs1 xs2).2.2.2.1
      = fun y => xs0 y + masked (k0_pay9 x0) ones y := by
  funext y
  refine View.canon_apply_of_pieces (fun y => xs0 y + masked (k0_pay9 x0) ones y) _ ?_ y
    (scover0_C_0 c i arg2 harg2 arg3 harg3 arg4 harg4 arg5 harg5 arg6 harg6 arg7 harg7 arg8 harg8 arg9 harg9 hc0 hc1 x0 x1 xs0 xs1 xs2 y)
  unfold kernelRun0_C
  dsimp only
  sl_unfold_words
  simp only [View.readAt_eq_ld, harg2.read_unread, harg7.read_unread, View.ld_unit_zero (S := S512x1000) hz2]
  intro p hp
  simp only [List.mem_cons, List.mem_nil_iff, or_false] at hp
  rcases hp with rfl | rfl | rfl | rfl | rfl | rfl | rfl | rfl | rfl | rfl | rfl | rfl | rfl | rfl | rfl
  · exact fun x => piece_row 14 _ 14#32 rfl (k0_pay9 x0) ones xs0 x
  · exact fun x => piece_row 13 _ 13#32 rfl (k0_pay9 x0) ones xs0 x
  · exact fun x => piece_row 12 _ 12#32 rfl (k0_pay9 x0) ones xs0 x
  · exact fun x => piece_row 11 _ 11#32 rfl (k0_pay9 x0) ones xs0 x
  · exact fun x => piece_row 10 _ 10#32 rfl (k0_pay9 x0) ones xs0 x
  · exact fun x => piece_row 9 _ 9#32 rfl (k0_pay9 x0) ones xs0 x
  · exact fun x => piece_row 8 _ 8#32 rfl (k0_pay9 x0) ones xs0 x
  · exact fun x => piece_row 7 _ 7#32 rfl (k0_pay9 x0) ones xs0 x
  · exact fun x => piece_row 6 _ 6#32 rfl (k0_pay9 x0) ones xs0 x
  · exact fun x => piece_row 5 _ 5#32 rfl (k0_pay9 x0) ones xs0 x
  · exact fun x => piece_row 4 _ 4#32 rfl (k0_pay9 x0) ones xs0 x
  · exact fun x => piece_row 3 _ 3#32 rfl (k0_pay9 x0) ones xs0 x
  · exact fun x => piece_row 2 _ 2#32 rfl (k0_pay9 x0) ones xs0 x
  · exact fun x => piece_row 1 _ 1#32 rfl (k0_pay9 x0) ones xs0 x
  · exact fun x => piece_row 0 _ 0#32 rfl (k0_pay9 x0) ones xs0 x

theorem count_C (hc0 : ¬cond0_0 i) (hc1 : cond0_1 i) (x0 : Vec Ideal S512x1000 .f32) (x1 : Vec Ideal S512x1 .i32)
    (xs0 xs1 xs2 : Vec Ideal S15x1000 .f32) :
    sout0_C_0 (F := Ideal) c i arg2 harg2 arg3 harg3 arg4 harg4 arg5 harg5 arg6 harg6 arg7 harg7 arg8 harg8 arg9 harg9 hc0 hc1 x0 x1 xs0 xs1 xs2 = fun y => xs0 y + masked (k0_pay9 x0) ones y := by
  unfold sout0_C_0
  rw [View.read_writes_eq_canon _ _ _ (scover0_C_0 c i arg2 harg2 arg3 harg3 arg4 harg4 arg5 harg5 arg6 harg6 arg7 harg7 arg8 harg8 arg9 harg9 hc0 hc1 x0 x1 xs0 xs1 xs2)]
  exact canon_count_C c i arg2 harg2 arg3 harg3 arg4 harg4 arg5 harg5 arg6 harg6 arg7 harg7 arg8 harg8 arg9 harg9 hc0 hc1 x0 x1 xs0 xs1 xs2

/-- CASE C, the confidence accumulator's fifteen row stores, as canonical contents. -/
theorem canon_conf_C (hc0 : ¬cond0_0 i) (hc1 : cond0_1 i) (x0 : Vec Ideal S512x1000 .f32) (x1 : Vec Ideal S512x1 .i32)
    (xs0 xs1 xs2 : Vec Ideal S15x1000 .f32) :
    View.canon (kernelRun0_C (F := Ideal) c i arg2 harg2 arg3 harg3 arg4 harg4 arg5 harg5 arg6 harg6 arg7 harg7 arg8 harg8 arg9 harg9 hc0 hc1 x0 x1 xs0 xs1 xs2).2.2.2.2.1
      = fun y => xs1 y + masked (k0_pay9 x0) (k0_pay8 x0) y := by
  funext y
  refine View.canon_apply_of_pieces (fun y => xs1 y + masked (k0_pay9 x0) (k0_pay8 x0) y) _ ?_ y
    (scover0_C_1 c i arg2 harg2 arg3 harg3 arg4 harg4 arg5 harg5 arg6 harg6 arg7 harg7 arg8 harg8 arg9 harg9 hc0 hc1 x0 x1 xs0 xs1 xs2 y)
  unfold kernelRun0_C
  dsimp only
  sl_unfold_words
  simp only [View.readAt_eq_ld, harg2.read_unread, harg8.read_unread, View.ld_unit_zero (S := S512x1000) hz2]
  intro p hp
  simp only [List.mem_cons, List.mem_nil_iff, or_false] at hp
  rcases hp with rfl | rfl | rfl | rfl | rfl | rfl | rfl | rfl | rfl | rfl | rfl | rfl | rfl | rfl | rfl
  · exact fun x => piece_row 14 _ 14#32 rfl (k0_pay9 x0) (k0_pay8 x0) xs1 x
  · exact fun x => piece_row 13 _ 13#32 rfl (k0_pay9 x0) (k0_pay8 x0) xs1 x
  · exact fun x => piece_row 12 _ 12#32 rfl (k0_pay9 x0) (k0_pay8 x0) xs1 x
  · exact fun x => piece_row 11 _ 11#32 rfl (k0_pay9 x0) (k0_pay8 x0) xs1 x
  · exact fun x => piece_row 10 _ 10#32 rfl (k0_pay9 x0) (k0_pay8 x0) xs1 x
  · exact fun x => piece_row 9 _ 9#32 rfl (k0_pay9 x0) (k0_pay8 x0) xs1 x
  · exact fun x => piece_row 8 _ 8#32 rfl (k0_pay9 x0) (k0_pay8 x0) xs1 x
  · exact fun x => piece_row 7 _ 7#32 rfl (k0_pay9 x0) (k0_pay8 x0) xs1 x
  · exact fun x => piece_row 6 _ 6#32 rfl (k0_pay9 x0) (k0_pay8 x0) xs1 x
  · exact fun x => piece_row 5 _ 5#32 rfl (k0_pay9 x0) (k0_pay8 x0) xs1 x
  · exact fun x => piece_row 4 _ 4#32 rfl (k0_pay9 x0) (k0_pay8 x0) xs1 x
  · exact fun x => piece_row 3 _ 3#32 rfl (k0_pay9 x0) (k0_pay8 x0) xs1 x
  · exact fun x => piece_row 2 _ 2#32 rfl (k0_pay9 x0) (k0_pay8 x0) xs1 x
  · exact fun x => piece_row 1 _ 1#32 rfl (k0_pay9 x0) (k0_pay8 x0) xs1 x
  · exact fun x => piece_row 0 _ 0#32 rfl (k0_pay9 x0) (k0_pay8 x0) xs1 x

theorem conf_C (hc0 : ¬cond0_0 i) (hc1 : cond0_1 i) (x0 : Vec Ideal S512x1000 .f32) (x1 : Vec Ideal S512x1 .i32)
    (xs0 xs1 xs2 : Vec Ideal S15x1000 .f32) :
    sout0_C_1 (F := Ideal) c i arg2 harg2 arg3 harg3 arg4 harg4 arg5 harg5 arg6 harg6 arg7 harg7 arg8 harg8 arg9 harg9 hc0 hc1 x0 x1 xs0 xs1 xs2 = fun y => xs1 y + masked (k0_pay9 x0) (k0_pay8 x0) y := by
  unfold sout0_C_1
  rw [View.read_writes_eq_canon _ _ _ (scover0_C_1 c i arg2 harg2 arg3 harg3 arg4 harg4 arg5 harg5 arg6 harg6 arg7 harg7 arg8 harg8 arg9 harg9 hc0 hc1 x0 x1 xs0 xs1 xs2)]
  exact canon_conf_C c i arg2 harg2 arg3 harg3 arg4 harg4 arg5 harg5 arg6 harg6 arg7 harg7 arg8 harg8 arg9 harg9 hc0 hc1 x0 x1 xs0 xs1 xs2

/-- CASE C, the accuracy accumulator's one store, as canonical contents. -/
theorem canon_acc_C (hc0 : ¬cond0_0 i) (hc1 : cond0_1 i) (x0 : Vec Ideal S512x1000 .f32) (x1 : Vec Ideal S512x1 .i32)
    (xs0 xs1 xs2 : Vec Ideal S15x1000 .f32) :
    View.canon (kernelRun0_C (F := Ideal) c i arg2 harg2 arg3 harg3 arg4 harg4 arg5 harg5 arg6 harg6 arg7 harg7 arg8 harg8 arg9 harg9 hc0 hc1 x0 x1 xs0 xs1 xs2).2.2.2.2.2.1
      = fun y => xs2 y + hot (k0_pay8 x0) (k0_pay10 x1) y := by
  unfold kernelRun0_C
  dsimp only
  sl_unfold_words
  rw [View.canon_unit_zero hz2]
  simp only [View.readAt_eq_ld, harg2.read_unread, harg3.read_unread, harg9.read_unread, View.ld_unit_zero (S := S512x1000) hz2,
    View.ld_unit_zero (S := S512x1) hz2, View.ld_unit_zero (S := S15x1000) hz2]
  exact accAdd_eq _ _ _

theorem acc_C (hc0 : ¬cond0_0 i) (hc1 : cond0_1 i) (x0 : Vec Ideal S512x1000 .f32) (x1 : Vec Ideal S512x1 .i32)
    (xs0 xs1 xs2 : Vec Ideal S15x1000 .f32) :
    sout0_C_2 (F := Ideal) c i arg2 harg2 arg3 harg3 arg4 harg4 arg5 harg5 arg6 harg6 arg7 harg7 arg8 harg8 arg9 harg9 hc0 hc1 x0 x1 xs0 xs1 xs2 = fun y => xs2 y + hot (k0_pay8 x0) (k0_pay10 x1) y := by
  unfold sout0_C_2
  rw [View.read_writes_eq_canon _ _ _ (scover0_C_2 c i arg2 harg2 arg3 harg3 arg4 harg4 arg5 harg5 arg6 harg6 arg7 harg7 arg8 harg8 arg9 harg9 hc0 hc1 x0 x1 xs0 xs1 xs2)]
  exact canon_acc_C c i arg2 harg2 arg3 harg3 arg4 harg4 arg5 harg5 arg6 harg6 arg7 harg7 arg8 harg8 arg9 harg9 hc0 hc1 x0 x1 xs0 xs1 xs2

end Cert.KernelIdeal.Pieces

end
-- ==== Proof.PiecesOut.lean ====
/-
  The last point of a half copies each accumulator, whole, into its output block.

  The body loads the accumulator after its last update and stores it, cast from [15, 1000] to the block's shape
  [1, 15, 1000]; what it loads is the canonical contents of the stores just made, so each output block is the accumulator's
  value after the point.
-/
import proofs.«133106_j33303176413864_2_alg».proof.Proof.Pieces

set_option maxRecDepth 16384

noncomputable section

open scoped BigOperators

namespace Cert.KernelIdeal.Pieces

open Cert.KernelIdeal Cert.KernelIdeal.Gen Cert.KernelIdeal.Block Idealize.ShloMosaic Idealize.ShloMosaic.TcCoe
open Idealize.ShloMosaic.ValueIdx Idealize.SL.Sem Cert.Hist

theorem hz3 : (![0, 0, 0] : Fin 3 → Nat) = fun _ => 0 := funext fun a => by fin_cases a <;> rfl

variable (c : Dev nD) (i : grid0.Coords) (arg2 : Memref sig .tc .vmem S512x1000 .f32) (harg2 : arg2.IsWhole) (arg3 : Memref sig .tc .vmem S512x1 .i32) (harg3 : arg3.IsWhole) (arg4 : Memref sig .tc .vmem S1x15x1000 .f32) (harg4 : arg4.IsWhole) (arg5 : Memref sig .tc .vmem S1x15x1000 .f32) (harg5 : arg5.IsWhole) (arg6 : Memref sig .tc .vmem S1x15x1000 .f32) (harg6 : arg6.IsWhole) (arg7 : Memref sig .tc .vmem S15x1000 .f32) (harg7 : arg7.IsWhole) (arg8 : Memref sig .tc .vmem S15x1000 .f32) (harg8 : arg8.IsWhole) (arg9 : Memref sig .tc .vmem S15x1000 .f32) (harg9 : arg9.IsWhole)

/-- CASE C, output block 2: the count accumulator after the point, cast to the block's shape [1, 15, 1000]. -/
theorem out2_C (hc0 : ¬cond0_0 i) (hc1 : cond0_1 i) (x0 : Vec Ideal S512x1000 .f32) (x1 : Vec Ideal S512x1 .i32)
    (xs0 xs1 xs2 : Vec Ideal S15x1000 .f32) :
    out0_C_2 (F := Ideal) c i arg2 harg2 arg3 harg3 arg4 harg4 arg5 harg5 arg6 harg6 arg7 harg7 arg8 harg8 arg9 harg9 hc0 hc1 x0 x1 xs0 xs1 xs2
      = shapeCast S1x15x1000 (fun y => xs0 y + masked (k0_pay9 x0) ones y) shapeCasts_S15x1000_S1x15x1000 := by
  have hcan := canon_count_C c i arg2 harg2 arg3 harg3 arg4 harg4 arg5 harg5 arg6 harg6 arg7 harg7 arg8 harg8 arg9 harg9 hc0 hc1 x0 x1 xs0 xs1 xs2
  have hcov := scover0_C_0 c i arg2 harg2 arg3 harg3 arg4 harg4 arg5 harg5 arg6 harg6 arg7 harg7 arg8 harg8 arg9 harg9 hc0 hc1 x0 x1 xs0 xs1 xs2
  unfold out0_C_2
  rw [View.read_writes_eq_canon _ _ _ (cover0_C_2 c i arg2 harg2 arg3 harg3 arg4 harg4 arg5 harg5 arg6 harg6 arg7 harg7 arg8 harg8 arg9 harg9 hc0 hc1 x0 x1 xs0 xs1 xs2)]
  unfold kernelRun0_C at hcan hcov ⊢
  dsimp only at hcan hcov ⊢
  rw [View.canon_unit_zero hz3]
  unfold kernelRun0_C.sl.v375
  rw [View.readCov_eq_canon_ld _ _ _ hcov, hcan, View.ld_unit_zero (S := S15x1000) hz2]
  rfl

/-- CASE C, output block 3: the confidence accumulator after the point, cast to the block's shape [1, 15, 1000]. -/
theorem out3_C (hc0 : ¬cond0_0 i) (hc1 : cond0_1 i) (x0 : Vec Ideal S512x1000 .f32) (x1 : Vec Ideal S512x1 .i32)
    (xs0 xs1 xs2 : Vec Ideal S15x1000 .f32) :
    out0_C_3 (F := Ideal) c i arg2 harg2 arg3 harg3 arg4 harg4 arg5 harg5 arg6 harg6 arg7 harg7 arg8 harg8 arg9 harg9 hc0 hc1 x0 x1 xs0 xs1 xs2
      = shapeCast S1x15x1000 (fun y => xs1 y + masked (k0_pay9 x0) (k0_pay8 x0) y) shapeCasts_S15x1000_S1x15x1000 := by
  have hcan := canon_conf_C c i arg2 harg2 arg3 harg3 arg4 harg4 arg5 harg5 arg6 harg6 arg7 harg7 arg8 harg8 arg9 harg9 hc0 hc1 x0 x1 xs0 xs1 xs2
  have hcov := scover0_C_1 c i arg2 harg2 arg3 harg3 arg4 harg4 arg5 harg5 arg6 harg6 arg7 harg7 arg8 harg8 arg9 harg9 hc0 hc1 x0 x1 xs0 xs1 xs2
  unfold out0_C_3
  rw [View.read_writes_eq_canon _ _ _ (cover0_C_3 c i arg2 harg2 arg3 harg3 arg4 harg4 arg5 harg5 arg6 harg6 arg7 harg7 arg8 harg8 arg9 harg9 hc0 hc1 x0 x1 xs0 xs1 xs2)]
  unfold kernelRun0_C at hcan hcov ⊢
  dsimp only at hcan hcov ⊢
  rw [View.canon_unit_zero hz3]
  unfold kernelRun0_C.sl.v379
  rw [View.readCov_eq_canon_ld _ _ _ hcov, hcan, View.ld_unit_zero (S := S15x1000) hz2]
  rfl

/-- CASE C, output block 4: the accuracy accumulator after the point, cast to the block's shape [1, 15, 1000]. -/
theorem out4_C (hc0 : ¬cond0_0 i) (hc1 : cond0_1 i) (x0 : Vec Ideal S512x1000 .f32) (x1 : Vec Ideal S512x1 .i32)
    (xs0 xs1 xs2 : Vec Ideal S15x1000 .f32) :
    out0_C_4 (F := Ideal) c i arg2 harg2 arg3 harg3 arg4 harg4 arg5 harg5 arg6 harg6 arg7 harg7 arg8 harg8 arg9 harg9 hc0 hc1 x0 x1 xs0 xs1 xs2
      = shapeCast S1x15x1000 (fun y => xs2 y + hot (k0_pay8 x0) (k0_pay10 x1) y) shapeCasts_S15x1000_S1x15x1000 := by
  have hcan := canon_acc_C c i arg2 harg2 arg3 harg3 arg4 harg4 arg5 harg5 arg6 harg6 arg7 harg7 arg8 harg8 arg9 harg9 hc0 hc1 x0 x1 xs0 xs1 xs2
  have hcov := scover0_C_2 c i arg2 harg2 arg3 harg3 arg4 harg4 arg5 harg5 arg6 harg6 arg7 harg7 arg8 harg8 arg9 harg9 hc0 hc1 x0 x1 xs0 xs1 xs2
  unfold out0_C_4
  rw [View.read_writes_eq_canon _ _ _ (cover0_C_4 c i arg2 harg2 arg3 harg3 arg4 harg4 arg5 harg5 arg6 harg6 arg7 harg7 arg8 harg8 arg9 harg9 hc0 hc1 x0 x1 xs0 xs1 xs2)]
  unfold kernelRun0_C at hcan hcov ⊢
  dsimp only at hcan hcov ⊢
  rw [View.canon_unit_zero hz3]
  unfold kernelRun0_C.sl.v383
  rw [View.readCov_eq_canon_ld _ _ _ hcov, hcan, View.ld_unit_zero (S := S15x1000) hz2]
  rfl

end Cert.KernelIdeal.Pieces

end
-- ==== Proof.PiecesA.lean ====
/-
  The first point of a half: the accumulators are zeroed, then updated as at every point.

  The body stores the zero block over the whole accumulator, then makes the fifteen row stores; the load that each row store
  adds to reads the zero block back, because the rows stored before it are other rows. So the accumulator ends at the zero
  block plus the block's contribution.
-/
import proofs.«133106_j33303176413864_2_alg».proof.Proof.Pieces
import Idealize.ShloMosaic.Lib.Pipeline.RowLoads

set_option maxRecDepth 16384

noncomputable section

open scoped BigOperators

namespace Cert.KernelIdeal.Pieces

open Cert.KernelIdeal Cert.KernelIdeal.Gen Cert.KernelIdeal.Block Idealize.ShloMosaic Idealize.ShloMosaic.TcCoe
open Idealize.ShloMosaic.ValueIdx Idealize.SL.Sem Cert.Hist

/-- A load of row `b` after ONE store of the whole accumulator reads that store's row `b`. -/
theorem readCov_zero_row {sig : RefSig} {κ : Kind} {sp : Space} (v : View sig κ sp S15x1000 .f32)
    (w : S15x1000.Idx → Elt Ideal .f32)
    (inb0 : ∀ a, (![0, 0] : Fin 2 → ℕ) a + (![15, 1000] : Fin 2 → ℕ) a ≤ S15x1000.size a) (b : ℕ)
    (inb : ∀ a, (![b, 0] : Fin 2 → ℕ) a + (![1, 1000] : Fin 2 → ℕ) a ≤ S15x1000.size a) :
    v.readCov [(⟨Rect.unit (s := S15x1000) ![0, 0] ![15, 1000] inb0, w⟩ : View.Piece (Elt Ideal) S15x1000 .f32)]
        (Rect.unit (s := S15x1000) ![b, 0] ![1, 1000] inb).toLoadRect
      = View.ld w (Rect.unit (s := S15x1000) ![b, 0] ![1, 1000] inb) := by
  rw [View.readCov_eq_canon_ld _ _ _ (fun y => ⟨_, List.mem_singleton_self _, View.mem_set_unit_zero hz2 inb0 y⟩),
    View.canon_unit_zero hz2]

/-- A load of row `o'` passes over a store of another row `o`. -/
theorem readCov_skip_row {sig : RefSig} {κ : Kind} {sp : Space} (v : View sig κ sp S15x1000 .f32) (o o' : ℕ) (h : o ≠ o')
    {inb : ∀ a, (![o, 0] : Fin 2 → ℕ) a + (![1, 1000] : Fin 2 → ℕ) a ≤ S15x1000.size a}
    (x : (Rect.unit (s := S15x1000) ![o, 0] ![1, 1000] inb).shape.Idx → Elt Ideal .f32)
    (L : List (View.Piece (Elt Ideal) S15x1000 .f32))
    (inb' : ∀ a, (![o', 0] : Fin 2 → ℕ) a + (![1, 1000] : Fin 2 → ℕ) a ≤ S15x1000.size a) :
    v.readCov ((⟨Rect.unit (s := S15x1000) ![o, 0] ![1, 1000] inb, x⟩ : View.Piece (Elt Ideal) S15x1000 .f32) :: L)
        (Rect.unit (s := S15x1000) ![o', 0] ![1, 1000] inb').toLoadRect
      = v.readCov L (Rect.unit (s := S15x1000) ![o', 0] ![1, 1000] inb').toLoadRect :=
  View.readCov_cons_of_disjoint v _ L _ (Rect.unit_disjoint (inb := inb) (inb' := inb') 0 (by
    show o + 1 ≤ o' ∨ o' + 1 ≤ o
    omega))

/-- The index (b, c) lies in row `b`. -/
theorem row_mem (b : ℕ) (hb : b < 15) (cc : Fin 1000)
    (inb : ∀ a, (![b, 0] : Fin 2 → ℕ) a + (![1, 1000] : Fin 2 → ℕ) a ≤ S15x1000.size a) :
    ix2 (⟨b, hb⟩ : Fin 15) cc ∈ (Rect.unit (s := S15x1000) ![b, 0] ![1, 1000] inb).set := by
  rw [Rect.mem_set_unit]
  intro a
  match a with
  | ⟨0, _⟩ => exact ⟨le_refl _, by show b < b + 1; omega⟩
  | ⟨1, _⟩ => exact ⟨Nat.zero_le _, by show cc.val < 0 + 1000; have := cc.isLt; omega⟩

/-- A list of stores that has, for every row, a store covering that row's indices covers every index. -/
theorem rows_cover (y : S15x1000.Idx) (L : List (View.Piece (Elt Ideal) S15x1000 .f32))
    (h : ∀ (b : ℕ) (hb : b < 15) (cc : Fin 1000), ∃ p ∈ L, ix2 (⟨b, hb⟩ : Fin 15) cc ∈ p.1.set) : ∃ p ∈ L, y ∈ p.1.set := by
  obtain ⟨b, cc, rfl⟩ : ∃ (b : Fin 15) (cc : Fin 1000), y = ix2 b cc := ⟨y 0, y 1, eq_ix2 y⟩
  exact h b.val b.isLt cc

variable (c : Dev nD) (i : grid0.Coords) (arg2 : Memref sig .tc .vmem S512x1000 .f32) (harg2 : arg2.IsWhole) (arg3 : Memref sig .tc .vmem S512x1 .i32) (harg3 : arg3.IsWhole) (arg4 : Memref sig .tc .vmem S1x15x1000 .f32) (harg4 : arg4.IsWhole) (arg5 : Memref sig .tc .vmem S1x15x1000 .f32) (harg5 : arg5.IsWhole) (arg6 : Memref sig .tc .vmem S1x15x1000 .f32) (harg6 : arg6.IsWhole) (arg7 : Memref sig .tc .vmem S15x1000 .f32) (harg7 : arg7.IsWhole) (arg8 : Memref sig .tc .vmem S15x1000 .f32) (harg8 : arg8.IsWhole) (arg9 : Memref sig .tc .vmem S15x1000 .f32) (harg9 : arg9.IsWhole)

/-! ## Case A -/

set_option maxHeartbeats 2000000 in
theorem canon_count_A (hc0 : cond0_0 i) (hc1 : ¬cond0_1 i) (x0 : Vec Ideal S512x1000 .f32) (x1 : Vec Ideal S512x1 .i32) :
    View.canon (kernelRun0_A (F := Ideal) c i arg2 harg2 arg3 harg3 arg4 harg4 arg5 harg5 arg6 harg6 arg7 harg7 arg8 harg8 arg9 harg9 hc0 hc1 x0 x1).2.2.2.1
      = fun y => k0_pay5 (F := Ideal) y + masked (k0_pay9 x0) ones y := by
  funext y
  unfold kernelRun0_A
  dsimp only
  sl_unfold_words
  simp (disch := omega) only [readCov_skip_row, readCov_zero_row, View.readAt_eq_ld, harg2.read_unread,
    View.ld_unit_zero (S := S512x1000) hz2]
  refine View.canon_append_of_pieces (Val := Elt Ideal) (S := S15x1000) (e := .f32) (fun y => k0_pay5 (F := Ideal) y + masked (k0_pay9 x0) ones y) [_] [_, _, _, _, _, _, _, _, _, _, _, _, _, _, _] ?_ y ?_
  · intro p hp
    simp only [List.mem_cons, List.mem_nil_iff, or_false] at hp
    rcases hp with rfl | rfl | rfl | rfl | rfl | rfl | rfl | rfl | rfl | rfl | rfl | rfl | rfl | rfl | rfl
    · exact fun x => piece_row 14 _ 14#32 rfl (k0_pay9 x0) ones (k0_pay5 (F := Ideal)) x
    · exact fun x => piece_row 13 _ 13#32 rfl (k0_pay9 x0) ones (k0_pay5 (F := Ideal)) x
    · exact fun x => piece_row 12 _ 12#32 rfl (k0_pay9 x0) ones (k0_pay5 (F := Ideal)) x
    · exact fun x => piece_row 11 _ 11#32 rfl (k0_pay9 x0) ones (k0_pay5 (F := Ideal)) x
    · exact fun x => piece_row 10 _ 10#32 rfl (k0_pay9 x0) ones (k0_pay5 (F := Ideal)) x
    · exact fun x => piece_row 9 _ 9#32 rfl (k0_pay9 x0) ones (k0_pay5 (F := Ideal)) x
    · exact fun x => piece_row 8 _ 8#32 rfl (k0_pay9 x0) ones (k0_pay5 (F := Ideal)) x
    · exact fun x => piece_row 7 _ 7#32 rfl (k0_pay9 x0) ones (k0_pay5 (F := Ideal)) x
    · exact fun x => piece_row 6 _ 6#32 rfl (k0_pay9 x0) ones (k0_pay5 (F := Ideal)) x
    · exact fun x => piece_row 5 _ 5#32 rfl (k0_pay9 x0) ones (k0_pay5 (F := Ideal)) x
    · exact fun x => piece_row 4 _ 4#32 rfl (k0_pay9 x0) ones (k0_pay5 (F := Ideal)) x
    · exact fun x => piece_row 3 _ 3#32 rfl (k0_pay9 x0) ones (k0_pay5 (F := Ideal)) x
    · exact fun x => piece_row 2 _ 2#32 rfl (k0_pay9 x0) ones (k0_pay5 (F := Ideal)) x
    · exact fun x => piece_row 1 _ 1#32 rfl (k0_pay9 x0) ones (k0_pay5 (F := Ideal)) x
    · exact fun x => piece_row 0 _ 0#32 rfl (k0_pay9 x0) ones (k0_pay5 (F := Ideal)) x
  · exact rows_cover y _ (fun b hb cc => by
      match b, hb with
      | 0, hb => exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))), row_mem 0 hb cc inb_S15x1000_S1x1000_0_0⟩
      | 1, hb => exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))), row_mem 1 hb cc inb_S15x1000_S1x1000_1_0⟩
      | 2, hb => exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))), row_mem 2 hb cc inb_S15x1000_S1x1000_2_0⟩
      | 3, hb => exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))), row_mem 3 hb cc inb_S15x1000_S1x1000_3_0⟩
      | 4, hb => exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))), row_mem 4 hb cc inb_S15x1000_S1x1000_4_0⟩
      | 5, hb => exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))), row_mem 5 hb cc inb_S15x1000_S1x1000_5_0⟩
      | 6, hb => exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))), row_mem 6 hb cc inb_S15x1000_S1x1000_6_0⟩
      | 7, hb => exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), row_mem 7 hb cc inb_S15x1000_S1x1000_7_0⟩
      | 8, hb => exact ⟨_, List.mem_cons_of_mem _ (List.mem_cons_of_mem _ (List.mem_cons_of_mem _ (List.mem_cons_of_mem _ (List.mem_cons_of_mem _ (List.mem_cons_of_mem _ (List.mem_cons_self)))))), row_mem 8 hb cc inb_S15x1000_S1x1000_8_0⟩
      | 9, hb => exact ⟨_, List.mem_cons_of_mem _ (List.mem_cons_of_mem _ (List.mem_cons_of_mem _ (List.mem_cons_of_mem _ (List.mem_cons_of_mem _ (List.mem_cons_self))))), row_mem 9 hb cc inb_S15x1000_S1x1000_9_0⟩
      | 10, hb => exact ⟨_, List.mem_cons_of_mem _ (List.mem_cons_of_mem _ (List.mem_cons_of_mem _ (List.mem_cons_of_mem _ (List.mem_cons_self)))), row_mem 10 hb cc inb_S15x1000_S1x1000_10_0⟩
      | 11, hb => exact ⟨_, List.mem_cons_of_mem _ (List.mem_cons_of_mem _ (List.mem_cons_of_mem _ (List.mem_cons_self))), row_mem 11 hb cc inb_S15x1000_S1x1000_11_0⟩
      | 12, hb => exact ⟨_, List.mem_cons_of_mem _ (List.mem_cons_of_mem _ (List.mem_cons_self)), row_mem 12 hb cc inb_S15x1000_S1x1000_12_0⟩
      | 13, hb => exact ⟨_, List.mem_cons_of_mem _ (List.mem_cons_self), row_mem 13 hb cc inb_S15x1000_S1x1000_13_0⟩
      | 14, hb => exact ⟨_, List.mem_cons_self, row_mem 14 hb cc inb_S15x1000_S1x1000_14_0⟩
      | (n + 15), hb => exact absurd hb (by omega))

set_option maxHeartbeats 2000000 in
theorem canon_conf_A (hc0 : cond0_0 i) (hc1 : ¬cond0_1 i) (x0 : Vec Ideal S512x1000 .f32) (x1 : Vec Ideal S512x1 .i32) :
    View.canon (kernelRun0_A (F := Ideal) c i arg2 harg2 arg3 harg3 arg4 harg4 arg5 harg5 arg6 harg6 arg7 harg7 arg8 harg8 arg9 harg9 hc0 hc1 x0 x1).2.2.2.2.1
      = fun y => k0_pay6 (F := Ideal) y + masked (k0_pay9 x0) (k0_pay8 x0) y := by
  funext y
  unfold kernelRun0_A
  dsimp only
  sl_unfold_words
  simp (disch := omega) only [readCov_skip_row, readCov_zero_row, View.readAt_eq_ld, harg2.read_unread,
    View.ld_unit_zero (S := S512x1000) hz2]
  refine View.canon_append_of_pieces (Val := Elt Ideal) (S := S15x1000) (e := .f32) (fun y => k0_pay6 (F := Ideal) y + masked (k0_pay9 x0) (k0_pay8 x0) y) [_] [_, _, _, _, _, _, _, _, _, _, _, _, _, _, _] ?_ y ?_
  · intro p hp
    simp only [List.mem_cons, List.mem_nil_iff, or_false] at hp
    rcases hp with rfl | rfl | rfl | rfl | rfl | rfl | rfl | rfl | rfl | rfl | rfl | rfl | rfl | rfl | rfl
    · exact fun x => piece_row 14 _ 14#32 rfl (k0_pay9 x0) (k0_pay8 x0) (k0_pay6 (F := Ideal)) x
    · exact fun x => piece_row 13 _ 13#32 rfl (k0_pay9 x0) (k0_pay8 x0) (k0_pay6 (F := Ideal)) x
    · exact fun x => piece_row 12 _ 12#32 rfl (k0_pay9 x0) (k0_pay8 x0) (k0_pay6 (F := Ideal)) x
    · exact fun x => piece_row 11 _ 11#32 rfl (k0_pay9 x0) (k0_pay8 x0) (k0_pay6 (F := Ideal)) x
    · exact fun x => piece_row 10 _ 10#32 rfl (k0_pay9 x0) (k0_pay8 x0) (k0_pay6 (F := Ideal)) x
    · exact fun x => piece_row 9 _ 9#32 rfl (k0_pay9 x0) (k0_pay8 x0) (k0_pay6 (F := Ideal)) x
    · exact fun x => piece_row 8 _ 8#32 rfl (k0_pay9 x0) (k0_pay8 x0) (k0_pay6 (F := Ideal)) x
    · exact fun x => piece_row 7 _ 7#32 rfl (k0_pay9 x0) (k0_pay8 x0) (k0_pay6 (F := Ideal)) x
    · exact fun x => piece_row 6 _ 6#32 rfl (k0_pay9 x0) (k0_pay8 x0) (k0_pay6 (F := Ideal)) x
    · exact fun x => piece_row 5 _ 5#32 rfl (k0_pay9 x0) (k0_pay8 x0) (k0_pay6 (F := Ideal)) x
    · exact fun x => piece_row 4 _ 4#32 rfl (k0_pay9 x0) (k0_pay8 x0) (k0_pay6 (F := Ideal)) x
    · exact fun x => piece_row 3 _ 3#32 rfl (k0_pay9 x0) (k0_pay8 x0) (k0_pay6 (F := Ideal)) x
    · exact fun x => piece_row 2 _ 2#32 rfl (k0_pay9 x0) (k0_pay8 x0) (k0_pay6 (F := Ideal)) x
    · exact fun x => piece_row 1 _ 1#32 rfl (k0_pay9 x0) (k0_pay8 x0) (k0_pay6 (F := Ideal)) x
    · exact fun x => piece_row 0 _ 0#32 rfl (k0_pay9 x0) (k0_pay8 x0) (k0_pay6 (F := Ideal)) x
  · exact rows_cover y _ (fun b hb cc => by
      match b, hb with
      | 0, hb => exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))), row_mem 0 hb cc inb_S15x1000_S1x1000_0_0⟩
      | 1, hb => exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))), row_mem 1 hb cc inb_S15x1000_S1x1000_1_0⟩
      | 2, hb => exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))), row_mem 2 hb cc inb_S15x1000_S1x1000_2_0⟩
      | 3, hb => exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))), row_mem 3 hb cc inb_S15x1000_S1x1000_3_0⟩
      | 4, hb => exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))), row_mem 4 hb cc inb_S15x1000_S1x1000_4_0⟩
      | 5, hb => exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))), row_mem 5 hb cc inb_S15x1000_S1x1000_5_0⟩
      | 6, hb => exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))), row_mem 6 hb cc inb_S15x1000_S1x1000_6_0⟩
      | 7, hb => exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), row_mem 7 hb cc inb_S15x1000_S1x1000_7_0⟩
      | 8, hb => exact ⟨_, List.mem_cons_of_mem _ (List.mem_cons_of_mem _ (List.mem_cons_of_mem _ (List.mem_cons_of_mem _ (List.mem_cons_of_mem _ (List.mem_cons_of_mem _ (List.mem_cons_self)))))), row_mem 8 hb cc inb_S15x1000_S1x1000_8_0⟩
      | 9, hb => exact ⟨_, List.mem_cons_of_mem _ (List.mem_cons_of_mem _ (List.mem_cons_of_mem _ (List.mem_cons_of_mem _ (List.mem_cons_of_mem _ (List.mem_cons_self))))), row_mem 9 hb cc inb_S15x1000_S1x1000_9_0⟩
      | 10, hb => exact ⟨_, List.mem_cons_of_mem _ (List.mem_cons_of_mem _ (List.mem_cons_of_mem _ (List.mem_cons_of_mem _ (List.mem_cons_self)))), row_mem 10 hb cc inb_S15x1000_S1x1000_10_0⟩
      | 11, hb => exact ⟨_, List.mem_cons_of_mem _ (List.mem_cons_of_mem _ (List.mem_cons_of_mem _ (List.mem_cons_self))), row_mem 11 hb cc inb_S15x1000_S1x1000_11_0⟩
      | 12, hb => exact ⟨_, List.mem_cons_of_mem _ (List.mem_cons_of_mem _ (List.mem_cons_self)), row_mem 12 hb cc inb_S15x1000_S1x1000_12_0⟩
      | 13, hb => exact ⟨_, List.mem_cons_of_mem _ (List.mem_cons_self), row_mem 13 hb cc inb_S15x1000_S1x1000_13_0⟩
      | 14, hb => exact ⟨_, List.mem_cons_self, row_mem 14 hb cc inb_S15x1000_S1x1000_14_0⟩
      | (n + 15), hb => exact absurd hb (by omega))

/-- CASE A, the accuracy accumulator: zeroed, then the one-hot product of the block stored whole. -/
theorem canon_acc_A (hc0 : cond0_0 i) (hc1 : ¬cond0_1 i) (x0 : Vec Ideal S512x1000 .f32) (x1 : Vec Ideal S512x1 .i32) :
    View.canon (kernelRun0_A (F := Ideal) c i arg2 harg2 arg3 harg3 arg4 harg4 arg5 harg5 arg6 harg6 arg7 harg7 arg8 harg8 arg9 harg9 hc0 hc1 x0 x1).2.2.2.2.2.1
      = fun y => k0_pay7 (F := Ideal) y + hot (k0_pay8 x0) (k0_pay10 x1) y := by
  unfold kernelRun0_A
  dsimp only
  sl_unfold_words
  rw [View.canon_cons_unit_zero (S := S15x1000) hz2, View.readCov_unit_zero (S := S15x1000) _ hz2]
  simp only [View.readAt_eq_ld, harg2.read_unread, harg3.read_unread, View.ld_unit_zero (S := S512x1000) hz2,
    View.ld_unit_zero (S := S512x1) hz2]
  exact accAdd_eq _ _ _

theorem count_A (hc0 : cond0_0 i) (hc1 : ¬cond0_1 i) (x0 : Vec Ideal S512x1000 .f32) (x1 : Vec Ideal S512x1 .i32) :
    sout0_A_0 (F := Ideal) c i arg2 harg2 arg3 harg3 arg4 harg4 arg5 harg5 arg6 harg6 arg7 harg7 arg8 harg8 arg9 harg9 hc0 hc1 x0 x1 = fun y => k0_pay5 (F := Ideal) y + masked (k0_pay9 x0) ones y := by
  unfold sout0_A_0
  rw [View.read_writes_eq_canon _ _ _ (scover0_A_0 c i arg2 harg2 arg3 harg3 arg4 harg4 arg5 harg5 arg6 harg6 arg7 harg7 arg8 harg8 arg9 harg9 hc0 hc1 x0 x1)]
  exact canon_count_A c i arg2 harg2 arg3 harg3 arg4 harg4 arg5 harg5 arg6 harg6 arg7 harg7 arg8 harg8 arg9 harg9 hc0 hc1 x0 x1

theorem conf_A (hc0 : cond0_0 i) (hc1 : ¬cond0_1 i) (x0 : Vec Ideal S512x1000 .f32) (x1 : Vec Ideal S512x1 .i32) :
    sout0_A_1 (F := Ideal) c i arg2 harg2 arg3 harg3 arg4 harg4 arg5 harg5 arg6 harg6 arg7 harg7 arg8 harg8 arg9 harg9 hc0 hc1 x0 x1 = fun y => k0_pay6 (F := Ideal) y + masked (k0_pay9 x0) (k0_pay8 x0) y := by
  unfold sout0_A_1
  rw [View.read_writes_eq_canon _ _ _ (scover0_A_1 c i arg2 harg2 arg3 harg3 arg4 harg4 arg5 harg5 arg6 harg6 arg7 harg7 arg8 harg8 arg9 harg9 hc0 hc1 x0 x1)]
  exact canon_conf_A c i arg2 harg2 arg3 harg3 arg4 harg4 arg5 harg5 arg6 harg6 arg7 harg7 arg8 harg8 arg9 harg9 hc0 hc1 x0 x1

theorem acc_A (hc0 : cond0_0 i) (hc1 : ¬cond0_1 i) (x0 : Vec Ideal S512x1000 .f32) (x1 : Vec Ideal S512x1 .i32) :
    sout0_A_2 (F := Ideal) c i arg2 harg2 arg3 harg3 arg4 harg4 arg5 harg5 arg6 harg6 arg7 harg7 arg8 harg8 arg9 harg9 hc0 hc1 x0 x1 = fun y => k0_pay7 (F := Ideal) y + hot (k0_pay8 x0) (k0_pay10 x1) y := by
  unfold sout0_A_2
  rw [View.read_writes_eq_canon _ _ _ (scover0_A_2 c i arg2 harg2 arg3 harg3 arg4 harg4 arg5 harg5 arg6 harg6 arg7 harg7 arg8 harg8 arg9 harg9 hc0 hc1 x0 x1)]
  exact canon_acc_A c i arg2 harg2 arg3 harg3 arg4 harg4 arg5 harg5 arg6 harg6 arg7 harg7 arg8 harg8 arg9 harg9 hc0 hc1 x0 x1

end Cert.KernelIdeal.Pieces

end
-- ==== Proof.GridRuns.lean ====
/-
  Sums over a run of grid points that restarts every 128 points.

  The grid's 256 points are visited in order; the second coordinate of point `n` is `n % 128` and the first is `n / 128`.
  An accumulator that is reset at the points with second coordinate 0 and otherwise adds the point's contribution holds,
  after point `n`, the sum of the contributions of the points `n / 128 · 128, …, n`: `n % 128 + 1` terms. These are the two
  steps of that statement (the reset, and one more term), for contributions in any additive commutative monoid.
-/
import Mathlib.Algebra.BigOperators.Intervals
import Mathlib.Algebra.BigOperators.Fin

open scoped BigOperators

namespace Cert.GridRuns

variable {M : Type*} [AddCommMonoid M]

/-- The run of point `n`: the sum of `f` over the points of `n`'s half from its first point up to `n`. -/
def run (f : ℕ → M) (n : ℕ) : M := ∑ j ∈ Finset.range (n % 128 + 1), f (n / 128 * 128 + j)

/-- At a point whose second coordinate is 0 the run is the point's own term. -/
theorem run_reset (f : ℕ → M) (n : ℕ) (h : n % 128 = 0) : run f n = f n := by
  unfold run
  rw [h, Finset.sum_range_one]
  congr 1
  have := Nat.div_add_mod n 128
  omega

/-- At any other point the run is the run of the point before plus the point's own term. -/
theorem run_step (f : ℕ → M) (n : ℕ) (h : ¬(n + 1) % 128 = 0) : run f (n + 1) = run f n + f (n + 1) := by
  unfold run
  have h1 : (n + 1) % 128 = n % 128 + 1 := by omega
  have h2 : (n + 1) / 128 = n / 128 := by omega
  rw [h1, h2, Finset.sum_range_succ]
  congr 2
  have := Nat.div_add_mod n 128
  omega

/-- At the last point of a half the run is the sum over the half's 128 points. -/
theorem run_last (f : ℕ → M) (h : ℕ) : run f (h * 128 + 127) = ∑ j ∈ Finset.range 128, f (h * 128 + j) := by
  unfold run
  have h1 : (h * 128 + 127) % 128 = 127 := by omega
  have h2 : (h * 128 + 127) / 128 = h := by omega
  rw [h1, h2]

end Cert.GridRuns
-- ==== Proof.Invariant.lean ====
/-
  What the three accumulators hold after every grid point, and what the last point of a half writes out.

  Point `n` of the 256 contributes, to each accumulator, a function of the accumulator's index computed from the point's
  blocks (`cntN`, `cnfN`, `hotN`). The first point of a half zeroes the accumulators before adding; every other point adds to
  what the point before left. So after point `n` each accumulator is the run of its contributions over the points of
  `n`'s half up to `n` — by induction on the point, through the three cases of the body. The last point of a half also
  copies the accumulators to the output blocks.
-/
import proofs.«133106_j33303176413864_2_alg».proof.Proof.Pieces
import proofs.«133106_j33303176413864_2_alg».proof.Proof.PiecesOut
import proofs.«133106_j33303176413864_2_alg».proof.Proof.PiecesA
import proofs.«133106_j33303176413864_2_alg».proof.Proof.GridRuns

set_option maxRecDepth 16384

noncomputable section

open scoped BigOperators

namespace Cert.KernelIdeal.Inv

open Cert.KernelIdeal Cert.KernelIdeal.Gen Cert.KernelIdeal.Block Cert.KernelIdeal.Pieces Idealize.ShloMosaic Idealize.ShloMosaic.TcCoe
open Idealize.ShloMosaic.ValueIdx Idealize.SL.Sem Cert.Hist Cert.GridRuns

variable (m : (ℓ : Loc nD τ sig) → Buf (Elt Ideal) ℓ) (c : Dev nD)

/-- Point `n`'s contribution to the count accumulator (zero past the grid). -/
def cntN (n : ℕ) : S15x1000.Idx → EReal :=
  if h : n < cfg0.N then masked (k0_pay9 (F := Ideal) (iblk m c 0 ⟨n, h⟩)) ones else 0
/-- Point `n`'s contribution to the confidence accumulator. -/
def cnfN (n : ℕ) : S15x1000.Idx → EReal :=
  if h : n < cfg0.N then masked (k0_pay9 (F := Ideal) (iblk m c 0 ⟨n, h⟩)) (k0_pay8 (F := Ideal) (iblk m c 0 ⟨n, h⟩)) else 0
/-- Point `n`'s contribution to the accuracy accumulator. -/
def hotN (n : ℕ) : S15x1000.Idx → EReal :=
  if h : n < cfg0.N then hot (k0_pay8 (F := Ideal) (iblk m c 0 ⟨n, h⟩)) (k0_pay10 (F := Ideal) (iblk m c 1 ⟨n, h⟩)) else 0

/-- An accumulator that adds a point's contribution to the run of the point before holds the run of the point. -/
theorem step_fun (prev blk : S15x1000.Idx → EReal) (f : ℕ → S15x1000.Idx → EReal) (n : ℕ) (h0 : ¬(n + 1) % 128 = 0)
    (hprev : prev = run f n) (hblk : f (n + 1) = blk) : (fun y => prev y + blk y) = run f (n + 1) := by
  rw [run_step f n h0, ← hprev, hblk]; rfl

/-- An accumulator zeroed and then given a point's contribution holds the run of that point, when the point starts a half. -/
theorem reset_fun (z blk : S15x1000.Idx → EReal) (f : ℕ → S15x1000.Idx → EReal) (n : ℕ) (h0 : n % 128 = 0)
    (hz : ∀ y, z y = 0) (hblk : f n = blk) : (fun y => z y + blk y) = run f n := by
  rw [run_reset f n h0, hblk]; funext y; rw [hz, zero_add]

theorem pay5_zero (y : S15x1000.Idx) : k0_pay5 (F := Ideal) y = 0 := by
  unfold k0_pay5; rw [shapeCast_self]; exact Ideal.ofBits_zero_f32
theorem pay6_zero (y : S15x1000.Idx) : k0_pay6 (F := Ideal) y = 0 := by
  unfold k0_pay6; rw [shapeCast_self]; exact Ideal.ofBits_zero_f32
theorem pay7_zero (y : S15x1000.Idx) : k0_pay7 (F := Ideal) y = 0 := by
  unfold k0_pay7; rw [shapeCast_self]; exact Ideal.ofBits_zero_f32

/-- THE ACCUMULATORS AFTER POINT `n`: each is the run of its contributions over the points of `n`'s half up to `n`. -/
theorem scratch_at : ∀ (n : ℕ) (hn : n < cfg0.N),
    (outsAt0 m c n hn).2.2.2.1 = run (cntN m c) n
    ∧ (outsAt0 m c n hn).2.2.2.2.1 = run (cnfN m c) n
    ∧ (outsAt0 m c n hn).2.2.2.2.2 = run (hotN m c) n
  | 0, hn => by
    have hN : cfg0.N = 256 := N_0
    rw [outsAt0_A m c ⟨0, hn⟩ (Nat.zero_mod _) (by show ¬(0 : ℕ) % 128 = 127; decide)]
    dsimp only
    refine ⟨?_, ?_, ?_⟩
    · exact (count_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) scM0_2 (Memref.isWhole_whole _) _ _ (iblk m c 0 ⟨0, hn⟩) (iblk m c 1 ⟨0, hn⟩)).trans
        (reset_fun _ _ (cntN m c) 0 (Nat.zero_mod _) pay5_zero (dif_pos hn))
    · exact (conf_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) scM0_2 (Memref.isWhole_whole _) _ _ (iblk m c 0 ⟨0, hn⟩) (iblk m c 1 ⟨0, hn⟩)).trans
        (reset_fun _ _ (cnfN m c) 0 (Nat.zero_mod _) pay6_zero (dif_pos hn))
    · exact (acc_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) scM0_2 (Memref.isWhole_whole _) _ _ (iblk m c 0 ⟨0, hn⟩) (iblk m c 1 ⟨0, hn⟩)).trans
        (reset_fun _ _ (hotN m c) 0 (Nat.zero_mod _) pay7_zero (dif_pos hn))
  | n + 1, hn => by
    have hN : cfg0.N = 256 := N_0
    have ih := scratch_at n (Nat.lt_of_succ_lt hn)
    by_cases h0 : (n + 1) % 128 = 0
    · have h1 : ¬(n + 1) % 128 = 127 := by omega
      rw [outsAt0_A m c ⟨n + 1, hn⟩ h0 h1]
      dsimp only
      refine ⟨?_, ?_, ?_⟩
      · exact (count_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) _ _ (iblk m c 0 ⟨n + 1, hn⟩) (iblk m c 1 ⟨n + 1, hn⟩)).trans
          (reset_fun _ _ (cntN m c) (n + 1) h0 pay5_zero (dif_pos hn))
      · exact (conf_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) _ _ (iblk m c 0 ⟨n + 1, hn⟩) (iblk m c 1 ⟨n + 1, hn⟩)).trans
          (reset_fun _ _ (cnfN m c) (n + 1) h0 pay6_zero (dif_pos hn))
      · exact (acc_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) _ _ (iblk m c 0 ⟨n + 1, hn⟩) (iblk m c 1 ⟨n + 1, hn⟩)).trans
          (reset_fun _ _ (hotN m c) (n + 1) h0 pay7_zero (dif_pos hn))
    · by_cases h1 : (n + 1) % 128 = 127
      · rw [outsAt0_C m c ⟨n + 1, hn⟩ h0 h1]
        dsimp only
        refine ⟨?_, ?_, ?_⟩
        · exact (count_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) _ _ (iblk m c 0 ⟨n + 1, hn⟩) (iblk m c 1 ⟨n + 1, hn⟩) _ _ _).trans
            (step_fun _ _ (cntN m c) n h0 ih.1 (dif_pos hn))
        · exact (conf_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) _ _ (iblk m c 0 ⟨n + 1, hn⟩) (iblk m c 1 ⟨n + 1, hn⟩) _ _ _).trans
            (step_fun _ _ (cnfN m c) n h0 ih.2.1 (dif_pos hn))
        · exact (acc_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) _ _ (iblk m c 0 ⟨n + 1, hn⟩) (iblk m c 1 ⟨n + 1, hn⟩) _ _ _).trans
            (step_fun _ _ (hotN m c) n h0 ih.2.2 (dif_pos hn))
      · rw [outsAt0_B m c ⟨n + 1, hn⟩ h0 h1]
        dsimp only
        refine ⟨?_, ?_, ?_⟩
        · exact (count_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) _ _ (iblk m c 0 ⟨n + 1, hn⟩) (iblk m c 1 ⟨n + 1, hn⟩) _ _ _).trans
            (step_fun _ _ (cntN m c) n h0 ih.1 (dif_pos hn))
        · exact (conf_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) _ _ (iblk m c 0 ⟨n + 1, hn⟩) (iblk m c 1 ⟨n + 1, hn⟩) _ _ _).trans
            (step_fun _ _ (cnfN m c) n h0 ih.2.1 (dif_pos hn))
        · exact (acc_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) _ _ (iblk m c 0 ⟨n + 1, hn⟩) (iblk m c 1 ⟨n + 1, hn⟩) _ _ _).trans
            (step_fun _ _ (hotN m c) n h0 ih.2.2 (dif_pos hn))

/-- THE OUTPUT BLOCKS AT THE LAST POINT OF A HALF: each is its accumulator's run at that point, cast to the block's shape. -/
theorem out_succ (n : ℕ) (hn : n + 1 < cfg0.N) (h127 : (n + 1) % 128 = 127) :
    (outsAt0 m c (n + 1) hn).1 = shapeCast S1x15x1000 (run (cntN m c) (n + 1)) shapeCasts_S15x1000_S1x15x1000
    ∧ (outsAt0 m c (n + 1) hn).2.1 = shapeCast S1x15x1000 (run (cnfN m c) (n + 1)) shapeCasts_S15x1000_S1x15x1000
    ∧ (outsAt0 m c (n + 1) hn).2.2.1 = shapeCast S1x15x1000 (run (hotN m c) (n + 1)) shapeCasts_S15x1000_S1x15x1000 := by
  have h0 : ¬(n + 1) % 128 = 0 := by omega
  have ih := scratch_at m c n (Nat.lt_of_succ_lt hn)
  rw [outsAt0_C m c ⟨n + 1, hn⟩ h0 h127]
  dsimp only
  refine ⟨?_, ?_, ?_⟩
  · exact (out2_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) _ _ (iblk m c 0 ⟨n + 1, hn⟩) (iblk m c 1 ⟨n + 1, hn⟩) _ _ _).trans
      (congrArg (fun v => shapeCast S1x15x1000 v shapeCasts_S15x1000_S1x15x1000) (step_fun _ _ (cntN m c) n h0 ih.1 (dif_pos hn)))
  · exact (out3_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) _ _ (iblk m c 0 ⟨n + 1, hn⟩) (iblk m c 1 ⟨n + 1, hn⟩) _ _ _).trans
      (congrArg (fun v => shapeCast S1x15x1000 v shapeCasts_S15x1000_S1x15x1000) (step_fun _ _ (cnfN m c) n h0 ih.2.1 (dif_pos hn)))
  · exact (out4_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) _ _ (iblk m c 0 ⟨n + 1, hn⟩) (iblk m c 1 ⟨n + 1, hn⟩) _ _ _).trans
      (congrArg (fun v => shapeCast S1x15x1000 v shapeCasts_S15x1000_S1x15x1000) (step_fun _ _ (hotN m c) n h0 ih.2.2 (dif_pos hn)))

/-- The same, for a point given as an element of the grid. -/
theorem out_at (t : Fin cfg0.N) (h127 : t.val % 128 = 127) :
    (outsAt0 m c t.val t.isLt).1 = shapeCast S1x15x1000 (run (cntN m c) t.val) shapeCasts_S15x1000_S1x15x1000
    ∧ (outsAt0 m c t.val t.isLt).2.1 = shapeCast S1x15x1000 (run (cnfN m c) t.val) shapeCasts_S15x1000_S1x15x1000
    ∧ (outsAt0 m c t.val t.isLt).2.2.1 = shapeCast S1x15x1000 (run (hotN m c) t.val) shapeCasts_S15x1000_S1x15x1000 := by
  obtain ⟨n, hn⟩ := t
  cases n with
  | zero => exact absurd h127 (by show ¬(0 : ℕ) % 128 = 127; decide)
  | succ n => exact out_succ m c n hn h127

end Cert.KernelIdeal.Inv

end
-- ==== Proof.FinalArrays.lean ====
/-
  The kernel's three output arrays after the run, and its input blocks as rows of the arguments.

  The grid has 2 × 128 = 256 points, visited in order; point t has coordinates (t / 128, t % 128). The logits and the
  labels are read in blocks of 512 rows, block t at point t. Each of the three outputs is a [2, 15, 1000] array written in
  blocks [1, 15, 1000]: block h is written back once, after the last point of half h (the points t with t % 128 = 127),
  from a staging buffer that then holds the run of half h — the sum over the half's 128 points of the points'
  contributions — as one leading block. The two blocks tile the array, so the array ends holding, at (h, b, k), the sum
  over the 128 points of half h of the contributions at (b, k).
-/
import proofs.«133106_j33303176413864_2_alg».proof.Proof.Gen.KernelIdeal.Frame
import Idealize.ShloMosaic.Lib.Pipeline.Value
import Idealize.ShloMosaic.Lib.ValueIdx
import Idealize.ShloMosaic.Lib.StableHlo.Run
import Idealize.ShloMosaic.Lib.Tactic
import proofs.«133106_j33303176413864_2_alg».proof.Proof.GridRuns

set_option maxRecDepth 16384

noncomputable section

open scoped BigOperators

namespace Cert.KernelIdeal.Final

open Cert.KernelIdeal Cert.KernelIdeal.Gen
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ)

/-- The grid has 256 points. -/
theorem pt_lt (t : Fin cfg0.N) : t.val < 256 := lt_of_lt_of_eq t.isLt (show cfg0.N = 256 from N_0)

/-! ## The half sums -/

/-- The closed form of an output array: at (h, b, k) the sum over the 128 points of half h of the points'
    contributions at (b, k). -/
def halfSums (f : ℕ → S15x1000.Idx → EReal) : S2x15x1000.Idx → EReal :=
  fun y => ∑ j ∈ Finset.range 128, f ((y 0).val * 128 + j) (ix2 (y 1) (y 2))

/-- The run of the last point of a half, cast to one leading block, read at an index: the half's sum there. -/
theorem cast_run_at (f : ℕ → S15x1000.Idx → EReal) (n : ℕ) (hn : n % 128 = 127) (h : S15x1000.ShapeCasts S1x15x1000)
    (j : S1x15x1000.Idx) :
    shapeCast S1x15x1000 (Cert.GridRuns.run f n) h j
      = ∑ jj ∈ Finset.range 128, f (n / 128 * 128 + jj) (ix2 (j 1) (j 2)) := by
  have hix : (fun a => j a.succ : S15x1000.Idx) = ix2 (j 1) (j 2) := by
    funext a
    match a with
    | ⟨0, _⟩ => rfl
    | ⟨1, _⟩ => rfl
  refine (shapeCast_addUnit_apply ![15, 1000] (Cert.GridRuns.run f n) h j).trans ?_
  show Cert.GridRuns.run f n (fun a => j a.succ : S15x1000.Idx) = _
  rw [hix]
  unfold Cert.GridRuns.run
  rw [hn]
  exact Finset.sum_apply _ _ _

/-! ## Output window 2 -/

/-- Window 2's block index at point t is (t / 128, 0, 0): one block per half of the grid. -/
theorem idx_facts2 : ∀ t : Fin cfg0.N, win0_2.index t (0 : Fin 3) = t.val / 128 ∧ win0_2.index t (1 : Fin 3) = 0 ∧ win0_2.index t (2 : Fin 3) = 0 :=
  (by decide +kernel : ∀ t : Fin grid0.N, win0_2.index t (0 : Fin 3) = t.val / 128 ∧ win0_2.index t (1 : Fin 3) = 0 ∧ win0_2.index t (2 : Fin 3) = 0)

/-- An index of the array is in point t's block iff each coordinate is in the block's range on its axis. -/
theorem mem_blk2 (t : Fin cfg0.N) (i : S2x15x1000.Idx) :
    i ∈ ((cfg0.win 2).blk t).view.set ↔ ∀ a : Fin 3, win0_2.index t a * S1x15x1000.size a ≤ (i a).val ∧ (i a).val < win0_2.index t a * S1x15x1000.size a + S1x15x1000.size a := by
  show i ∈ ((View.whole main_v1_0).slice (win0_2.rect t)).set ↔ _
  rw [View.set_slice_whole, Rect.mem_set_unit]
  exact Iff.rfl

/-- What a point that writes the block back writes is its block of the half sums: the point is the last of its half, its
    staging buffer holds the half's run as one leading block, and the block sits at (t / 128, 0, 0). -/
theorem flushed2_eq (c : Dev nD) (f : ℕ → S15x1000.Idx → EReal)
    (hout : ∀ t : Fin cfg0.N, t.val % 128 = 127 → (outsAt0 m c t.val t.isLt).1
      = shapeCast S1x15x1000 (Cert.GridRuns.run f t.val) shapeCasts_S15x1000_S1x15x1000)
    (t : Fin cfg0.N) (hf : (cfg0.win 2).flush t = true) :
    (dats m 0 c).flushed 2 t = ((cfg0.win 2).blk t).view.read (Elt Ideal) (halfSums f) := by
  have ht : t.val % 128 = 127 := (flush0_2 t).mp hf
  obtain ⟨e0, e1, e2⟩ := idx_facts2 t
  show (cfg0.win 2).cut (grid0.coords t) ((dats m 0 c).after 2 t) = _
  rw [after0_2, hout t ht]
  funext j
  refine (cast_run_at f t.val ht _ _).trans ?_
  have h0 : ((((cfg0.win 2).blk t).view.emb j) 0).val = t.val / 128 := by
    show win0_2.index t 0 * 1 + 1 * (j 0).val = t.val / 128
    have hj : (j 0).val < 1 := (j 0).isLt
    rw [e0]; omega
  have hix : (ix2 ((cfg0.win 2).xinj (grid0.coords t) j 1) ((cfg0.win 2).xinj (grid0.coords t) j 2) : S15x1000.Idx)
      = ix2 ((((cfg0.win 2).blk t).view.emb j) 1) ((((cfg0.win 2).blk t).view.emb j) 2) := by
    funext a; apply Fin.ext
    match a with
    | ⟨0, _⟩ => show (j 1).val = win0_2.index t 1 * 15 + 1 * (j 1).val; rw [e1]; omega
    | ⟨1, _⟩ => show (j 2).val = win0_2.index t 2 * 1000 + 1 * (j 2).val; rw [e2]; omega
  show _ = ∑ jj ∈ Finset.range 128, f (((((cfg0.win 2).blk t).view.emb j) 0).val * 128 + jj)
    (ix2 ((((cfg0.win 2).blk t).view.emb j) 1) ((((cfg0.win 2).blk t).view.emb j) 2))
  rw [h0, hix]
  rfl

/-- Every index of the array is in the block of the last point of its half, which is written back. -/
theorem cover2 (y : S2x15x1000.Idx) :
    ∃ t : Fin cfg0.N, (cfg0.win 2).flush t = true ∧ y ∈ ((cfg0.win 2).blk t).view.set := by
  have h0 : (y 0).val < 2 := (y 0).isLt
  have h1 : (y 1).val < 15 := (y 1).isLt
  have h2 : (y 2).val < 1000 := (y 2).isLt
  let t : Fin cfg0.N := ⟨(y 0).val * 128 + 127, lt_of_lt_of_eq (by omega : (y 0).val * 128 + 127 < 256) (show cfg0.N = 256 from N_0).symm⟩
  have htv : t.val = (y 0).val * 128 + 127 := rfl
  obtain ⟨e0, e1, e2⟩ := idx_facts2 t
  refine ⟨t, (flush0_2 t).mpr (by rw [htv]; omega), ?_⟩
  rw [mem_blk2]
  intro a
  match a with
  | ⟨0, _⟩ => show win0_2.index t 0 * 1 ≤ (y 0).val ∧ (y 0).val < win0_2.index t 0 * 1 + 1; rw [e0, htv]; omega
  | ⟨1, _⟩ => show win0_2.index t 1 * 15 ≤ (y 1).val ∧ (y 1).val < win0_2.index t 1 * 15 + 15; rw [e1]; omega
  | ⟨2, _⟩ => show win0_2.index t 2 * 1000 ≤ (y 2).val ∧ (y 2).val < win0_2.index t 2 * 1000 + 1000; rw [e2]; omega

/-- THE FIRST OUTPUT ARRAY after the run: at (h, b, k) the sum of the contributions of half h's 128 points at (b, k). -/
theorem final2 (c : Dev nD) (f : ℕ → S15x1000.Idx → EReal)
    (hout : ∀ t : Fin cfg0.N, t.val % 128 = 127 → (outsAt0 m c t.val t.isLt).1
      = shapeCast S1x15x1000 (Cert.GridRuns.run f t.val) shapeCasts_S15x1000_S1x15x1000) :
    (dats m 0 c).arrAt 2 cfg0.N
      = fun y : S2x15x1000.Idx => ∑ j ∈ Finset.range 128, f ((y 0).val * 128 + j) (ix2 (y 1) (y 2)) :=
  (dats m 0 c).arrAt_eq_of_cover 2 (halfSums f) (flushed2_eq m c f hout) cover2

/-! ## Output window 3 -/

/-- Window 3's block index at point t is (t / 128, 0, 0): one block per half of the grid. -/
theorem idx_facts3 : ∀ t : Fin cfg0.N, win0_3.index t (0 : Fin 3) = t.val / 128 ∧ win0_3.index t (1 : Fin 3) = 0 ∧ win0_3.index t (2 : Fin 3) = 0 :=
  (by decide +kernel : ∀ t : Fin grid0.N, win0_3.index t (0 : Fin 3) = t.val / 128 ∧ win0_3.index t (1 : Fin 3) = 0 ∧ win0_3.index t (2 : Fin 3) = 0)

/-- An index of the array is in point t's block iff each coordinate is in the block's range on its axis. -/
theorem mem_blk3 (t : Fin cfg0.N) (i : S2x15x1000.Idx) :
    i ∈ ((cfg0.win 3).blk t).view.set ↔ ∀ a : Fin 3, win0_3.index t a * S1x15x1000.size a ≤ (i a).val ∧ (i a).val < win0_3.index t a * S1x15x1000.size a + S1x15x1000.size a := by
  show i ∈ ((View.whole main_v1_1).slice (win0_3.rect t)).set ↔ _
  rw [View.set_slice_whole, Rect.mem_set_unit]
  exact Iff.rfl

/-- What a point that writes the block back writes is its block of the half sums: the point is the last of its half, its
    staging buffer holds the half's run as one leading block, and the block sits at (t / 128, 0, 0). -/
theorem flushed3_eq (c : Dev nD) (f : ℕ → S15x1000.Idx → EReal)
    (hout : ∀ t : Fin cfg0.N, t.val % 128 = 127 → (outsAt0 m c t.val t.isLt).2.1
      = shapeCast S1x15x1000 (Cert.GridRuns.run f t.val) shapeCasts_S15x1000_S1x15x1000)
    (t : Fin cfg0.N) (hf : (cfg0.win 3).flush t = true) :
    (dats m 0 c).flushed 3 t = ((cfg0.win 3).blk t).view.read (Elt Ideal) (halfSums f) := by
  have ht : t.val % 128 = 127 := (flush0_3 t).mp hf
  obtain ⟨e0, e1, e2⟩ := idx_facts3 t
  show (cfg0.win 3).cut (grid0.coords t) ((dats m 0 c).after 3 t) = _
  rw [after0_3, hout t ht]
  funext j
  refine (cast_run_at f t.val ht _ _).trans ?_
  have h0 : ((((cfg0.win 3).blk t).view.emb j) 0).val = t.val / 128 := by
    show win0_3.index t 0 * 1 + 1 * (j 0).val = t.val / 128
    have hj : (j 0).val < 1 := (j 0).isLt
    rw [e0]; omega
  have hix : (ix2 ((cfg0.win 3).xinj (grid0.coords t) j 1) ((cfg0.win 3).xinj (grid0.coords t) j 2) : S15x1000.Idx)
      = ix2 ((((cfg0.win 3).blk t).view.emb j) 1) ((((cfg0.win 3).blk t).view.emb j) 2) := by
    funext a; apply Fin.ext
    match a with
    | ⟨0, _⟩ => show (j 1).val = win0_3.index t 1 * 15 + 1 * (j 1).val; rw [e1]; omega
    | ⟨1, _⟩ => show (j 2).val = win0_3.index t 2 * 1000 + 1 * (j 2).val; rw [e2]; omega
  show _ = ∑ jj ∈ Finset.range 128, f (((((cfg0.win 3).blk t).view.emb j) 0).val * 128 + jj)
    (ix2 ((((cfg0.win 3).blk t).view.emb j) 1) ((((cfg0.win 3).blk t).view.emb j) 2))
  rw [h0, hix]
  rfl

/-- Every index of the array is in the block of the last point of its half, which is written back. -/
theorem cover3 (y : S2x15x1000.Idx) :
    ∃ t : Fin cfg0.N, (cfg0.win 3).flush t = true ∧ y ∈ ((cfg0.win 3).blk t).view.set := by
  have h0 : (y 0).val < 2 := (y 0).isLt
  have h1 : (y 1).val < 15 := (y 1).isLt
  have h2 : (y 2).val < 1000 := (y 2).isLt
  let t : Fin cfg0.N := ⟨(y 0).val * 128 + 127, lt_of_lt_of_eq (by omega : (y 0).val * 128 + 127 < 256) (show cfg0.N = 256 from N_0).symm⟩
  have htv : t.val = (y 0).val * 128 + 127 := rfl
  obtain ⟨e0, e1, e2⟩ := idx_facts3 t
  refine ⟨t, (flush0_3 t).mpr (by rw [htv]; omega), ?_⟩
  rw [mem_blk3]
  intro a
  match a with
  | ⟨0, _⟩ => show win0_3.index t 0 * 1 ≤ (y 0).val ∧ (y 0).val < win0_3.index t 0 * 1 + 1; rw [e0, htv]; omega
  | ⟨1, _⟩ => show win0_3.index t 1 * 15 ≤ (y 1).val ∧ (y 1).val < win0_3.index t 1 * 15 + 15; rw [e1]; omega
  | ⟨2, _⟩ => show win0_3.index t 2 * 1000 ≤ (y 2).val ∧ (y 2).val < win0_3.index t 2 * 1000 + 1000; rw [e2]; omega

/-- THE SECOND OUTPUT ARRAY after the run: at (h, b, k) the sum of the contributions of half h's 128 points at (b, k). -/
theorem final3 (c : Dev nD) (f : ℕ → S15x1000.Idx → EReal)
    (hout : ∀ t : Fin cfg0.N, t.val % 128 = 127 → (outsAt0 m c t.val t.isLt).2.1
      = shapeCast S1x15x1000 (Cert.GridRuns.run f t.val) shapeCasts_S15x1000_S1x15x1000) :
    (dats m 0 c).arrAt 3 cfg0.N
      = fun y : S2x15x1000.Idx => ∑ j ∈ Finset.range 128, f ((y 0).val * 128 + j) (ix2 (y 1) (y 2)) :=
  (dats m 0 c).arrAt_eq_of_cover 3 (halfSums f) (flushed3_eq m c f hout) cover3

/-! ## Output window 4 -/

/-- Window 4's block index at point t is (t / 128, 0, 0): one block per half of the grid. -/
theorem idx_facts4 : ∀ t : Fin cfg0.N, win0_4.index t (0 : Fin 3) = t.val / 128 ∧ win0_4.index t (1 : Fin 3) = 0 ∧ win0_4.index t (2 : Fin 3) = 0 :=
  (by decide +kernel : ∀ t : Fin grid0.N, win0_4.index t (0 : Fin 3) = t.val / 128 ∧ win0_4.index t (1 : Fin 3) = 0 ∧ win0_4.index t (2 : Fin 3) = 0)

/-- An index of the array is in point t's block iff each coordinate is in the block's range on its axis. -/
theorem mem_blk4 (t : Fin cfg0.N) (i : S2x15x1000.Idx) :
    i ∈ ((cfg0.win 4).blk t).view.set ↔ ∀ a : Fin 3, win0_4.index t a * S1x15x1000.size a ≤ (i a).val ∧ (i a).val < win0_4.index t a * S1x15x1000.size a + S1x15x1000.size a := by
  show i ∈ ((View.whole main_v1_2).slice (win0_4.rect t)).set ↔ _
  rw [View.set_slice_whole, Rect.mem_set_unit]
  exact Iff.rfl

/-- What a point that writes the block back writes is its block of the half sums: the point is the last of its half, its
    staging buffer holds the half's run as one leading block, and the block sits at (t / 128, 0, 0). -/
theorem flushed4_eq (c : Dev nD) (f : ℕ → S15x1000.Idx → EReal)
    (hout : ∀ t : Fin cfg0.N, t.val % 128 = 127 → (outsAt0 m c t.val t.isLt).2.2.1
      = shapeCast S1x15x1000 (Cert.GridRuns.run f t.val) shapeCasts_S15x1000_S1x15x1000)
    (t : Fin cfg0.N) (hf : (cfg0.win 4).flush t = true) :
    (dats m 0 c).flushed 4 t = ((cfg0.win 4).blk t).view.read (Elt Ideal) (halfSums f) := by
  have ht : t.val % 128 = 127 := (flush0_4 t).mp hf
  obtain ⟨e0, e1, e2⟩ := idx_facts4 t
  show (cfg0.win 4).cut (grid0.coords t) ((dats m 0 c).after 4 t) = _
  rw [after0_4, hout t ht]
  funext j
  refine (cast_run_at f t.val ht _ _).trans ?_
  have h0 : ((((cfg0.win 4).blk t).view.emb j) 0).val = t.val / 128 := by
    show win0_4.index t 0 * 1 + 1 * (j 0).val = t.val / 128
    have hj : (j 0).val < 1 := (j 0).isLt
    rw [e0]; omega
  have hix : (ix2 ((cfg0.win 4).xinj (grid0.coords t) j 1) ((cfg0.win 4).xinj (grid0.coords t) j 2) : S15x1000.Idx)
      = ix2 ((((cfg0.win 4).blk t).view.emb j) 1) ((((cfg0.win 4).blk t).view.emb j) 2) := by
    funext a; apply Fin.ext
    match a with
    | ⟨0, _⟩ => show (j 1).val = win0_4.index t 1 * 15 + 1 * (j 1).val; rw [e1]; omega
    | ⟨1, _⟩ => show (j 2).val = win0_4.index t 2 * 1000 + 1 * (j 2).val; rw [e2]; omega
  show _ = ∑ jj ∈ Finset.range 128, f (((((cfg0.win 4).blk t).view.emb j) 0).val * 128 + jj)
    (ix2 ((((cfg0.win 4).blk t).view.emb j) 1) ((((cfg0.win 4).blk t).view.emb j) 2))
  rw [h0, hix]
  rfl

/-- Every index of the array is in the block of the last point of its half, which is written back. -/
theorem cover4 (y : S2x15x1000.Idx) :
    ∃ t : Fin cfg0.N, (cfg0.win 4).flush t = true ∧ y ∈ ((cfg0.win 4).blk t).view.set := by
  have h0 : (y 0).val < 2 := (y 0).isLt
  have h1 : (y 1).val < 15 := (y 1).isLt
  have h2 : (y 2).val < 1000 := (y 2).isLt
  let t : Fin cfg0.N := ⟨(y 0).val * 128 + 127, lt_of_lt_of_eq (by omega : (y 0).val * 128 + 127 < 256) (show cfg0.N = 256 from N_0).symm⟩
  have htv : t.val = (y 0).val * 128 + 127 := rfl
  obtain ⟨e0, e1, e2⟩ := idx_facts4 t
  refine ⟨t, (flush0_4 t).mpr (by rw [htv]; omega), ?_⟩
  rw [mem_blk4]
  intro a
  match a with
  | ⟨0, _⟩ => show win0_4.index t 0 * 1 ≤ (y 0).val ∧ (y 0).val < win0_4.index t 0 * 1 + 1; rw [e0, htv]; omega
  | ⟨1, _⟩ => show win0_4.index t 1 * 15 ≤ (y 1).val ∧ (y 1).val < win0_4.index t 1 * 15 + 15; rw [e1]; omega
  | ⟨2, _⟩ => show win0_4.index t 2 * 1000 ≤ (y 2).val ∧ (y 2).val < win0_4.index t 2 * 1000 + 1000; rw [e2]; omega

/-- THE THIRD OUTPUT ARRAY after the run: at (h, b, k) the sum of the contributions of half h's 128 points at (b, k). -/
theorem final4 (c : Dev nD) (f : ℕ → S15x1000.Idx → EReal)
    (hout : ∀ t : Fin cfg0.N, t.val % 128 = 127 → (outsAt0 m c t.val t.isLt).2.2.1
      = shapeCast S1x15x1000 (Cert.GridRuns.run f t.val) shapeCasts_S15x1000_S1x15x1000) :
    (dats m 0 c).arrAt 4 cfg0.N
      = fun y : S2x15x1000.Idx => ∑ j ∈ Finset.range 128, f ((y 0).val * 128 + j) (ix2 (y 1) (y 2)) :=
  (dats m 0 c).arrAt_eq_of_cover 4 (halfSums f) (flushed4_eq m c f hout) cover4

/-! ## The input blocks are rows of the arguments -/

/-- Window 0's block index at point t is (t, 0): the blocks of 512 rows follow the points in order. -/
theorem idx_facts0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)

/-- Window 1's block index at point t is (t, 0) too. -/
theorem idx_facts1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)

/-- The logits block of point t at (r, k) is the logits at row 512·t + r, class k. -/
theorem iblk0_at (c : Dev nD) (t : Fin cfg0.N) (r : Fin 512) (k : Fin 1000) :
    (iblk m c 0 t : Vec Ideal S512x1000 .f32) (ix2 r k)
      = m ((c : Thread nD τ).loc main_arg0) (ix2 (⟨t.val * 512 + r.val, by
          have := pt_lt t; have := r.isLt; omega⟩ : Fin 131072) k) := by
  obtain ⟨e0, e1⟩ := idx_facts0 t
  unfold iblk
  rw [View.read_apply]
  show V m c main_arg0 _ = m (c.tc.loc main_arg0) _
  rw [V_main_arg0]
  congr 1
  funext a
  apply Fin.ext
  match a with
  | ⟨0, _⟩ => show win0_0.index t 0 * 512 + 1 * r.val = t.val * 512 + r.val; rw [e0]; omega
  | ⟨1, _⟩ => show win0_0.index t 1 * 1000 + 1 * k.val = k.val; rw [e1]; omega

/-- The labels column as the region finds it (the labels reshaped to one column), at (n, 0): the label of row n. -/
theorem V_main_v0_at (c : Dev nD) (n : Fin 131072) :
    (V m c main_v0 : S131072x1.Idx → BitVec 32) (ix2 n (0 : Fin 1)) = m ((c : Thread nD τ).loc main_arg1) (ix1 n) := by
  have e : (V m c main_v0 : S131072x1.Idx → BitVec 32)
      = shapeCast S131072x1 (m ((c : Thread nD τ).loc main_arg1)) shapeCasts_S131072_S131072x1 := by
    show StableHlo.after hostOps0 (fun b => m (c, b)) (Proc.devRef .tc main_v0) = _
    after_results
    rfl
  rw [e]
  exact shapeCast_apply _ shapeCasts_S131072_S131072x1 (ix2 n (0 : Fin 1)) (ix1 n)
    (by rewrite [Shape.rowMajor_val_one, Shape.rowMajor_val_two]; show n.val = n.val * 1 + 0; omega)

/-- The labels block of point t at (r, 0) is the label of row 512·t + r. -/
theorem iblk1_at (c : Dev nD) (t : Fin cfg0.N) (r : Fin 512) :
    (iblk m c 1 t : Vec Ideal S512x1 .i32) (ix2 r (0 : Fin 1))
      = m ((c : Thread nD τ).loc main_arg1) (ix1 (⟨t.val * 512 + r.val, by
          have := pt_lt t; have := r.isLt; omega⟩ : Fin 131072)) := by
  obtain ⟨e0, e1⟩ := idx_facts1 t
  refine Eq.trans ?_ (V_main_v0_at m c ⟨t.val * 512 + r.val, by have := pt_lt t; have := r.isLt; omega⟩)
  unfold iblk
  rw [View.read_apply]
  show V m c main_v0 _ = V m c main_v0 _
  congr 1
  funext a
  apply Fin.ext
  match a with
  | ⟨0, _⟩ => show win0_1.index t 0 * 512 + 1 * r.val = t.val * 512 + r.val; rw [e0]; omega
  | ⟨1, _⟩ => show win0_1.index t 1 * 1 + 1 * 0 = 0; rw [e1]

end Cert.KernelIdeal.Final

end
-- ==== Proof.HostTail.lean ====
/-
  The host's closing arithmetic, read at the extended reals.

  After the grid has run, three arrays of shape [2, 15, 1000] hold, for each half of the grid, the count, confidence
  and labelled-row histograms that half accumulated. The host adds the two halves (a sum over the first axis started
  from the float zero), turns each (bin, class) cell into its gap, adds the gaps over the bins and then over the
  classes (each sum started from the float zero), and divides by 1000.

  A host sum over one axis is, at a result index, the starting value plus the sum over that axis's coordinates of the
  entries above the index; the source index above a result index with coordinate `k` inserted is written out for the
  two sums into an array, and the sum into a scalar is the sum over every entry, re-indexed by the one coordinate. Every other operation acts entry by entry, so a cell of the gap array is the gap of the three
  cells it is computed from.
-/
import proofs.«133106_j33303176413864_2_alg».proof.KernelIdeal
import proofs.«133106_j33303176413864_2_alg».proof.Proof.Binning
import Idealize.ShloMosaic.PureOps.Ideal.Laws
import Idealize.ShloMosaic.Lib.ValueIdx
import Idealize.ShloMosaic.Lib.IdealHost

noncomputable section

open scoped BigOperators

namespace Cert.KernelIdeal.Tail

open Cert.KernelIdeal Idealize.ShloMosaic Idealize.ShloMosaic.ValueIdx

variable [Facts]
open Facts₀ Facts

/-! ## The host operations after the grid, for any float values -/

section AnyValues
variable {F : FTy → Type} [FloatOps F]

/-- The two halves of one histogram added: the sum over the first axis of [2, 15, 1000], started from the float zero. -/
def halves (A : FVec F S2x15x1000 .f32) : FVec F S15x1000 .f32 :=
  Host.reduceAdd A (constant (F := F) S_ .f32 0x00000000#32) reducesTo_S2x15x1000_S15x1000_d0 h_S_

/-- The gap of every (bin, class) cell from the three histograms: the count clipped below by one divides the
    confidence and the labelled-row count, the absolute difference of the two quotients is weighted by the count over
    131072, and a cell whose count is not positive is set to the float zero. -/
def cells (cnt cf ac : FVec F S15x1000 .f32) : FVec F S15x1000 .f32 :=
  select
    (cmpf .ogt cnt (broadcastInDim S15x1000 ![] bcast_S_S15x1000 (constant (F := F) S_ .f32 0x00000000#32)))
    (mulf
      (Host.absf
        (subf
          (Host.divf cf (maximumf cnt (broadcastInDim S15x1000 ![] bcast_S_S15x1000 (constant (F := F) S_ .f32 0x3F800000#32))))
          (Host.divf ac (maximumf cnt (broadcastInDim S15x1000 ![] bcast_S_S15x1000 (constant (F := F) S_ .f32 0x3F800000#32))))))
      (Host.divf cnt (broadcastInDim S15x1000 ![] bcast_S_S15x1000 (constant (F := F) S_ .f32 0x48000000#32))))
    (broadcastInDim S15x1000 ![] bcast_S_S15x1000 (id (constant (F := F) S_ .f32 0x00000000#32)))

/-- The gaps added over the bins, then over the classes (each sum started from the float zero), and divided by 1000. -/
def closing (w : FVec F S15x1000 .f32) : FVec F S_ .f32 :=
  Host.divf
    (Host.reduceAdd
      (Host.reduceAdd w (constant (F := F) S_ .f32 0x00000000#32) reducesTo_S15x1000_S1000_d0 h_S_)
      (constant (F := F) S_ .f32 0x00000000#32) reducesTo_S1000_S_d0 h_S_)
    (constant (F := F) S_ .f32 0x447A0000#32)

/-- Everything the host does after the grid, as one function of the three [2, 15, 1000] arrays the grid leaves. -/
def tailK (A0 A1 A2 : FVec F S2x15x1000 .f32) : FVec F S_ .f32 :=
  closing (cells (halves A0) (halves A1) (halves A2))

end AnyValues

/-! ## The source index above a result index -/

/-- Above (b, c) of [15, 1000], with `k` inserted on the first axis of [2, 15, 1000], lies (k, b, c). -/
theorem lift_2x15x1000 (h : S2x15x1000.Reduces [0] S15x1000) (b : Fin 15) (c : Fin 1000) (k : Fin 2) :
    h.lift (ix2 b c) k = ix3 k b c := by
  funext a
  match a with
  | ⟨0, _⟩ => exact Fin.ext rfl
  | ⟨1, _⟩ => exact Fin.ext rfl
  | ⟨2, _⟩ => exact Fin.ext rfl

/-- Above (c) of [1000], with `k` inserted on the first axis of [15, 1000], lies (k, c). -/
theorem lift_15x1000 (h : S15x1000.Reduces [0] S1000) (c : Fin 1000) (k : Fin 15) :
    h.lift (ix1 c) k = ix2 k c := by
  funext a
  match a with
  | ⟨0, _⟩ => exact Fin.ext rfl
  | ⟨1, _⟩ => exact Fin.ext rfl

/-- A rank-1 index set is its one coordinate's range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-! ## The three host sums at an index -/

/-- The two halves added, at (b, c): the float zero plus the two entries above it. -/
theorem halves_apply (A : FVec Ideal S2x15x1000 .f32) (b : Fin 15) (c : Fin 1000) :
    halves (F := Ideal) A (ix2 b c) = Ideal.ofBits .f32 0x00000000#32 + ∑ h : Fin 2, A (ix3 h b c) := by
  have hr : S2x15x1000.Reduces [0] S15x1000 := by decide
  unfold halves
  rw [hostReduceAdd_apply, Ideal.hostReduceAdd_single reducesTo_S2x15x1000_S15x1000_d0 hr, constant_apply]
  exact congrArg _ (Finset.sum_congr rfl fun k _ => congrArg A (lift_2x15x1000 hr b c k))

/-- A [15, 1000] array added over its bins, at (c): the float zero plus the fifteen entries above it. -/
theorem binSum_apply (w : FVec Ideal S15x1000 .f32) (c : Fin 1000) :
    Host.reduceAdd w (constant (F := Ideal) S_ .f32 0x00000000#32) reducesTo_S15x1000_S1000_d0 h_S_ (ix1 c)
      = Ideal.ofBits .f32 0x00000000#32 + ∑ b : Fin 15, w (ix2 b c) := by
  have hr : S15x1000.Reduces [0] S1000 := by decide
  rw [hostReduceAdd_apply, Ideal.hostReduceAdd_single reducesTo_S15x1000_S1000_d0 hr, constant_apply]
  exact congrArg _ (Finset.sum_congr rfl fun k _ => congrArg w (lift_15x1000 hr c k))

/-- A [1000] array added over its classes into a scalar: the float zero plus the thousand entries. -/
theorem classSum_apply (v : FVec Ideal S1000 .f32) (i : S_.Idx) :
    Host.reduceAdd v (constant (F := Ideal) S_ .f32 0x00000000#32) reducesTo_S1000_S_d0 h_S_ i
      = Ideal.ofBits .f32 0x00000000#32 + ∑ c : Fin 1000, v (ix1 c) := by
  rw [hostReduceAdd_apply, Ideal.hostReduceAdd_total reducesTo_S1000_S_d0 (fun b => b.elim0), constant_apply]
  exact congrArg _ (sum_idx1 v)

/-! ## A cell of the gap array -/

/-- The gap array at (b, c) is the gap of the three histograms' cells at (b, c). -/
theorem cells_apply (cnt cf ac : FVec Ideal S15x1000 .f32) (j : S15x1000.Idx) :
    cells (F := Ideal) cnt cf ac j = Cert.Hist.gap (cnt j) (cf j) (ac j) := rfl

/-! ## The whole tail -/

/-- The closing sums and the division, at the one index of the result. -/
theorem closing_apply (w : FVec Ideal S15x1000 .f32) (i : S_.Idx) :
    closing (F := Ideal) w i
      = Ideal.div
          (Ideal.ofBits .f32 0x00000000#32 + ∑ c : Fin 1000, (Ideal.ofBits .f32 0x00000000#32 + ∑ b : Fin 15, w (ix2 b c)))
          (Ideal.ofBits .f32 0x447A0000#32) := by
  unfold closing
  rw [hostDivf_apply, classSum_apply, constant_apply]
  exact congrArg (fun z => Ideal.div (Ideal.ofBits .f32 0x00000000#32 + z) (Ideal.ofBits .f32 0x447A0000#32))
    (Finset.sum_congr rfl fun c _ => binSum_apply w c)

/-- The host's tail at the extended reals: the two halves of each histogram added from the float zero, each cell's
    gap, the gaps added over the bins and the classes from the float zero, divided by 1000. -/
theorem tailK_apply (A0 A1 A2 : FVec Ideal S2x15x1000 .f32) (i : S_.Idx) :
    tailK (F := Ideal) A0 A1 A2 i
      = Ideal.div
          (Ideal.ofBits .f32 0x00000000#32 + ∑ c : Fin 1000,
            (Ideal.ofBits .f32 0x00000000#32 + ∑ b : Fin 15,
              Cert.Hist.gap
                (Ideal.ofBits .f32 0x00000000#32 + ∑ h : Fin 2, A0 (ix3 h b c))
                (Ideal.ofBits .f32 0x00000000#32 + ∑ h : Fin 2, A1 (ix3 h b c))
                (Ideal.ofBits .f32 0x00000000#32 + ∑ h : Fin 2, A2 (ix3 h b c))))
          (Ideal.ofBits .f32 0x447A0000#32) := by
  unfold tailK
  rw [closing_apply]
  refine congrArg (fun z => Ideal.div (Ideal.ofBits .f32 0x00000000#32 + z) (Ideal.ofBits .f32 0x447A0000#32))
    (Finset.sum_congr rfl fun c _ => congrArg _ (Finset.sum_congr rfl fun b _ => ?_))
  rw [cells_apply, halves_apply, halves_apply, halves_apply]

end Cert.KernelIdeal.Tail

end
-- ==== Proof.TailResult.lean ====
/-
  The kernel's result buffer after the lines that follow the region.

  After the region the three output arrays hold what the grid's points wrote to them; the lines after the region read
  nothing else, so the result buffer ends at the tail function of those three arrays.
-/
import proofs.«133106_j33303176413864_2_alg».proof.Proof.Gen.KernelIdeal.Frame
import proofs.«133106_j33303176413864_2_alg».proof.Proof.HostTail
import Idealize.ShloMosaic.Lib.StableHlo.Run
import Idealize.ShloMosaic.Lib.Tactic

set_option maxRecDepth 16384

noncomputable section

namespace Cert.KernelIdeal.KRun

open Idealize.ShloMosaic Idealize.ShloMosaic.TcCoe Idealize.SL.Sem Idealize.ShloMosaic.StableHlo
open Cert.KernelIdeal Cert.KernelIdeal.Gen Cert.KernelIdeal.Tail

variable {F : FTy → Type} [FloatOps F]
variable (m : (ℓ : Loc nD τ sig) → Buf (Elt F) ℓ)

/-- The result buffer after the lines that follow the region: the tail function of the three output arrays. -/
theorem tail_result (c : Dev nD) :
    Pipeline.afterTail₀ cfgs (dats m) 0 (V0 m) [hostOps1, hostOps1_1, hostOps1_2] c main_v19
      = tailK (F := F) ((dats m 0 c).arrAt 2 cfg0.N) ((dats m 0 c).arrAt 3 cfg0.N) ((dats m 0 c).arrAt 4 cfg0.N) := by
  have e2 : Pipeline.withArrays (cfgs 0).spec c (V0 m c) (fun w => (dats m 0 c).arrAt w (cfgs 0).N) (Proc.devRef .tc main_v1_0)
      = (dats m 0 c).arrAt 2 cfg0.N := Pipeline.withArrays_arr spec0 launch0.win.arr_inj c _ _ 2
  have e3 : Pipeline.withArrays (cfgs 0).spec c (V0 m c) (fun w => (dats m 0 c).arrAt w (cfgs 0).N) (Proc.devRef .tc main_v1_1)
      = (dats m 0 c).arrAt 3 cfg0.N := Pipeline.withArrays_arr spec0 launch0.win.arr_inj c _ _ 3
  have e4 : Pipeline.withArrays (cfgs 0).spec c (V0 m c) (fun w => (dats m 0 c).arrAt w (cfgs 0).N) (Proc.devRef .tc main_v1_2)
      = (dats m 0 c).arrAt 4 cfg0.N := Pipeline.withArrays_arr spec0 launch0.win.arr_inj c _ _ 4
  unfold Pipeline.afterTail₀
  simp only [hostOps1, hostOps1_1, hostOps1_2, List.flatten_cons, List.flatten_nil, List.append_nil, List.cons_append,
    List.nil_append]
  after_results_simp
  rw [e2, e3, e4]
  rfl

end Cert.KernelIdeal.KRun

end
-- ==== Proof.BlockBridge.lean ====
/-
  One block's contributions, and the grid's totals, set beside the histograms of the specification.

  A grid point stages block `t` of the logits and of the labels: row `r` of the staged block is row `512·t + r` of
  the whole array. The probabilities, bins and label matches the body computes from the staged block are then those
  of the specification at that row, so what the block adds to the count, confidence and labelled-row accumulators at
  (bin, class) is the block's share of the corresponding histogram. For the labelled rows the body multiplies the
  indicator of the bin of each row's own label's probability by the label match; that product is the masked label
  match.

  A half of the grid adds its 128 blocks' shares; the host then adds the two halves from the float zero, which is the
  extended real zero, so each total is the histogram itself, and the host's closing arithmetic on the three totals is
  the calibration error of the specification.
-/
import proofs.«133106_j33303176413864_2_alg».proof.Proof.BlockValues
import proofs.«133106_j33303176413864_2_alg».proof.Proof.BlockHist
import proofs.«133106_j33303176413864_2_alg».proof.Proof.BinRange
import proofs.«133106_j33303176413864_2_alg».proof.Proof.HostTail

noncomputable section

open scoped BigOperators

namespace Cert.KernelIdeal.Bridge

open Cert.KernelIdeal Cert.KernelIdeal.Gen Cert.KernelIdeal.Block Cert.KernelIdeal.Tail
open Idealize.ShloMosaic Idealize.ShloMosaic.ValueIdx Cert.Hist

/-! ## A select on an equality bit -/

/-- A select whose condition is the equality bit of two words is the `if` on their equality. -/
theorem select_cmpi_eq {α : Type} {w : Nat} (u v : BitVec w) (a z : α) :
    Scalar.select (IntOp.cmpi .eq u v) a z = if u = v then a else z := by
  by_cases h : u = v
  · rw [(cmpi_eq_one_iff u v).mpr h, select_one, if_pos h]
  · rw [(cmpi_eq_zero_iff u v).mpr h, select_zero, if_neg h]

/-! ## The staged block is the specification's block -/

section Block
variable (X : Logits) (L : Labels) (t : Fin 256)
variable (x0 : Vec Ideal S512x1000 .f32) (x1 : Vec Ideal S512x1 .i32)

/-- The probability the body computes at (r, c) of the staged block is the specification's at row `512·t + r`. -/
theorem probs_eq (hx : ∀ (r : Fin 512) (k : Fin 1000), x0 (ix2 r k) = X (ix2 (rowOf t r) k)) (r : Fin 512) (c : Fin 1000) :
    k0_pay8 (F := Ideal) x0 (ix2 r c) = prob X (rowOf t r) c := by
  rw [probs_apply]
  exact congrArg (fun f => rowProb f c) (funext fun k => hx r k)

/-- The bin the body computes at (r, c) of the staged block is the bin of the specification's probability there. -/
theorem bins_eq (hx : ∀ (r : Fin 512) (k : Fin 1000), x0 (ix2 r k) = X (ix2 (rowOf t r) k)) (r : Fin 512) (c : Fin 1000) :
    k0_pay9 (F := Ideal) x0 (ix2 r c) = binOf (prob X (rowOf t r) c) := by
  rw [bins_apply]
  exact congrArg (fun f => binOf (rowProb f c)) (funext fun k => hx r k)

/-- The label match the body computes at (r, c) of the staged block is the specification's at row `512·t + r`. -/
theorem labs_eq (hl : ∀ r : Fin 512, x1 (ix2 r (0 : Fin 1)) = L (ix1 (rowOf t r))) (r : Fin 512) (c : Fin 1000) :
    k0_pay10 (F := Ideal) x1 (ix2 r c) = labOf (L (ix1 (rowOf t r))) c := by
  rw [labs_apply, labK_eq, hl r]

/-- What the block adds to the count accumulator at (b, c) is its share of the count histogram. -/
theorem masked_count (hx : ∀ (r : Fin 512) (k : Fin 1000), x0 (ix2 r k) = X (ix2 (rowOf t r) k)) (b : Fin 15) (c : Fin 1000) :
    masked (k0_pay9 (F := Ideal) x0) ones (ix2 b c) = blockSum_count X t b c := by
  unfold masked blockSum_count
  refine Finset.sum_congr rfl fun r _ => ?_
  show Scalar.select (IntOp.cmpi .eq (k0_pay9 (F := Ideal) x0 (ix2 r c)) (BitVec.ofNat 32 b.val))
      (Ideal.ofBits .f32 0x3F800000#32) (Ideal.ofBits .f32 0x00000000#32) = _
  rw [select_cmpi_eq, bins_eq X t x0 hx r c, Ideal.ofBits_zero_f32]
  rfl

/-- What the block adds to the confidence accumulator at (b, c) is its share of the confidence histogram. -/
theorem masked_conf (hx : ∀ (r : Fin 512) (k : Fin 1000), x0 (ix2 r k) = X (ix2 (rowOf t r) k)) (b : Fin 15) (c : Fin 1000) :
    masked (k0_pay9 (F := Ideal) x0) (k0_pay8 (F := Ideal) x0) (ix2 b c) = blockSum_conf X t b c := by
  unfold masked blockSum_conf
  refine Finset.sum_congr rfl fun r _ => ?_
  show Scalar.select (IntOp.cmpi .eq (k0_pay9 (F := Ideal) x0 (ix2 r c)) (BitVec.ofNat 32 b.val))
      (k0_pay8 (F := Ideal) x0 (ix2 r c)) (Ideal.ofBits .f32 0x00000000#32) = _
  rw [select_cmpi_eq, bins_eq X t x0 hx r c, probs_eq X t x0 hx r c, Ideal.ofBits_zero_f32]
  rfl

/-- What the block adds to the labelled-row accumulator at (b, c) is its share of the labelled-row histogram. -/
theorem hot_acc (hx : ∀ (r : Fin 512) (k : Fin 1000), x0 (ix2 r k) = X (ix2 (rowOf t r) k))
    (hl : ∀ r : Fin 512, x1 (ix2 r (0 : Fin 1)) = L (ix1 (rowOf t r))) (b : Fin 15) (c : Fin 1000) :
    hot (k0_pay8 (F := Ideal) x0) (k0_pay10 (F := Ideal) x1) (ix2 b c) = blockSum_acc X L t b c := by
  rw [blockSum_acc_eq_onehot]
  unfold hot
  refine Finset.sum_congr rfl fun r _ => ?_
  show (((BitVec.setWidth 32 (IntOp.cmpi .eq
        (binOf (∑ k : Fin 1000, k0_pay8 (F := Ideal) x0 (ix2 r k) * k0_pay10 (F := Ideal) x1 (ix2 r k)))
        (BitVec.ofNat 32 b.val))).toInt : ℝ) : EReal) * k0_pay10 (F := Ideal) x1 (ix2 r c) = _
  have hsum : ∑ k : Fin 1000, k0_pay8 (F := Ideal) x0 (ix2 r k) * k0_pay10 (F := Ideal) x1 (ix2 r k)
      = ∑ k : Fin 1000, prob X (rowOf t r) k * labOf (L (ix1 (rowOf t r))) k :=
    Finset.sum_congr rfl fun k _ => by rw [probs_eq X t x0 hx r k, labs_eq L t x1 hl r k]
  rw [hsum, labs_eq L t x1 hl r c]
  rfl

end Block

/-! ## The totals of the grid -/

/-- Two halves, each the sum of its 128 blocks' shares, added from the float zero: the sum of all 256 shares in the
    order the grid visits them. -/
theorem total_of_blocks (K : FVec Ideal S2x15x1000 .f32) (sN : ℕ → Fin 15 → Fin 1000 → EReal)
    (g : Fin 256 → Fin 15 → Fin 1000 → EReal)
    (hK : ∀ (h : Fin 2) (b : Fin 15) (c : Fin 1000), K (ix3 h b c) = ∑ j ∈ Finset.range 128, sN (h.val * 128 + j) b c)
    (hs : ∀ (t : ℕ) (ht : t < 256) (b : Fin 15) (c : Fin 1000), sN t b c = g ⟨t, ht⟩ b c) (b : Fin 15) (c : Fin 1000) :
    Ideal.ofBits .f32 0x00000000#32 + ∑ h : Fin 2, K (ix3 h b c)
      = ∑ h : Fin 2, ∑ i : Fin 128, g ⟨h.val * 128 + i.val, blk_lt h i⟩ b c := by
  rw [Ideal.ofBits_zero_f32, zero_add]
  refine Finset.sum_congr rfl fun h _ => ?_
  rw [hK h b c, Finset.sum_range]
  exact Finset.sum_congr rfl fun i _ => hs (h.val * 128 + i.val) (blk_lt h i) b c

/-- The count total is the count histogram. -/
theorem count_total (X : Logits) (K : FVec Ideal S2x15x1000 .f32) (sN : ℕ → Fin 15 → Fin 1000 → EReal)
    (hK : ∀ (h : Fin 2) (b : Fin 15) (c : Fin 1000), K (ix3 h b c) = ∑ j ∈ Finset.range 128, sN (h.val * 128 + j) b c)
    (hs : ∀ (t : ℕ) (ht : t < 256) (b : Fin 15) (c : Fin 1000), sN t b c = blockSum_count X ⟨t, ht⟩ b c)
    (b : Fin 15) (c : Fin 1000) :
    Ideal.ofBits .f32 0x00000000#32 + ∑ h : Fin 2, K (ix3 h b c) = count X b c :=
  (total_of_blocks K sN (blockSum_count X) hK hs b c).trans (count_eq_sum_grid X b c).symm

/-- The confidence total is the confidence histogram. -/
theorem conf_total (X : Logits) (K : FVec Ideal S2x15x1000 .f32) (sN : ℕ → Fin 15 → Fin 1000 → EReal)
    (hK : ∀ (h : Fin 2) (b : Fin 15) (c : Fin 1000), K (ix3 h b c) = ∑ j ∈ Finset.range 128, sN (h.val * 128 + j) b c)
    (hs : ∀ (t : ℕ) (ht : t < 256) (b : Fin 15) (c : Fin 1000), sN t b c = blockSum_conf X ⟨t, ht⟩ b c)
    (b : Fin 15) (c : Fin 1000) :
    Ideal.ofBits .f32 0x00000000#32 + ∑ h : Fin 2, K (ix3 h b c) = conf X b c :=
  (total_of_blocks K sN (blockSum_conf X) hK hs b c).trans (conf_eq_sum_grid X b c).symm

/-- The labelled-row total is the labelled-row histogram. -/
theorem acc_total (X : Logits) (L : Labels) (K : FVec Ideal S2x15x1000 .f32) (sN : ℕ → Fin 15 → Fin 1000 → EReal)
    (hK : ∀ (h : Fin 2) (b : Fin 15) (c : Fin 1000), K (ix3 h b c) = ∑ j ∈ Finset.range 128, sN (h.val * 128 + j) b c)
    (hs : ∀ (t : ℕ) (ht : t < 256) (b : Fin 15) (c : Fin 1000), sN t b c = blockSum_acc X L ⟨t, ht⟩ b c)
    (b : Fin 15) (c : Fin 1000) :
    Ideal.ofBits .f32 0x00000000#32 + ∑ h : Fin 2, K (ix3 h b c) = acc X L b c :=
  (total_of_blocks K sN (blockSum_acc X L) hK hs b c).trans (acc_eq_sum_grid X L b c).symm

/-! ## The host's tail on the grid's totals -/

variable [Facts]

/-- With each of the three arrays the grid leaves holding, per half, the sum of that half's 128 blocks' shares, the
    host's closing arithmetic gives the calibration error of the specification. -/
theorem tailK_eq_total (X : Logits) (L : Labels) (K0 K1 K2 : FVec Ideal S2x15x1000 .f32)
    (s0 s1 s2 : ℕ → Fin 15 → Fin 1000 → EReal)
    (hK0 : ∀ (h : Fin 2) (b : Fin 15) (c : Fin 1000), K0 (ix3 h b c) = ∑ j ∈ Finset.range 128, s0 (h.val * 128 + j) b c)
    (hs0 : ∀ (t : ℕ) (ht : t < 256) (b : Fin 15) (c : Fin 1000), s0 t b c = blockSum_count X ⟨t, ht⟩ b c)
    (hK1 : ∀ (h : Fin 2) (b : Fin 15) (c : Fin 1000), K1 (ix3 h b c) = ∑ j ∈ Finset.range 128, s1 (h.val * 128 + j) b c)
    (hs1 : ∀ (t : ℕ) (ht : t < 256) (b : Fin 15) (c : Fin 1000), s1 t b c = blockSum_conf X ⟨t, ht⟩ b c)
    (hK2 : ∀ (h : Fin 2) (b : Fin 15) (c : Fin 1000), K2 (ix3 h b c) = ∑ j ∈ Finset.range 128, s2 (h.val * 128 + j) b c)
    (hs2 : ∀ (t : ℕ) (ht : t < 256) (b : Fin 15) (c : Fin 1000), s2 t b c = blockSum_acc X L ⟨t, ht⟩ b c) :
    tailK (F := Ideal) K0 K1 K2 = fun _ => total X L := by
  funext i
  rw [tailK_apply]
  unfold total
  refine congrArg (fun z => Ideal.div (Ideal.ofBits .f32 0x00000000#32 + z) (Ideal.ofBits .f32 0x447A0000#32))
    (Finset.sum_congr rfl fun c _ => congrArg _ (Finset.sum_congr rfl fun b _ => ?_))
  rw [count_total X K0 s0 hK0 hs0 b c, conf_total X K1 s1 hK1 hs1 b c, acc_total X L K2 s2 hK2 hs2 b c]

end Cert.KernelIdeal.Bridge

end
-- ==== Proof.KernelValue.lean ====
/-
  The kernel's result is the calibration error of the specification.

  After the run each of the three output arrays holds, at (h, b, k), the sum over the 128 points of half h of the
  points' contributions to its accumulator at (b, k). Point t stages block t of the logits and of the labels, whose row r
  is row 512·t + r of the arguments, so a point's contribution is the block's share of the corresponding histogram.
  The lines after the region add the two halves and do the closing arithmetic on the three totals: the result is the
  calibration error, and the two arguments are left as launched.
-/
import proofs.«133106_j33303176413864_2_alg».proof.Proof.Invariant
import proofs.«133106_j33303176413864_2_alg».proof.Proof.FinalArrays
import proofs.«133106_j33303176413864_2_alg».proof.Proof.TailResult
import proofs.«133106_j33303176413864_2_alg».proof.Proof.BlockBridge

set_option maxRecDepth 16384

noncomputable section

open scoped BigOperators

namespace Cert.KernelIdeal.KValue

open Cert.KernelIdeal Cert.KernelIdeal.Gen Cert.KernelIdeal.Block Cert.KernelIdeal.Tail
open Idealize.ShloMosaic Idealize.ShloMosaic.TcCoe Idealize.SL.Sem Idealize.ShloMosaic.ValueIdx
open Idealize.ShloMosaic.Pipeline (Dat)
open Cert.Hist

variable (m : (ℓ : Loc nD τ sig) → Buf (Elt Ideal) ℓ)

/-- A point below 256 is a point of the grid. -/
theorem lt_N {t : ℕ} (ht : t < 256) : t < cfg0.N := lt_of_lt_of_eq ht (show cfg0.N = 256 from N_0).symm

/-- Point t's contribution to the count accumulator at (b, k) is block t's share of the count histogram. -/
theorem cnt_share (c : Dev nD) (t : ℕ) (ht : t < 256) (b : Fin 15) (k : Fin 1000) :
    Inv.cntN m c t (ix2 b k) = blockSum_count (m ((c : Thread nD τ).loc main_arg0)) ⟨t, ht⟩ b k :=
  (congrFun (dif_pos (lt_N ht) : Inv.cntN m c t = _) (ix2 b k)).trans
    (Bridge.masked_count (m ((c : Thread nD τ).loc main_arg0)) ⟨t, ht⟩ (iblk m c 0 ⟨t, lt_N ht⟩)
      (fun r j => Final.iblk0_at m c ⟨t, lt_N ht⟩ r j) b k)

/-- Point t's contribution to the confidence accumulator at (b, k) is block t's share of the confidence histogram. -/
theorem cnf_share (c : Dev nD) (t : ℕ) (ht : t < 256) (b : Fin 15) (k : Fin 1000) :
    Inv.cnfN m c t (ix2 b k) = blockSum_conf (m ((c : Thread nD τ).loc main_arg0)) ⟨t, ht⟩ b k :=
  (congrFun (dif_pos (lt_N ht) : Inv.cnfN m c t = _) (ix2 b k)).trans
    (Bridge.masked_conf (m ((c : Thread nD τ).loc main_arg0)) ⟨t, ht⟩ (iblk m c 0 ⟨t, lt_N ht⟩)
      (fun r j => Final.iblk0_at m c ⟨t, lt_N ht⟩ r j) b k)

/-- Point t's contribution to the labelled-row accumulator at (b, k) is block t's share of the labelled-row histogram. -/
theorem hot_share (c : Dev nD) (t : ℕ) (ht : t < 256) (b : Fin 15) (k : Fin 1000) :
    Inv.hotN m c t (ix2 b k)
      = blockSum_acc (m ((c : Thread nD τ).loc main_arg0)) (m ((c : Thread nD τ).loc main_arg1)) ⟨t, ht⟩ b k :=
  (congrFun (dif_pos (lt_N ht) : Inv.hotN m c t = _) (ix2 b k)).trans
    (Bridge.hot_acc (m ((c : Thread nD τ).loc main_arg0)) (m ((c : Thread nD τ).loc main_arg1)) ⟨t, ht⟩
      (iblk m c 0 ⟨t, lt_N ht⟩) (iblk m c 1 ⟨t, lt_N ht⟩)
      (fun r j => Final.iblk0_at m c ⟨t, lt_N ht⟩ r j) (fun r => Final.iblk1_at m c ⟨t, lt_N ht⟩ r) b k)

/-- THE RESULT OF THE CLOSING ARITHMETIC on the three output arrays the grid leaves is the calibration error. -/
theorem result_eq (c : Dev nD) :
    tailK (F := Ideal) ((dats m 0 c).arrAt 2 cfg0.N) ((dats m 0 c).arrAt 3 cfg0.N) ((dats m 0 c).arrAt 4 cfg0.N)
      = fun _ => Cert.Hist.total (m ((c : Thread nD τ).loc main_arg0)) (m ((c : Thread nD τ).loc main_arg1)) :=
  Bridge.tailK_eq_total (m ((c : Thread nD τ).loc main_arg0)) (m ((c : Thread nD τ).loc main_arg1)) _ _ _
    (fun t b k => Inv.cntN m c t (ix2 b k)) (fun t b k => Inv.cnfN m c t (ix2 b k)) (fun t b k => Inv.hotN m c t (ix2 b k))
    (fun h b k => congrFun (Final.final2 m c (Inv.cntN m c) fun t h127 => (Inv.out_at m c t h127).1) (ix3 h b k))
    (cnt_share m c)
    (fun h b k => congrFun (Final.final3 m c (Inv.cnfN m c) fun t h127 => (Inv.out_at m c t h127).2.1) (ix3 h b k))
    (cnf_share m c)
    (fun h b k => congrFun (Final.final4 m c (Inv.hotN m c) fun t h127 => (Inv.out_at m c t h127).2.2) (ix3 h b k))
    (hot_share m c)

/-- THE RUN, READ: every weakly fair execution of the program from a memory with zero counters terminates with the
    result buffer at the calibration error of the launch contents of the two arguments, and the arguments unchanged. -/
theorem run (ρ : Dev nD → PrngReg) :
    θ_run defs (onTc (τ := τ) (main (F := Ideal))) ⟨m, fun _ => 0, ρ⟩ (fun r => ∀ c : Dev nD,
      r.2.mem ((c.tc : Thread nD τ).loc main_v19)
          = (fun _ => Cert.Hist.total (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v19 (Pipeline.mem_restRefs_of main_v19 (by decide) (by decide))).trans
        ((KRun.tail_result m c).trans (result_eq m c)),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c)⟩)
    (run_main m ρ)

end Cert.KernelIdeal.KValue

end
-- ==== Proof.lean ====
/-
  The certificate of the classwise calibration error kernel against its jnp reference.

  Both programs compute, from 131072 rows of 1000 logits and one label per row, the softmax of every row, the bin of every
  probability (⌈15·p⌉ − 1 clipped into [0, 14]), three histograms over (bin, class) — how many rows fall in the cell, the sum
  of their probabilities, how many of them carry the class as label —, the gap |conf / max(count, 1) − acc / max(count, 1)| ·
  count / 131072 of every non-empty cell, and the mean over the classes of the gaps summed over the bins
  (`Cert.Hist.total`, Proof/Binning.lean).

  The reference takes each histogram as ONE segment sum over all 131072000 (row, class) pairs, the segment of a pair being
  bin + 15 · class. The kernel visits the rows in 256 blocks of 512, two halves of 128 blocks; a block adds, bin by bin,
  its masked column sums to a row of the count and of the confidence accumulators, and adds to the accuracy accumulator the
  product, contracted over the block's rows, of the one-hot bin of each row's true-class probability with the one-hot
  label — which is the masked label sum, because a row's true-class probability is its probability at its label. The last
  block of a half writes the accumulators out, and the lines after the region add the two halves. Over the extended reals a
  sum does not depend on how it is grouped, x · 0 = 0 and x · 1 = x hold at the infinities too, so the two programs agree
  for every input: the precondition is not used.

  Modules: Binning (the specification), BinRange, BlockHist, BlockValues, BlockBridge, HostTail (mathematics of a block and
  of the tail); Pieces, PiecesA, PiecesOut, Invariant, FinalArrays, TailResult, KernelValue (the kernel's run read as that
  mathematics); RefRunP, RefReadP, RefHist, LibScatterFlat (the reference's run read as the same).
-/
import proofs.«133106_j33303176413864_2_alg».proof.Defs
import proofs.«133106_j33303176413864_2_alg».proof.Proof.Gen.Kernel
import proofs.«133106_j33303176413864_2_alg».proof.Proof.Gen.Kernel.Skeleton
import proofs.«133106_j33303176413864_2_alg».proof.Proof.Gen.Kernel.Launch
import proofs.«133106_j33303176413864_2_alg».proof.Proof.Gen.Kernel.Points
import proofs.«133106_j33303176413864_2_alg».proof.Proof.Gen.Kernel.Frame
import proofs.«133106_j33303176413864_2_alg».proof.Proof.Gen.KernelIdeal
import proofs.«133106_j33303176413864_2_alg».proof.Proof.Gen.KernelIdeal.Skeleton
import proofs.«133106_j33303176413864_2_alg».proof.Proof.Gen.KernelIdeal.Launch
import proofs.«133106_j33303176413864_2_alg».proof.Proof.Gen.KernelIdeal.Points
import proofs.«133106_j33303176413864_2_alg».proof.Proof.Gen.KernelIdeal.Frame
import proofs.«133106_j33303176413864_2_alg».proof.Proof.Gen.ReferenceIdeal
import proofs.«133106_j33303176413864_2_alg».proof.Proof.Gen.Pre_finite_inputs
import proofs.«133106_j33303176413864_2_alg».proof.Proof.RefRunP
import proofs.«133106_j33303176413864_2_alg».proof.Proof.RefReadP
import proofs.«133106_j33303176413864_2_alg».proof.Proof.RefHist
import proofs.«133106_j33303176413864_2_alg».proof.Proof.KernelValue
import Idealize.ShloMosaic.Adequacy
import Idealize.ShloMosaic.Init

noncomputable section

namespace Cert.Proof

open Idealize.ShloMosaic Idealize.ShloMosaic.TcCoe Idealize.SL.Sem

/-- The kernel as printed runs, and its arguments end unchanged. -/
theorem frame_k : Cert.frame_Kernel := fun m ρ _ => Cert.Kernel.Gen.frame m ρ

/-- The idealized kernel runs, and its arguments end unchanged. -/
theorem frame_ki : Cert.frame_KernelIdeal := fun m ρ _ => Cert.KernelIdeal.Gen.frame m ρ

/-- The reference runs, and its arguments end unchanged: its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The idealization rewrote nothing. -/
theorem preserves : Cert.preserves_Kernel_KernelIdeal := trivial

/-- Over the extended reals the kernel's result buffer ends at the calibration error of its arguments, and the reference's at
    the calibration error of arguments that agree with them: the same number. -/
theorem algebraic : Cert.algebraic_KernelIdeal_ReferenceIdeal := by
  intro m ρ m' ρ' _ hagree
  refine ⟨fun c _ => Cert.Hist.total (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.KValue.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v61_eq, Cert.ReferenceIdeal.RefValue.ref_total, (hagree c).1, (hagree c).2]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
